-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v131_0)) (v1 : (c : Dev Cert.KernelIdeal.nD) → Buf (Elt Ideal) ((c.tc : Thread Cert.KernelIdeal.nD Cert.KernelIdeal.τ).loc Cert.KernelIdeal.main_v131_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131_0) = v0 c
          ∧ r.2.mem ((c.tc : Thread Cert.KernelIdeal.nD Cert.KernelIdeal.τ).loc Cert.KernelIdeal.main_v131_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S_ : Shape := ⟨0, ![]⟩

class Facts : Prop where
  bcast_S_S262144x126 : S_.BroadcastsInDim S262144x126 (![] : Fin 0 → Fin S262144x126.rank)
  reducesTo_S262144x126_S_d0_1 : S262144x126.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S9x16 : S_.BroadcastsInDim S9x16 (![] : Fin 0 → Fin S9x16.rank)
  reducesTo_S9x16_S_d0_1 : S9x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S57x128 : S_.BroadcastsInDim S57x128 (![] : Fin 0 → Fin S57x128.rank)
  reducesTo_S57x128_S_d0_1 : S57x128.ReducesTo [0, 1] S_
  bcast_S_S128 : S_.BroadcastsInDim S128 (![] : Fin 0 → Fin S128.rank)
  reducesTo_S128_S_d0 : S128.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_

variable [Facts]

def fn_part2 {F : FTy → Type} [FloatOps F] (main_arg7 : FVec F S128 .f32) (main_arg8 : FVec F S128x30 .f32) (main_arg9 : FVec F S30 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x30 .f32 := Host.absf main_arg8
  let main_cst_14 : FVec F S_ .f32 := constant S_ .f32 0x7F800000#32
  let main_v40 : FVec F S128x30 .f32 := broadcastInDim S128x30 ![] bcast_S_S128x30 main_cst_14
  let main_v41 : IVec S128x30 1 := cmpf .olt main_v39 main_v40
  let main_c_15 : IVec S_ 1 := constantI S_ 1 1#1
  let main_v42 : IVec S_ 1 := (fun x v => Host.reduce IntOp.andi x v reducesTo_S128x30_S_d0_1 h_S_) main_v41 main_c_15
  let main_v43 : IVec S_ 1 := andi main_v38 main_v42
  let main_v44 : FVec F S30 .f32 := Host.absf main_arg9
  let main_cst_16 : FVec F S_ .f32 := constant S_ .f32 0x7F800000#32
  let main_v45 : FVec F S30 .f32 := broadcastInDim S30 ![] bcast_S_S30 main_cst_16
  let main_v46 : IVec S30 1 := cmpf .olt main_v44 main_v45
  let main_c_17 : IVec S_ 1 := constantI S_ 1 1#1
  let main_v47 : IVec S_ 1 := (fun x v => Host.reduce IntOp.andi x v reducesTo_S30_S_d0 h_S_) main_v46 main_c_17
  let main_v48 : IVec S_ 1 := andi main_v43 main_v47
  main_v48

def fn_part1 {F : FTy → Type} [FloatOps F] (main_arg4 : FVec F S16x4 .f32) (main_arg5 : FVec F S4 .f32) (main_arg6 : FVec F S57x128 .f32) (main_arg7 : FVec F S128 .f32) (main_arg8 : FVec F S128x30 .f32) (main_arg9 : FVec F S30 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x4 .f32 := Host.absf main_arg4
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S57x128 .f32 := Host.absf main_arg6
  let main_cst_10 : FVec F S_ .f32 := constant S_ .f32 0x7F800000#32
  let main_v30 : FVec F S57x128 .f32 := broadcastInDim S57x128 ![] bcast_S_S57x128 main_cst_10
  let main_v31 : IVec S57x128 1 := cmpf .olt main_v29 main_v30
  let main_c_11 : IVec S_ 1 := constantI S_ 1 1#1
  let main_v32 : IVec S_ 1 := (fun x v => Host.reduce IntOp.andi x v reducesTo_S57x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x126 .f32) (main_arg1 : FVec F S262144x1 .f32) (main_arg2 : FVec F S9x16 .f32) (main_arg3 : FVec F S16 .f32) (main_arg4 : FVec F S16x4 .f32) (main_arg5 : FVec F S4 .f32) (main_arg6 : FVec F S57x128 .f32) (main_arg7 : FVec F S128 .f32) (main_arg8 : FVec F S128x30 .f32) (main_arg9 : FVec F S30 .f32) : IVec S_ 1 :=
  let main_v0 : FVec F S262144x126 .f32 := Host.absf main_arg0
  let main_cst : FVec F S_ .f32 := constant S_ .f32 0x7F800000#32
  let main_v1 : FVec F S262144x126 .f32 := broadcastInDim S262144x126 ![] bcast_S_S262144x126 main_cst
  let main_v2 : IVec S262144x126 1 := cmpf .olt main_v0 main_v1
  let main_c : IVec S_ 1 := constantI S_ 1 1#1
  let main_v3 : IVec S_ 1 := (fun x v => Host.reduce IntOp.andi x v reducesTo_S262144x126_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S9x16 .f32 := Host.absf main_arg2
  let main_cst_2 : FVec F S_ .f32 := constant S_ .f32 0x7F800000#32
  let main_v10 : FVec F S9x16 .f32 := broadcastInDim S9x16 ![] bcast_S_S9x16 main_cst_2
  let main_v11 : IVec S9x16 1 := cmpf .olt main_v9 main_v10
  let main_c_3 : IVec S_ 1 := constantI S_ 1 1#1
  let main_v12 : IVec S_ 1 := (fun x v => Host.reduce IntOp.andi x v reducesTo_S9x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S_ : Shape := ⟨0, ![]⟩
abbrev S126x224 : Shape := ⟨2, ![126, 224]⟩
abbrev S1 : Shape := ⟨1, ![1]⟩
abbrev S2 : Shape := ⟨1, ![2]⟩
abbrev S224x56 : Shape := ⟨2, ![224, 56]⟩
abbrev S1x16 : Shape := ⟨2, ![1, 16]⟩
abbrev S14x16 : Shape := ⟨2, ![14, 16]⟩
abbrev S224 : Shape := ⟨1, ![224]⟩
abbrev S1x224 : Shape := ⟨2, ![1, 224]⟩
abbrev S1x4 : Shape := ⟨2, ![1, 4]⟩
abbrev S14x4 : Shape := ⟨2, ![14, 4]⟩
abbrev S56 : Shape := ⟨1, ![56]⟩
abbrev S1x56 : Shape := ⟨2, ![1, 56]⟩
abbrev S56x128 : Shape := ⟨2, ![56, 128]⟩
abbrev S1x128 : Shape := ⟨2, ![1, 128]⟩
abbrev S128x15 : Shape := ⟨2, ![128, 15]⟩
abbrev S15 : Shape := ⟨1, ![15]⟩
abbrev S1x15 : Shape := ⟨2, ![1, 15]⟩
abbrev S262144x15 : Shape := ⟨2, ![262144, 15]⟩
abbrev S8192x126 : Shape := ⟨2, ![8192, 126]⟩
abbrev S8192x1 : Shape := ⟨2, ![8192, 1]⟩
abbrev S8192x15 : Shape := ⟨2, ![8192, 15]⟩
abbrev S8192x224 : Shape := ⟨2, ![8192, 224]⟩
abbrev S8192x56 : Shape := ⟨2, ![8192, 56]⟩
abbrev S8192x128 : Shape := ⟨2, ![8192, 128]⟩

abbrev nBuf : Space → Nat
  | .hbm => 201
  | .vmem => 19
  | .smem => 0
  | _ => 0

abbrev hbmTy0_0 (i : Nat) : BufTy := match i % 128 with
  | 0 => ⟨S262144x126, .f32⟩
  | 1 => ⟨S262144x1, .f32⟩
  | 2 => ⟨S9x16, .f32⟩
  | 3 => ⟨S16, .f32⟩
  | 4 => ⟨S16x4, .f32⟩
  | 5 => ⟨S4, .f32⟩
  | 6 => ⟨S57x128, .f32⟩
  | 7 => ⟨S128, .f32⟩
  | 8 => ⟨S128x30, .f32⟩
  | 9 => ⟨S30, .f32⟩
  | 10 => ⟨S_, .f32⟩
  | 11 => ⟨S126x224, .f32⟩
  | 12 => ⟨S_, .i32⟩
  | 13 => ⟨S1, .i32⟩
  | 14 => ⟨S_, .i32⟩
  | 15 => ⟨S1, .i32⟩
  | 16 => ⟨S2, .i32⟩
  | 17 => ⟨S126x224, .f32⟩
  | 18 => ⟨S_, .i32⟩
  | 19 => ⟨S1, .i32⟩
  | 20 => ⟨S_, .i32⟩
  | 21 => ⟨S1, .i32⟩
  | 22 => ⟨S2, .i32⟩
  | 23 => ⟨S126x224, .f32⟩
  | 24 => ⟨S_, .i32⟩
  | 25 => ⟨S1, .i32⟩
  | 26 => ⟨S_, .i32⟩
  | 27 => ⟨S1, .i32⟩
  | 28 => ⟨S2, .i32⟩
  | 29 => ⟨S126x224, .f32⟩
  | 30 => ⟨S_, .i32⟩
  | 31 => ⟨S1, .i32⟩
  | 32 => ⟨S_, .i32⟩
  | 33 => ⟨S1, .i32⟩
  | 34 => ⟨S2, .i32⟩
  | 35 => ⟨S126x224, .f32⟩
  | 36 => ⟨S_, .i32⟩
  | 37 => ⟨S1, .i32⟩
  | 38 => ⟨S_, .i32⟩
  | 39 => ⟨S1, .i32⟩
  | 40 => ⟨S2, .i32⟩
  | 41 => ⟨S126x224, .f32⟩
  | 42 => ⟨S_, .i32⟩
  | 43 => ⟨S1, .i32⟩
  | 44 => ⟨S_, .i32⟩
  | 45 => ⟨S1, .i32⟩
  | 46 => ⟨S2, .i32⟩
  | 47 => ⟨S126x224, .f32⟩
  | 48 => ⟨S_, .i32⟩
  | 49 => ⟨S1, .i32⟩
  | 50 => ⟨S_, .i32⟩
  | 51 => ⟨S1, .i32⟩
  | 52 => ⟨S2, .i32⟩
  | 53 => ⟨S126x224, .f32⟩
  | 54 => ⟨S_, .i32⟩
  | 55 => ⟨S1, .i32⟩
  | 56 => ⟨S_, .i32⟩
  | 57 => ⟨S1, .i32⟩
  | 58 => ⟨S2, .i32⟩
  | 59 => ⟨S126x224, .f32⟩
  | 60 => ⟨S_, .i32⟩
  | 61 => ⟨S1, .i32⟩
  | 62 => ⟨S_, .i32⟩
  | 63 => ⟨S1, .i32⟩
  | 64 => ⟨S2, .i32⟩
  | 65 => ⟨S126x224, .f32⟩
  | 66 => ⟨S_, .i32⟩
  | 67 => ⟨S1, .i32⟩
  | 68 => ⟨S_, .i32⟩
  | 69 => ⟨S1, .i32⟩
  | 70 => ⟨S2, .i32⟩
  | 71 => ⟨S126x224, .f32⟩
  | 72 => ⟨S_, .i32⟩
  | 73 => ⟨S1, .i32⟩
  | 74 => ⟨S_, .i32⟩
  | 75 => ⟨S1, .i32⟩
  | 76 => ⟨S2, .i32⟩
  | 77 => ⟨S126x224, .f32⟩
  | 78 => ⟨S_, .i32⟩
  | 79 => ⟨S1, .i32⟩
  | 80 => ⟨S_, .i32⟩
  | 81 => ⟨S1, .i32⟩
  | 82 => ⟨S2, .i32⟩
  | 83 => ⟨S126x224, .f32⟩
  | 84 => ⟨S_, .i32⟩
  | 85 => ⟨S1, .i32⟩
  | 86 => ⟨S_, .i32⟩
  | 87 => ⟨S1, .i32⟩
  | 88 => ⟨S2, .i32⟩
  | 89 => ⟨S126x224, .f32⟩
  | 90 => ⟨S_, .i32⟩
  | 91 => ⟨S1, .i32⟩
  | 92 => ⟨S_, .i32⟩
  | 93 => ⟨S1, .i32⟩
  | 94 => ⟨S2, .i32⟩
  | 95 => ⟨S126x224, .f32⟩
  | 96 => ⟨S_, .f32⟩
  | 97 => ⟨S224x56, .f32⟩
  | 98 => ⟨S_, .i32⟩
  | 99 => ⟨S1, .i32⟩
  | 100 => ⟨S_, .i32⟩
  | 101 => ⟨S1, .i32⟩
  | 102 => ⟨S2, .i32⟩
  | 103 => ⟨S224x56, .f32⟩
  | 104 => ⟨S_, .i32⟩
  | 105 => ⟨S1, .i32⟩
  | 106 => ⟨S_, .i32⟩
  | 107 => ⟨S1, .i32⟩
  | 108 => ⟨S2, .i32⟩
  | 109 => ⟨S224x56, .f32⟩
  | 110 => ⟨S_, .i32⟩
  | 111 => ⟨S1, .i32⟩
  | 112 => ⟨S_, .i32⟩
  | 113 => ⟨S1, .i32⟩
  | 114 => ⟨S2, .i32⟩
  | 115 => ⟨S224x56, .f32⟩
  | 116 => ⟨S_, .i32⟩
  | 117 => ⟨S1, .i32⟩
  | 118 => ⟨S_, .i32⟩
  | 119 => ⟨S1, .i32⟩
  | 120 => ⟨S2, .i32⟩
  | 121 => ⟨S224x56, .f32⟩
  | 122 => ⟨S_, .i32⟩
  | 123 => ⟨S1, .i32⟩
  | 124 => ⟨S_, .i32⟩
  | 125 => ⟨S1, .i32⟩
  | 126 => ⟨S2, .i32⟩
  | 127 => ⟨S224x56, .f32⟩
  | _ => ⟨S262144x126, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S224x56, .f32⟩
  | 6 => ⟨S_, .i32⟩
  | 7 => ⟨S1, .i32⟩
  | 8 => ⟨S_, .i32⟩
  | 9 => ⟨S1, .i32⟩
  | 10 => ⟨S2, .i32⟩
  | 11 => ⟨S224x56, .f32⟩
  | 12 => ⟨S_, .i32⟩
  | 13 => ⟨S1, .i32⟩
  | 14 => ⟨S_, .i32⟩
  | 15 => ⟨S1, .i32⟩
  | 16 => ⟨S2, .i32⟩
  | 17 => ⟨S224x56, .f32⟩
  | 18 => ⟨S_, .i32⟩
  | 19 => ⟨S1, .i32⟩
  | 20 => ⟨S_, .i32⟩
  | 21 => ⟨S1, .i32⟩
  | 22 => ⟨S2, .i32⟩
  | 23 => ⟨S224x56, .f32⟩
  | 24 => ⟨S_, .i32⟩
  | 25 => ⟨S1, .i32⟩
  | 26 => ⟨S_, .i32⟩
  | 27 => ⟨S1, .i32⟩
  | 28 => ⟨S2, .i32⟩
  | 29 => ⟨S224x56, .f32⟩
  | 30 => ⟨S_, .i32⟩
  | 31 => ⟨S1, .i32⟩
  | 32 => ⟨S_, .i32⟩
  | 33 => ⟨S1, .i32⟩
  | 34 => ⟨S2, .i32⟩
  | 35 => ⟨S224x56, .f32⟩
  | 36 => ⟨S_, .i32⟩
  | 37 => ⟨S1, .i32⟩
  | 38 => ⟨S_, .i32⟩
  | 39 => ⟨S1, .i32⟩
  | 40 => ⟨S2, .i32⟩
  | 41 => ⟨S224x56, .f32⟩
  | 42 => ⟨S_, .i32⟩
  | 43 => ⟨S1, .i32⟩
  | 44 => ⟨S_, .i32⟩
  | 45 => ⟨S1, .i32⟩
  | 46 => ⟨S2, .i32⟩
  | 47 => ⟨S224x56, .f32⟩
  | 48 => ⟨S_, .i32⟩
  | 49 => ⟨S1, .i32⟩
  | 50 => ⟨S_, .i32⟩
  | 51 => ⟨S1, .i32⟩
  | 52 => ⟨S2, .i32⟩
  | 53 => ⟨S224x56, .f32⟩
  | 54 => ⟨S1x16, .f32⟩
  | 55 => ⟨S14x16, .f32⟩
  | 56 => ⟨S224, .f32⟩
  | 57 => ⟨S1x224, .f32⟩
  | 58 => ⟨S1x4, .f32⟩
  | 59 => ⟨S14x4, .f32⟩
  | 60 => ⟨S56, .f32⟩
  | 61 => ⟨S1x56, .f32⟩
  | 62 => ⟨S56x128, .f32⟩
  | 63 => ⟨S1x128, .f32⟩
  | 64 => ⟨S1x128, .f32⟩
  | 65 => ⟨S128x15, .f32⟩
  | 66 => ⟨S128x15, .f32⟩
  | 67 => ⟨S15, .f32⟩
  | 68 => ⟨S1x15, .f32⟩
  | 69 => ⟨S15, .f32⟩
  | 70 => ⟨S1x15, .f32⟩
  | 71 => ⟨S262144x15, .f32⟩
  | 72 => ⟨S262144x15, .f32⟩
  | _ => ⟨S262144x126, .f32⟩

abbrev hbmTy (i : Nat) : BufTy := match i / 128 with
  | 0 => hbmTy0_0 i
  | 1 => hbmTy0_1 i
  | _ => ⟨S262144x126, .f32⟩

abbrev bufTy : (tb : Table) → Fin (tcTables nBuf tb) → BufTy
  | .hbm, ⟨i, _⟩ => hbmTy i
  | .local _ .vmem, ⟨0, _⟩ => ⟨S8192x126, .f32⟩
  | .local _ .vmem, ⟨1, _⟩ => ⟨S8192x126, .f32⟩
  | .local _ .vmem, ⟨2, _⟩ => ⟨S8192x1, .f32⟩
  | .local _ .vmem, ⟨3, _⟩ => ⟨S8192x1, .f32⟩
  | .local _ .vmem, ⟨4, _⟩ => ⟨S126x224, .f32⟩
  | .local _ .vmem, ⟨5, _⟩ => ⟨S1x224, .f32⟩
  | .local _ .vmem, ⟨6, _⟩ => ⟨S224x56, .f32⟩
  | .local _ .vmem, ⟨7, _⟩ => ⟨S1x56, .f32⟩
  | .local _ .vmem, ⟨8, _⟩ => ⟨S56x128, .f32⟩
  | .local _ .vmem, ⟨9, _⟩ => ⟨S1x128, .f32⟩
  | .local _ .vmem, ⟨10, _⟩ => ⟨S1x128, .f32⟩
  | .local _ .vmem, ⟨11, _⟩ => ⟨S128x15, .f32⟩
  | .local _ .vmem, ⟨12, _⟩ => ⟨S1x15, .f32⟩
  | .local _ .vmem, ⟨13, _⟩ => ⟨S128x15, .f32⟩
  | .local _ .vmem, ⟨14, _⟩ => ⟨S1x15, .f32⟩
  | .local _ .vmem, ⟨15, _⟩ => ⟨S8192x15, .f32⟩
  | .local _ .vmem, ⟨16, _⟩ => ⟨S8192x15, .f32⟩
  | .local _ .vmem, ⟨17, _⟩ => ⟨S8192x15, .f32⟩
  | .local _ .vmem, ⟨18, _⟩ => ⟨S8192x15, .f32⟩
  | _, _ => ⟨S262144x126, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_c_6 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_v17 : Ref sig .tc := ⟨.hbm, 37, rfl⟩
abbrev main_c_8 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_c_10 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_11 : Ref sig .tc := ⟨.hbm, 48, rfl⟩
abbrev main_v25 : Ref sig .tc := ⟨.hbm, 49, rfl⟩
abbrev main_c_12 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_13 : Ref sig .tc := ⟨.hbm, 54, rfl⟩
abbrev main_v29 : Ref sig .tc := ⟨.hbm, 55, rfl⟩
abbrev main_c_14 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_15 : Ref sig .tc := ⟨.hbm, 60, rfl⟩
abbrev main_v33 : Ref sig .tc := ⟨.hbm, 61, rfl⟩
abbrev main_c_16 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_c_18 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_19 : Ref sig .tc := ⟨.hbm, 72, rfl⟩
abbrev main_v41 : Ref sig .tc := ⟨.hbm, 73, rfl⟩
abbrev main_c_20 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_21 : Ref sig .tc := ⟨.hbm, 78, rfl⟩
abbrev main_v45 : Ref sig .tc := ⟨.hbm, 79, rfl⟩
abbrev main_c_22 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_23 : Ref sig .tc := ⟨.hbm, 84, rfl⟩
abbrev main_v49 : Ref sig .tc := ⟨.hbm, 85, rfl⟩
abbrev main_c_24 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_25 : Ref sig .tc := ⟨.hbm, 90, rfl⟩
abbrev main_v53 : Ref sig .tc := ⟨.hbm, 91, rfl⟩
abbrev main_c_26 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_27 : Ref sig .tc := ⟨.hbm, 96, rfl⟩
abbrev main_v57 : Ref sig .tc := ⟨.hbm, 97, rfl⟩
abbrev main_c_28 : Ref sig .tc := ⟨.hbm, 98, rfl⟩
abbrev main_v58 : Ref sig .tc := ⟨.hbm, 99, rfl⟩
abbrev main_c_29 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_30 : Ref sig .tc := ⟨.hbm, 104, rfl⟩
abbrev main_v62 : Ref sig .tc := ⟨.hbm, 105, rfl⟩
abbrev main_c_31 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_32 : Ref sig .tc := ⟨.hbm, 110, rfl⟩
abbrev main_v66 : Ref sig .tc := ⟨.hbm, 111, rfl⟩
abbrev main_c_33 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_34 : Ref sig .tc := ⟨.hbm, 116, rfl⟩
abbrev main_v70 : Ref sig .tc := ⟨.hbm, 117, rfl⟩
abbrev main_c_35 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_36 : Ref sig .tc := ⟨.hbm, 122, rfl⟩
abbrev main_v74 : Ref sig .tc := ⟨.hbm, 123, rfl⟩
abbrev main_c_37 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_38 : Ref sig .tc := ⟨.hbm, 128, rfl⟩
abbrev main_v78 : Ref sig .tc := ⟨.hbm, 129, rfl⟩
abbrev main_c_39 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_40 : Ref sig .tc := ⟨.hbm, 134, rfl⟩
abbrev main_v82 : Ref sig .tc := ⟨.hbm, 135, rfl⟩
abbrev main_c_41 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_42 : Ref sig .tc := ⟨.hbm, 140, rfl⟩
abbrev main_v86 : Ref sig .tc := ⟨.hbm, 141, rfl⟩
abbrev main_c_43 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_44 : Ref sig .tc := ⟨.hbm, 146, rfl⟩
abbrev main_v90 : Ref sig .tc := ⟨.hbm, 147, rfl⟩
abbrev main_c_45 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_c_46 : Ref sig .tc := ⟨.hbm, 152, rfl⟩
abbrev main_v94 : Ref sig .tc := ⟨.hbm, 153, rfl⟩
abbrev main_c_47 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_48 : Ref sig .tc := ⟨.hbm, 158, rfl⟩
abbrev main_v98 : Ref sig .tc := ⟨.hbm, 159, rfl⟩
abbrev main_c_49 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_50 : Ref sig .tc := ⟨.hbm, 164, rfl⟩
abbrev main_v102 : Ref sig .tc := ⟨.hbm, 165, rfl⟩
abbrev main_c_51 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_c_52 : Ref sig .tc := ⟨.hbm, 170, rfl⟩
abbrev main_v106 : Ref sig .tc := ⟨.hbm, 171, rfl⟩
abbrev main_c_53 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_54 : Ref sig .tc := ⟨.hbm, 176, rfl⟩
abbrev main_v110 : Ref sig .tc := ⟨.hbm, 177, rfl⟩
abbrev main_c_55 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131_0 : Ref sig .tc := ⟨.hbm, 199, rfl⟩
abbrev main_v131_1 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x126 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S126x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x15 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x15 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8192x15 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S126x224 : S_.BroadcastsInDim S126x224 (![] : Fin 0 → Fin S126x224.rank)
  bcast_S_S1 : S_.BroadcastsInDim S1 (![] : Fin 0 → Fin S1.rank)
  concatenates_S1_S1_S2_d0 : Shape.Concatenates [S1, S1] S2 0
  bcast_S_S224x56 : S_.BroadcastsInDim S224x56 (![] : Fin 0 → Fin S224x56.rank)
  shapeCasts_S16_S1x16 : S16.ShapeCasts S1x16
  bcast_S1x16_S14x16_0_1 : S1x16.BroadcastsInDim S14x16 (![0, 1] : Fin 2 → Fin S14x16.rank)
  shapeCasts_S14x16_S224 : S14x16.ShapeCasts S224
  shapeCasts_S224_S1x224 : S224.ShapeCasts S1x224
  shapeCasts_S4_S1x4 : S4.ShapeCasts S1x4
  bcast_S1x4_S14x4_0_1 : S1x4.BroadcastsInDim S14x4 (![0, 1] : Fin 2 → Fin S14x4.rank)
  shapeCasts_S14x4_S56 : S14x4.ShapeCasts S56
  shapeCasts_S56_S1x56 : S56.ShapeCasts S1x56
  slices_S57x128_S56x128_0_0 : S57x128.Slices ![0, 0] S56x128
  slices_S57x128_S1x128_56_0 : S57x128.Slices ![56, 0] S1x128
  shapeCasts_S128_S1x128 : S128.ShapeCasts S1x128
  slices_S128x30_S128x15_0_0 : S128x30.Slices ![0, 0] S128x15
  slices_S128x30_S128x15_0_15 : S128x30.Slices ![0, 15] S128x15
  slices_S30_S15_0 : S30.Slices ![0] S15
  shapeCasts_S15_S1x15 : S15.ShapeCasts S1x15
  slices_S30_S15_15 : S30.Slices ![15] S15
  inb_S8192x126_S8192x126_0_0 : ∀ a, (![0, 0] : Fin 2 → Nat) a + S8192x126.size a ≤ S8192x126.size a
  h_S8192x126 : 0 < S8192x126.numel
  inb_S126x224_S126x224_0_0 : ∀ a, (![0, 0] : Fin 2 → Nat) a + S126x224.size a ≤ S126x224.size a
  h_S126x224 : 0 < S126x224.numel
  shapeCasts_S126x224_S126x224 : S126x224.ShapeCasts S126x224
  inb_S1x224_S1x224_0_0 : ∀ a, (![0, 0] : Fin 2 → Nat) a + S1x224.size a ≤ S1x224.size a
  h_S1x224 : 0 < S1x224.numel
  shapeCasts_S1x224_S1x224 : S1x224.ShapeCasts S1x224
  broadcasts_S1x224_S8192x224 : S1x224.Broadcasts S8192x224
  inb_S224x56_S224x56_0_0 : ∀ a, (![0, 0] : Fin 2 → Nat) a + S224x56.size a ≤ S224x56.size a
  h_S224x56 : 0 < S224x56.numel
  shapeCasts_S224x56_S224x56 : S224x56.ShapeCasts S224x56
  inb_S1x56_S1x56_0_0 : ∀ a, (![0, 0] : Fin 2 → Nat) a + S1x56.size a ≤ S1x56.size a
  h_S1x56 : 0 < S1x56.numel
  shapeCasts_S1x56_S1x56 : S1x56.ShapeCasts S1x56
  broadcasts_S1x56_S8192x56 : S1x56.Broadcasts S8192x56
  inb_S56x128_S56x128_0_0 : ∀ a, (![0, 0] : Fin 2 → Nat) a + S56x128.size a ≤ S56x128.size a
  h_S56x128 : 0 < S56x128.numel
  shapeCasts_S56x128_S56x128 : S56x128.ShapeCasts S56x128
  inb_S8192x1_S8192x1_0_0 : ∀ a, (![0, 0] : Fin 2 → Nat) a + S8192x1.size a ≤ S8192x1.size a
  h_S8192x1 : 0 < S8192x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S128x15_S128x15_0_0 : ∀ a, (![0, 0] : Fin 2 → Nat) a + S128x15.size a ≤ S128x15.size a
  h_S128x15 : 0 < S128x15.numel
  shapeCasts_S128x15_S128x15 : S128x15.ShapeCasts S128x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S8192x15 : S1x15.Broadcasts S8192x15
  inb_S8192x15_S8192x15_0_0 : ∀ a, (![0, 0] : Fin 2 → Nat) a + S8192x15.size a ≤ S8192x15.size a
  h_S8192x15 : 0 < S8192x15.numel
  scatter_S126x224_S2_S9x16_01_n_01_0_wf : ScatterDims.WF S126x224 S2 S9x16 [0, 1] [] [0, 1] 0
  scatter_S224x56_S2_S16x4_01_n_01_0_wf : ScatterDims.WF S224x56 S2 S16x4 [0, 1] [] [0, 1] 0
  dot_S8192x126_S126x224_S8192x224_1_0_0_1_n_n_wf : DotDims.WF S8192x126 S126x224 S8192x224 [1] [0] [0] [1] [] []
  dot_S8192x224_S224x56_S8192x56_1_0_0_1_n_n_wf : DotDims.WF S8192x224 S224x56 S8192x56 [1] [0] [0] [1] [] []
  dot_S8192x56_S56x128_S8192x128_1_0_0_1_n_n_wf : DotDims.WF S8192x56 S56x128 S8192x128 [1] [0] [0] [1] [] []
  dot_S8192x128_S128x15_S8192x15_1_0_0_1_n_n_wf : DotDims.WF S8192x128 S128x15 S8192x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x126.size a ≤ S262144x126.size a
  hwx0_0 : ∀ i : grid0.Coords, EltTy.bits .f32 = 32 ∨ (Rect.block (s := S262144x126) S8192x126.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S126x224.size a ≤ S126x224.size a
  hwx0_2 : ∀ i : grid0.Coords, EltTy.bits .f32 = 32 ∨ (Rect.block (s := S126x224) S126x224.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x224.size a ≤ S1x224.size a
  hwx0_3 : ∀ i : grid0.Coords, EltTy.bits .f32 = 32 ∨ (Rect.block (s := S1x224) S1x224.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S224x56.size a ≤ S224x56.size a
  hwx0_4 : ∀ i : grid0.Coords, EltTy.bits .f32 = 32 ∨ (Rect.block (s := S224x56) S224x56.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x56.size a ≤ S1x56.size a
  hwx0_5 : ∀ i : grid0.Coords, EltTy.bits .f32 = 32 ∨ (Rect.block (s := S1x56) S1x56.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S56x128.size a ≤ S56x128.size a
  hwx0_6 : ∀ i : grid0.Coords, EltTy.bits .f32 = 32 ∨ (Rect.block (s := S56x128) S56x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x15.size a ≤ S128x15.size a
  hwx0_9 : ∀ i : grid0.Coords, EltTy.bits .f32 = 32 ∨ (Rect.block (s := S128x15) S128x15.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x15.size a ≤ S1x15.size a
  hwx0_10 : ∀ i : grid0.Coords, EltTy.bits .f32 = 32 ∨ (Rect.block (s := S1x15) S1x15.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x15.size a ≤ S128x15.size a
  hwx0_11 : ∀ i : grid0.Coords, EltTy.bits .f32 = 32 ∨ (Rect.block (s := S128x15) S128x15.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x15.size a ≤ S1x15.size a
  hwx0_12 : ∀ i : grid0.Coords, EltTy.bits .f32 = 32 ∨ (Rect.block (s := S1x15) S1x15.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8192x15.size a ≤ S262144x15.size a
  hwx0_13 : ∀ i : grid0.Coords, EltTy.bits .f32 = 32 ∨ (Rect.block (s := S262144x15) S8192x15.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8192x15.size a ≤ S262144x15.size a
  hwx0_14 : ∀ i : grid0.Coords, EltTy.bits .f32 = 32 ∨ (Rect.block (s := S262144x15) S8192x15.size (cc0_transform_14 i) (hinb0_14 i)).WholeWords (EltTy.packing .f32)

variable [Facts₀]

def scatter_S126x224_S2_S9x16_01_n_01_0 : ScatterDims S126x224 S2 S9x16 where
  updateWindowDims := [0, 1]
  insertedWindowDims := []
  scatterDimsToOperandDims := [0, 1]
  indexVectorDim := 0
  wf := scatter_S126x224_S2_S9x16_01_n_01_0_wf
def scatter_S224x56_S2_S16x4_01_n_01_0 : ScatterDims S224x56 S2 S16x4 where
  updateWindowDims := [0, 1]
  insertedWindowDims := []
  scatterDimsToOperandDims := [0, 1]
  indexVectorDim := 0
  wf := scatter_S224x56_S2_S16x4_01_n_01_0_wf
def dot_S8192x126_S126x224_S8192x224_1_0_0_1_n_n : DotDims S8192x126 S126x224 S8192x224 where
  lhsContracting := [1]
  rhsContracting := [0]
  lhsNonContracting := [0]
  rhsNonContracting := [1]
  lhsBatch := []
  rhsBatch := []
  wf := dot_S8192x126_S126x224_S8192x224_1_0_0_1_n_n_wf
def dot_S8192x224_S224x56_S8192x56_1_0_0_1_n_n : DotDims S8192x224 S224x56 S8192x56 where
  lhsContracting := [1]
  rhsContracting := [0]
  lhsNonContracting := [0]
  rhsNonContracting := [1]
  lhsBatch := []
  rhsBatch := []
  wf := dot_S8192x224_S224x56_S8192x56_1_0_0_1_n_n_wf
def dot_S8192x56_S56x128_S8192x128_1_0_0_1_n_n : DotDims S8192x56 S56x128 S8192x128 where
  lhsContracting := [1]
  rhsContracting := [0]
  lhsNonContracting := [0]
  rhsNonContracting := [1]
  lhsBatch := []
  rhsBatch := []
  wf := dot_S8192x56_S56x128_S8192x128_1_0_0_1_n_n_wf
def dot_S8192x128_S128x15_S8192x15_1_0_0_1_n_n : DotDims S8192x128 S128x15 S8192x15 where
  lhsContracting := [1]
  rhsContracting := [0]
  lhsNonContracting := [0]
  rhsNonContracting := [1]
  lhsBatch := []
  rhsBatch := []
  wf := dot_S8192x128_S128x15_S8192x15_1_0_0_1_n_n_wf

abbrev win0_0 : Pipeline.Window sig grid0 :=
  Pipeline.Window.ofSpec (Memref.whole main_arg0) S8192x126.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S126x224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v117) S1x224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v113) S224x56.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v121) S1x56.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v122) S56x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v123) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v124) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v125) S128x15.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v128) S1x15.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v126) S128x15.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v130) S1x15.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v131_0) S8192x15.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v131_1) S8192x15.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S262144x14x9 : Shape := ⟨3, ![262144, 14, 9]⟩
abbrev S262144x14x16 : Shape := ⟨3, ![262144, 14, 16]⟩
abbrev S1x1x16 : Shape := ⟨3, ![1, 1, 16]⟩
abbrev S_ : Shape := ⟨0, ![]⟩
abbrev S262144x14x4 : Shape := ⟨3, ![262144, 14, 4]⟩
abbrev S1x1x4 : Shape := ⟨3, ![1, 1, 4]⟩
abbrev S262144x56 : Shape := ⟨2, ![262144, 56]⟩
abbrev S262144x57 : Shape := ⟨2, ![262144, 57]⟩
abbrev S262144x128 : Shape := ⟨2, ![262144, 128]⟩
abbrev S1x128 : Shape := ⟨2, ![1, 128]⟩
abbrev S262144x30 : Shape := ⟨2, ![262144, 30]⟩
abbrev S1x30 : Shape := ⟨2, ![1, 30]⟩
abbrev S262144x15 : Shape := ⟨2, ![262144, 15]⟩

abbrev nBuf : Space → Nat
  | .hbm => 42
  | .vmem => 0
  | .smem => 0
  | _ => 0

abbrev bufTy : (tb : Table) → Fin (tcTables nBuf tb) → BufTy
  | .hbm, ⟨0, _⟩ => ⟨S262144x126, .f32⟩
  | .hbm, ⟨1, _⟩ => ⟨S262144x1, .f32⟩
  | .hbm, ⟨2, _⟩ => ⟨S9x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S57x128, .f32⟩
  | .hbm, ⟨7, _⟩ => ⟨S128, .f32⟩
  | .hbm, ⟨8, _⟩ => ⟨S128x30, .f32⟩
  | .hbm, ⟨9, _⟩ => ⟨S30, .f32⟩
  | .hbm, ⟨10, _⟩ => ⟨S262144x14x9, .f32⟩
  | .hbm, ⟨11, _⟩ => ⟨S262144x14x16, .f32⟩
  | .hbm, ⟨12, _⟩ => ⟨S1x1x16, .f32⟩
  | .hbm, ⟨13, _⟩ => ⟨S262144x14x16, .f32⟩
  | .hbm, ⟨14, _⟩ => ⟨S262144x14x16, .f32⟩
  | .hbm, ⟨15, _⟩ => ⟨S_, .f32⟩
  | .hbm, ⟨16, _⟩ => ⟨S262144x14x16, .f32⟩
  | .hbm, ⟨17, _⟩ => ⟨S262144x14x16, .f32⟩
  | .hbm, ⟨18, _⟩ => ⟨S262144x14x4, .f32⟩
  | .hbm, ⟨19, _⟩ => ⟨S1x1x4, .f32⟩
  | .hbm, ⟨20, _⟩ => ⟨S262144x14x4, .f32⟩
  | .hbm, ⟨21, _⟩ => ⟨S262144x14x4, .f32⟩
  | .hbm, ⟨22, _⟩ => ⟨S_, .f32⟩
  | .hbm, ⟨23, _⟩ => ⟨S262144x14x4, .f32⟩
  | .hbm, ⟨24, _⟩ => ⟨S262144x14x4, .f32⟩
  | .hbm, ⟨25, _⟩ => ⟨S262144x56, .f32⟩
  | .hbm, ⟨26, _⟩ => ⟨S262144x57, .f32⟩
  | .hbm, ⟨27, _⟩ => ⟨S262144x128, .f32⟩
  | .hbm, ⟨28, _⟩ => ⟨S1x128, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144x128, .f32⟩
  | .hbm, ⟨33, _⟩ => ⟨S262144x128, .f32⟩
  | .hbm, ⟨34, _⟩ => ⟨S262144x30, .f32⟩
  | .hbm, ⟨35, _⟩ => ⟨S1x30, .f32⟩
  | .hbm, ⟨36, _⟩ => ⟨S262144x30, .f32⟩
  | .hbm, ⟨37, _⟩ => ⟨S262144x30, .f32⟩
  | .hbm, ⟨38, _⟩ => ⟨S262144x15, .f32⟩
  | .hbm, ⟨39, _⟩ => ⟨S262144x15, .f32⟩
  | .hbm, ⟨40, _⟩ => ⟨S262144x15, .f32⟩
  | .hbm, ⟨41, _⟩ => ⟨S262144x15, .f32⟩
  | _, _ => ⟨S262144x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  shapeCasts_S262144x126_S262144x14x9 : S262144x126.ShapeCasts S262144x14x9
  bcast_S16_S1x1x16_2 : S16.BroadcastsInDim S1x1x16 (![2] : Fin 1 → Fin S1x1x16.rank)
  bcast_S1x1x16_S262144x14x16_0_1_2 : S1x1x16.BroadcastsInDim S262144x14x16 (![0, 1, 2] : Fin 3 → Fin S262144x14x16.rank)
  bcast_S_S262144x14x16 : S_.BroadcastsInDim S262144x14x16 (![] : Fin 0 → Fin S262144x14x16.rank)
  bcast_S4_S1x1x4_2 : S4.BroadcastsInDim S1x1x4 (![2] : Fin 1 → Fin S1x1x4.rank)
  bcast_S1x1x4_S262144x14x4_0_1_2 : S1x1x4.BroadcastsInDim S262144x14x4 (![0, 1, 2] : Fin 3 → Fin S262144x14x4.rank)
  bcast_S_S262144x14x4 : S_.BroadcastsInDim S262144x14x4 (![] : Fin 0 → Fin S262144x14x4.rank)
  shapeCasts_S262144x14x4_S262144x56 : S262144x14x4.ShapeCasts S262144x56
  concatenates_S262144x56_S262144x1_S262144x57_d1 : Shape.Concatenates [S262144x56, S262144x1] S262144x57 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S30_S1x30_1 : S30.BroadcastsInDim S1x30 (![1] : Fin 1 → Fin S1x30.rank)
  bcast_S1x30_S262144x30_0_1 : S1x30.BroadcastsInDim S262144x30 (![0, 1] : Fin 2 → Fin S262144x30.rank)
  slices_S262144x30_S262144x15_0_0 : S262144x30.Slices ![0, 0] S262144x15
  slices_S262144x30_S262144x15_0_15 : S262144x30.Slices ![0, 15] S262144x15
  dot_S262144x14x9_S9x16_S262144x14x16_2_0_01_1_n_n_wf : DotDims.WF S262144x14x9 S9x16 S262144x14x16 [2] [0] [0, 1] [1] [] []
  dot_S262144x14x16_S16x4_S262144x14x4_2_0_01_1_n_n_wf : DotDims.WF S262144x14x16 S16x4 S262144x14x4 [2] [0] [0, 1] [1] [] []
  dot_S262144x57_S57x128_S262144x128_1_0_0_1_n_n_wf : DotDims.WF S262144x57 S57x128 S262144x128 [1] [0] [0] [1] [] []
  dot_S262144x128_S128x30_S262144x30_1_0_0_1_n_n_wf : DotDims.WF S262144x128 S128x30 S262144x30 [1] [0] [0] [1] [] []

variable [Facts₀]

def dot_S262144x14x9_S9x16_S262144x14x16_2_0_01_1_n_n : DotDims S262144x14x9 S9x16 S262144x14x16 where
  lhsContracting := [2]
  rhsContracting := [0]
  lhsNonContracting := [0, 1]
  rhsNonContracting := [1]
  lhsBatch := []
  rhsBatch := []
  wf := dot_S262144x14x9_S9x16_S262144x14x16_2_0_01_1_n_n_wf
def dot_S262144x14x16_S16x4_S262144x14x4_2_0_01_1_n_n : DotDims S262144x14x16 S16x4 S262144x14x4 where
  lhsContracting := [2]
  rhsContracting := [0]
  lhsNonContracting := [0, 1]
  rhsNonContracting := [1]
  lhsBatch := []
  rhsBatch := []
  wf := dot_S262144x14x16_S16x4_S262144x14x4_2_0_01_1_n_n_wf
def dot_S262144x57_S57x128_S262144x128_1_0_0_1_n_n : DotDims S262144x57 S57x128 S262144x128 where
  lhsContracting := [1]
  rhsContracting := [0]
  lhsNonContracting := [0]
  rhsNonContracting := [1]
  lhsBatch := []
  rhsBatch := []
  wf := dot_S262144x57_S57x128_S262144x128_1_0_0_1_n_n_wf
def dot_S262144x128_S128x30_S262144x30_1_0_0_1_n_n : DotDims S262144x128 S128x30 S262144x30 where
  lhsContracting := [1]
  rhsContracting := [0]
  lhsNonContracting := [0]
  rhsNonContracting := [1]
  lhsBatch := []
  rhsBatch := []
  wf := dot_S262144x128_S128x30_S262144x30_1_0_0_1_n_n_wf

class Facts : Prop extends Facts₀ where

variable [Facts]
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.Spec.lean ====
/-
  The two-stage actor network, row by row, on the extended reals.

  One input row is 126 features in 14 groups of 9 and one extra scalar.  Every group goes through the same small
  network 9 → 16 → 4 (weights `W1, b1, W2, b2`, a maximum with 0 after each layer); the 14 · 4 = 56 group outputs and
  the extra scalar form a 57-vector that goes through 57 → 128 (`W3, b3`, maximum with 0) → 30 (`W4, b4`).

  The same row can be computed with the 14 groups handled at once by block-diagonal matrices: `Wd1`
  (126 × 224) holds `W1` in the 14 diagonal 9 × 16 blocks and zeros elsewhere, `Wd2` (224 × 56) holds `W2` in the
  14 diagonal 16 × 4 blocks; the biases are repeated 14 times; the 57-term sum of the third layer is split into its
  first 56 terms and the last one; and the 30 output columns are computed as two halves of 15.

  A product with a zero entry is zero on the extended reals whatever the other factor is, and addition there is
  commutative and associative, so the two computations agree with no assumption on the entries.
-/
import Idealize.ShloMosaic.PureOps.Ideal
import proofs.«106184_j12446815223911_2_alg».proof.Proof.LibBlocks

noncomputable section

namespace Cert.Mlp

open Finset

/-! ## Sums against a block-diagonal matrix -/

/-- A sum over `n` blocks of `a` indices against a column that is `w` on block `g` and zero on the others is the sum
    over block `g` alone. -/
theorem sum_block_diag (n a : ℕ) (ha : 0 < a) (x : Fin (n * a) → EReal) (w : Fin a → EReal) (g : Fin n) :
    ∑ k : Fin (n * a), x k * (if k.val / a = g.val then w ⟨k.val % a, Nat.mod_lt _ ha⟩ else 0)
      = ∑ i : Fin a, x (finProdFinEquiv (g, i)) * w i := by
  have hdiv : ∀ (s : Fin n) (i : Fin a), (finProdFinEquiv (s, i)).val / a = s.val := fun s i => by
    rw [Cert.LibBlocks.finProdFinEquiv_val, Nat.add_mul_div_left _ _ ha, Nat.div_eq_of_lt i.isLt, Nat.zero_add]
  rw [Cert.LibBlocks.sum_fin_mul, Finset.sum_eq_single g]
  · refine Finset.sum_congr rfl fun i _ => ?_
    have h2 : (⟨(finProdFinEquiv (g, i)).val % a, Nat.mod_lt _ ha⟩ : Fin a) = i := Fin.ext (by
      show (finProdFinEquiv (g, i)).val % a = i.val
      rw [Cert.LibBlocks.finProdFinEquiv_val, Nat.add_mul_mod_self_left, Nat.mod_eq_of_lt i.isLt])
    rw [if_pos (hdiv g i), h2]
  · intro s _ hs
    refine Finset.sum_eq_zero fun i _ => ?_
    rw [if_neg (by rw [hdiv s i]; exact fun e => hs (Fin.ext e)), mul_zero]
  · intro h
    exact absurd (Finset.mem_univ g) h

/-! ## Positions inside a row -/

/-- Feature `i` of group `g` among the 126 features. -/
def feat (g : Fin 14) (i : Fin 9) : Fin 126 := ⟨9 * g.val + i.val, by omega⟩
/-- Hidden unit `j` of group `g` among the 224 first-layer outputs. -/
def hcol (g : Fin 14) (j : Fin 16) : Fin 224 := ⟨16 * g.val + j.val, by omega⟩
/-- Output `o` of group `g` among the 56 second-layer outputs. -/
def scol (g : Fin 14) (o : Fin 4) : Fin 56 := ⟨4 * g.val + o.val, by omega⟩

theorem sum_feat (x : Fin 126 → EReal) (w : Fin 9 → EReal) (g : Fin 14) :
    ∑ k : Fin 126, x k * (if k.val / 9 = g.val then w ⟨k.val % 9, Nat.mod_lt _ (by decide)⟩ else 0)
      = ∑ i : Fin 9, x (feat g i) * w i := by
  refine (sum_block_diag 14 9 (by decide) x w g).trans (Finset.sum_congr rfl fun i _ => ?_)
  congr 2
  exact Fin.ext (by rw [Cert.LibBlocks.finProdFinEquiv_val]; show _ = 9 * g.val + i.val; omega)

theorem sum_hcol (x : Fin 224 → EReal) (w : Fin 16 → EReal) (g : Fin 14) :
    ∑ k : Fin 224, x k * (if k.val / 16 = g.val then w ⟨k.val % 16, Nat.mod_lt _ (by decide)⟩ else 0)
      = ∑ i : Fin 16, x (hcol g i) * w i := by
  refine (sum_block_diag 14 16 (by decide) x w g).trans (Finset.sum_congr rfl fun i _ => ?_)
  congr 2
  exact Fin.ext (by rw [Cert.LibBlocks.finProdFinEquiv_val]; show _ = 16 * g.val + i.val; omega)

/-! ## The network, group by group -/

section
variable (x : Fin 126 → EReal) (sale : EReal)
  (W1 : Fin 9 → Fin 16 → EReal) (b1 : Fin 16 → EReal)
  (W2 : Fin 16 → Fin 4 → EReal) (b2 : Fin 4 → EReal)
  (W3 : Fin 57 → Fin 128 → EReal) (b3 : Fin 128 → EReal)
  (W4 : Fin 128 → Fin 30 → EReal) (b4 : Fin 30 → EReal)

/-- First layer of group `g`. -/
def h (g : Fin 14) (j : Fin 16) : EReal := max (∑ i : Fin 9, x (feat g i) * W1 i j + b1 j) 0
/-- Second layer of group `g`. -/
def s (g : Fin 14) (o : Fin 4) : EReal := max (∑ j : Fin 16, h x W1 b1 g j * W2 j o + b2 o) 0
/-- The 57 inputs of the third layer: the 56 group outputs, then the extra scalar. -/
def comb (k : Fin 57) : EReal :=
  if hk : k.val < 56 then s x W1 b1 W2 b2 ⟨k.val / 4, by omega⟩ ⟨k.val % 4, Nat.mod_lt _ (by decide)⟩ else sale
/-- Third layer. -/
def z (c : Fin 128) : EReal := max (∑ k : Fin 57, comb x sale W1 b1 W2 b2 k * W3 k c + b3 c) 0
/-- Fourth layer, before the output nonlinearities. -/
def out (c : Fin 30) : EReal := ∑ k : Fin 128, z x sale W1 b1 W2 b2 W3 b3 k * W4 k c + b4 c

end

/-! ## The same network with all groups at once -/

/-- A layer `v ↦ max (v · M + b) 0`. -/
def layer {n p : ℕ} (M : Fin n → Fin p → EReal) (b : Fin p → EReal) (v : Fin n → EReal) (c : Fin p) : EReal :=
  max (∑ k : Fin n, v k * M k c + b c) 0

/-- The third layer with the extra scalar's term kept apart from the 56-term sum. -/
def layer3 (M : Fin 56 → Fin 128 → EReal) (l : Fin 128 → EReal) (b : Fin 128 → EReal) (v : Fin 56 → EReal) (sale : EReal)
    (c : Fin 128) : EReal :=
  max ((∑ k : Fin 56, v k * M k c + sale * l c) + b c) 0

/-- An affine head `v ↦ v · M + b`. -/
def head {n p : ℕ} (M : Fin n → Fin p → EReal) (b : Fin p → EReal) (v : Fin n → EReal) (c : Fin p) : EReal :=
  ∑ k : Fin n, v k * M k c + b c

section
variable (x : Fin 126 → EReal) (sale : EReal)
  (W1 : Fin 9 → Fin 16 → EReal) (b1 : Fin 16 → EReal)
  (W2 : Fin 16 → Fin 4 → EReal) (b2 : Fin 4 → EReal)
  (W3 : Fin 57 → Fin 128 → EReal) (b3 : Fin 128 → EReal)
  (W4 : Fin 128 → Fin 30 → EReal) (b4 : Fin 30 → EReal)

/-- The block-diagonal first layer is the groups' first layer. -/
theorem layer_blockdiag1 (Wd1 : Fin 126 → Fin 224 → EReal) (bt1 : Fin 224 → EReal)
    (hW : ∀ k c, Wd1 k c = if k.val / 9 = c.val / 16 then W1 ⟨k.val % 9, Nat.mod_lt _ (by decide)⟩ ⟨c.val % 16, Nat.mod_lt _ (by decide)⟩ else 0)
    (hb : ∀ c, bt1 c = b1 ⟨c.val % 16, Nat.mod_lt _ (by decide)⟩) (c : Fin 224) :
    layer Wd1 bt1 x c = h x W1 b1 ⟨c.val / 16, by omega⟩ ⟨c.val % 16, Nat.mod_lt _ (by decide)⟩ := by
  unfold layer h
  rw [hb c]
  simp only [hW]
  exact congrArg (fun t => max (t + _) 0)
    (sum_feat x (fun i => W1 i ⟨c.val % 16, Nat.mod_lt _ (by decide)⟩) ⟨c.val / 16, by omega⟩)

/-- The block-diagonal second layer is the groups' second layer. -/
theorem layer_blockdiag2 (Wd2 : Fin 224 → Fin 56 → EReal) (bt2 : Fin 56 → EReal) (v : Fin 224 → EReal)
    (hW : ∀ k c, Wd2 k c = if k.val / 16 = c.val / 4 then W2 ⟨k.val % 16, Nat.mod_lt _ (by decide)⟩ ⟨c.val % 4, Nat.mod_lt _ (by decide)⟩ else 0)
    (hb : ∀ c, bt2 c = b2 ⟨c.val % 4, Nat.mod_lt _ (by decide)⟩)
    (hv : ∀ k : Fin 224, v k = h x W1 b1 ⟨k.val / 16, by omega⟩ ⟨k.val % 16, Nat.mod_lt _ (by decide)⟩) (c : Fin 56) :
    layer Wd2 bt2 v c = s x W1 b1 W2 b2 ⟨c.val / 4, by omega⟩ ⟨c.val % 4, Nat.mod_lt _ (by decide)⟩ := by
  unfold layer s
  rw [hb c]
  simp only [hW]
  refine congrArg (fun t => max (t + _) 0)
    ((sum_hcol v (fun i => W2 i ⟨c.val % 4, Nat.mod_lt _ (by decide)⟩) ⟨c.val / 4, by omega⟩).trans ?_)
  refine Finset.sum_congr rfl fun j _ => ?_
  rw [hv]
  congr 2
  · exact Fin.ext (by show (16 * (c.val / 4) + j.val) / 16 = c.val / 4; omega)
  · exact Fin.ext (by show (16 * (c.val / 4) + j.val) % 16 = j.val; omega)

/-- The third layer with the scalar's term apart is the 57-term third layer. -/
theorem layer3_eq (M : Fin 56 → Fin 128 → EReal) (l : Fin 128 → EReal) (v : Fin 56 → EReal)
    (hM : ∀ k c, M k c = W3 ⟨k.val, by omega⟩ c) (hl : ∀ c, l c = W3 ⟨56, by decide⟩ c)
    (hv : ∀ k : Fin 56, v k = s x W1 b1 W2 b2 ⟨k.val / 4, by omega⟩ ⟨k.val % 4, Nat.mod_lt _ (by decide)⟩) (c : Fin 128) :
    layer3 M l b3 v sale c = z x sale W1 b1 W2 b2 W3 b3 c := by
  unfold layer3 z
  refine congrArg (fun t => max (t + _) 0) ?_
  rw [Fin.sum_univ_castSucc (n := 56)]
  congr 1
  · refine Finset.sum_congr rfl fun k _ => ?_
    rw [hv, hM]
    unfold comb
    rw [dif_pos (show (Fin.castSucc k).val < 56 from k.isLt)]
    rfl
  · rw [hl]
    unfold comb
    rw [dif_neg (show ¬ (Fin.last 56).val < 56 by decide)]
    rfl

/-- A head on 15 of the 30 output columns is the fourth layer at those columns. -/
theorem head_eq (M : Fin 128 → Fin 15 → EReal) (b : Fin 15 → EReal) (v : Fin 128 → EReal) (off : ℕ) (hoff : off + 15 ≤ 30)
    (hM : ∀ k c, M k c = W4 k ⟨off + c.val, by omega⟩) (hb : ∀ c, b c = b4 ⟨off + c.val, by omega⟩)
    (hv : ∀ k, v k = z x sale W1 b1 W2 b2 W3 b3 k) (c : Fin 15) :
    head M b v c = out x sale W1 b1 W2 b2 W3 b3 W4 b4 ⟨off + c.val, by omega⟩ := by
  unfold head out
  rw [hb]
  congr 1
  refine Finset.sum_congr rfl fun k _ => ?_
  rw [hv, hM]

end

end Cert.Mlp

end
-- ==== Proof.Dense.lean ====
/-
  A dense layer on a tile of rows, read at an index, at the ideal values.

  A tile `A` of `m` rows and `k` columns is multiplied by a `k × n` matrix `B` (accumulating into zero), a bias row is
  added to every row, and possibly the maximum with 0 is taken.  At row `p` and column `c` this is the affine head
  `∑ₖ A (p, k) · B (k, c) + bias c` of `Cert.Mlp`, resp. its layer `max (…) 0`, applied to row `p` of the tile.
-/
import Idealize.ShloMosaic.Lib.Pipeline.Value
import Idealize.ShloMosaic.Lib.ValueIdx
import Idealize.ShloMosaic.Lib.ValueLayout
import Idealize.ShloMosaic.PureOps.Ideal.Laws
import proofs.«106184_j12446815223911_2_alg».proof.Proof.LibPlainMatmul
import proofs.«106184_j12446815223911_2_alg».proof.Proof.LibLayout
import proofs.«106184_j12446815223911_2_alg».proof.Proof.Spec

noncomputable section

namespace Cert.Dense

open Idealize.ShloMosaic Idealize.ShloMosaic.ValueIdx

/-- A matrix as a function of its two coordinates. -/
abbrev mat {a b : ℕ} (v : (⟨2, ![a, b]⟩ : Shape).Idx → EReal) : Fin a → Fin b → EReal := fun i j => v (ix2 i j)
/-- A one-row matrix as a function of the column. -/
abbrev row {b : ℕ} (v : (⟨2, ![1, b]⟩ : Shape).Idx → EReal) : Fin b → EReal := fun j => v (ix2 (0 : Fin 1) j)
/-- Row `p` of a tile as a function of the column. -/
abbrev rowOf {a b : ℕ} (v : (⟨2, ![a, b]⟩ : Shape).Idx → EReal) (p : Fin a) : Fin b → EReal := fun j => v (ix2 p j)

/-- Product into zero plus a bias row, at `(p, c)`. -/
theorem affine_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32)
    (hB : (⟨2, ![k, n]⟩ : Shape).ShapeCasts ⟨2, ![k, n]⟩)
    (bias : FVec Ideal ⟨2, ![1, n]⟩ .f32) (hbias : (⟨2, ![1, n]⟩ : Shape).ShapeCasts ⟨2, ![1, n]⟩)
    (hbc : (⟨2, ![1, n]⟩ : Shape).Broadcasts ⟨2, ![m, n]⟩) (p : Fin m) (c : Fin n) :
    addf (matmul (PlainMatmul.dims w) none A (shapeCast ⟨2, ![k, n]⟩ B hB)
        (constant (F := Ideal) ⟨2, ![m, n]⟩ .f32 0x00000000#32))
      (broadcastTo ⟨2, ![m, n]⟩ (shapeCast ⟨2, ![1, n]⟩ bias hbias) hbc) (ix2 p c)
      = Mlp.head (mat B) (row bias) (rowOf A p) c := by
  rw [addf_apply, shapeCast_self, shapeCast_self, broadcastTo_1b_ab_apply]
  exact congrArg (· + bias (ix2 (0 : Fin 1) c)) (PlainMatmul.matmul_zero_apply w none A B p c)

/-- The same followed by the maximum with 0, at `(p, c)`. -/
theorem layer_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32)
    (hB : (⟨2, ![k, n]⟩ : Shape).ShapeCasts ⟨2, ![k, n]⟩)
    (bias : FVec Ideal ⟨2, ![1, n]⟩ .f32) (hbias : (⟨2, ![1, n]⟩ : Shape).ShapeCasts ⟨2, ![1, n]⟩)
    (hbc : (⟨2, ![1, n]⟩ : Shape).Broadcasts ⟨2, ![m, n]⟩) (p : Fin m) (c : Fin n) :
    maximumf (addf (matmul (PlainMatmul.dims w) none A (shapeCast ⟨2, ![k, n]⟩ B hB)
          (constant (F := Ideal) ⟨2, ![m, n]⟩ .f32 0x00000000#32))
        (broadcastTo ⟨2, ![m, n]⟩ (shapeCast ⟨2, ![1, n]⟩ bias hbias) hbc))
      (broadcast ⟨2, ![m, n]⟩ (Scalar.ofBits (F := Ideal) .f32 0x00000000#32)) (ix2 p c)
      = Mlp.layer (mat B) (row bias) (rowOf A p) c := by
  rw [maximumf_apply, affine_apply, broadcast_apply]
  show max _ (Ideal.ofBits .f32 0x00000000#32) = _
  rw [Ideal.ofBits_zero_f32]
  rfl

/-- A product into zero, plus a column times a row (an outer product), plus a bias row, then the maximum with 0, at
    `(p, c)`. -/
theorem layer_outer_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32)
    (hB : (⟨2, ![k, n]⟩ : Shape).ShapeCasts ⟨2, ![k, n]⟩)
    (col : FVec Ideal ⟨2, ![m, 1]⟩ .f32) (hcol : (⟨2, ![m, 1]⟩ : Shape).Broadcasts ⟨2, ![m, n]⟩)
    (l : FVec Ideal ⟨2, ![1, n]⟩ .f32) (bias : FVec Ideal ⟨2, ![1, n]⟩ .f32)
    (hrow : (⟨2, ![1, n]⟩ : Shape).ShapeCasts ⟨2, ![1, n]⟩)
    (hbc : (⟨2, ![1, n]⟩ : Shape).Broadcasts ⟨2, ![m, n]⟩) (p : Fin m) (c : Fin n) :
    maximumf (addf (addf (matmul (PlainMatmul.dims w) none A (shapeCast ⟨2, ![k, n]⟩ B hB)
            (constant (F := Ideal) ⟨2, ![m, n]⟩ .f32 0x00000000#32))
          (mulf (broadcastTo ⟨2, ![m, n]⟩ col hcol) (broadcastTo ⟨2, ![m, n]⟩ (shapeCast ⟨2, ![1, n]⟩ l hrow) hbc)))
        (broadcastTo ⟨2, ![m, n]⟩ (shapeCast ⟨2, ![1, n]⟩ bias hrow) hbc))
      (broadcast ⟨2, ![m, n]⟩ (Scalar.ofBits (F := Ideal) .f32 0x00000000#32)) (ix2 p c)
      = max ((∑ j : Fin k, A (ix2 p j) * B (ix2 j c) + col (ix2 p (0 : Fin 1)) * l (ix2 (0 : Fin 1) c))
          + bias (ix2 (0 : Fin 1) c)) 0 := by
  rw [maximumf_apply, addf_apply, addf_apply, mulf_apply, shapeCast_self, shapeCast_self, shapeCast_self,
    broadcastTo_1b_ab_apply, broadcastTo_1b_ab_apply, broadcastTo_a1_ab_apply, broadcast_apply]
  show max _ (Ideal.ofBits .f32 0x00000000#32) = _
  rw [Ideal.ofBits_zero_f32]
  exact congrArg (fun t => max ((t + col (ix2 p (0 : Fin 1)) * l (ix2 (0 : Fin 1) c)) + bias (ix2 (0 : Fin 1) c)) 0)
    (PlainMatmul.matmul_zero_apply w none A B p c)

end Cert.Dense

end
-- ==== Proof.KernelPay.lean ====
/-
  What the kernel body computes on one tile of 8192 batch rows, read at an index, at the ideal values.

  The body multiplies the tile of features by the block-diagonal first-layer matrix, adds the tiled bias and takes the
  maximum with 0; does the same with the block-diagonal second-layer matrix; multiplies by the first 56 rows of the
  third-layer matrix, adds the extra scalar's column times the last row, adds the bias and takes the maximum with 0;
  and finally applies one affine head per result (15 columns each) followed by the hyperbolic tangent, resp. the
  exponential.  Row `p` of every intermediate tile depends only on row `p` of the inputs, and is the corresponding
  layer of `Cert.Mlp` applied to that row.
-/
import proofs.«106184_j12446815223911_2_alg».proof.Proof.Gen.KernelIdeal.Skeleton
import proofs.«106184_j12446815223911_2_alg».proof.Proof.Dense

noncomputable section

namespace Cert.KernelIdeal.Pay

open Cert.KernelIdeal Cert.KernelIdeal.Gen
open Idealize.ShloMosaic Idealize.ShloMosaic.ValueIdx Cert.Dense

section
variable {F : FTy → Type} [FloatOps F]

/-- The first hidden tile: 224 columns. -/
def hid1 (v0 : Vec F S8192x126 .f32) (v1 : Vec F S126x224 .f32) (v4 : Vec F S1x224 .f32) :
    FVec F S8192x224 .f32 :=
  maximumf (addf (matmul dot_S8192x126_S126x224_S8192x224_1_0_0_1_n_n none v0
        (shapeCast S126x224 v1 shapeCasts_S126x224_S126x224) (constant S8192x224 .f32 0x00000000#32))
      (broadcastTo S8192x224 (shapeCast S1x224 v4 shapeCasts_S1x224_S1x224) broadcasts_S1x224_S8192x224))
    (broadcast S8192x224 (Scalar.ofBits .f32 0x00000000#32))

/-- The second hidden tile: 56 columns. -/
def hid2 (t : FVec F S8192x224 .f32) (v10 : Vec F S224x56 .f32) (v13 : Vec F S1x56 .f32) :
    FVec F S8192x56 .f32 :=
  maximumf (addf (matmul dot_S8192x224_S224x56_S8192x56_1_0_0_1_n_n none t
        (shapeCast S224x56 v10 shapeCasts_S224x56_S224x56) (constant S8192x56 .f32 0x00000000#32))
      (broadcastTo S8192x56 (shapeCast S1x56 v13 shapeCasts_S1x56_S1x56) broadcasts_S1x56_S8192x56))
    (broadcast S8192x56 (Scalar.ofBits .f32 0x00000000#32))

/-- The third hidden tile: 128 columns. -/
def hid3 (t : FVec F S8192x56 .f32) (v19 : Vec F S56x128 .f32) (v22 : Vec F S8192x1 .f32)
    (v23 : Vec F S1x128 .f32) (v29 : Vec F S1x128 .f32) : FVec F S8192x128 .f32 :=
  maximumf (addf (addf (matmul dot_S8192x56_S56x128_S8192x128_1_0_0_1_n_n none t
          (shapeCast S56x128 v19 shapeCasts_S56x128_S56x128) (constant S8192x128 .f32 0x00000000#32))
        (mulf (broadcastTo S8192x128 v22 broadcasts_S8192x1_S8192x128)
          (broadcastTo S8192x128 (shapeCast S1x128 v23 shapeCasts_S1x128_S1x128) broadcasts_S1x128_S8192x128)))
      (broadcastTo S8192x128 (shapeCast S1x128 v29 shapeCasts_S1x128_S1x128) broadcasts_S1x128_S8192x128))
    (broadcast S8192x128 (Scalar.ofBits .f32 0x00000000#32))

/-- One affine head on the third tile: 15 columns. -/
def headTile (t : FVec F S8192x128 .f32) (v35 : Vec F S128x15 .f32) (v38 : Vec F S1x15 .f32) :
    FVec F S8192x15 .f32 :=
  addf (matmul dot_S8192x128_S128x15_S8192x15_1_0_0_1_n_n none t
      (shapeCast S128x15 v35 shapeCasts_S128x15_S128x15) (constant S8192x15 .f32 0x00000000#32))
    (broadcastTo S8192x15 (shapeCast S1x15 v38 shapeCasts_S1x15_S1x15) broadcasts_S1x15_S8192x15)

/-- The payload shared by both stores is the three tiles composed. -/
theorem pay3_eq (v0 : Vec F S8192x126 .f32) (v1 : Vec F S126x224 .f32) (v4 : Vec F S1x224 .f32)
    (v10 : Vec F S224x56 .f32) (v13 : Vec F S1x56 .f32) (v19 : Vec F S56x128 .f32)
    (v22 : Vec F S8192x1 .f32) (v23 : Vec F S1x128 .f32) (v29 : Vec F S1x128 .f32) :
    k0_pay3 v0 v1 v4 v10 v13 v19 v22 v23 v29 = hid3 (hid2 (hid1 v0 v1 v4) v10 v13) v19 v22 v23 v29 := rfl

theorem pay1_eq (t : FVec F S8192x128 .f32) (v35 : Vec F S128x15 .f32) (v38 : Vec F S1x15 .f32) :
    k0_pay1 t v35 v38 = tanh (headTile t v35 v38) := rfl

theorem pay2_eq (t : FVec F S8192x128 .f32) (v42 : Vec F S128x15 .f32) (v45 : Vec F S1x15 .f32) :
    k0_pay2 t v42 v45 = exp (headTile t v42 v45) := rfl

end

theorem hid1_apply (v0 : Vec Ideal S8192x126 .f32) (v1 : Vec Ideal S126x224 .f32) (v4 : Vec Ideal S1x224 .f32)
    (p : Fin 8192) (c : Fin 224) :
    hid1 (F := Ideal) v0 v1 v4 (ix2 p c) = Mlp.layer (mat v1) (row v4) (rowOf v0 p) c :=
  Dense.layer_apply dot_S8192x126_S126x224_S8192x224_1_0_0_1_n_n_wf v0 v1 shapeCasts_S126x224_S126x224 v4
    shapeCasts_S1x224_S1x224 broadcasts_S1x224_S8192x224 p c

theorem hid2_apply (t : FVec Ideal S8192x224 .f32) (v10 : Vec Ideal S224x56 .f32) (v13 : Vec Ideal S1x56 .f32)
    (p : Fin 8192) (c : Fin 56) :
    hid2 (F := Ideal) t v10 v13 (ix2 p c) = Mlp.layer (mat v10) (row v13) (rowOf t p) c :=
  Dense.layer_apply dot_S8192x224_S224x56_S8192x56_1_0_0_1_n_n_wf t v10 shapeCasts_S224x56_S224x56 v13
    shapeCasts_S1x56_S1x56 broadcasts_S1x56_S8192x56 p c

theorem hid3_apply (t : FVec Ideal S8192x56 .f32) (v19 : Vec Ideal S56x128 .f32) (v22 : Vec Ideal S8192x1 .f32)
    (v23 : Vec Ideal S1x128 .f32) (v29 : Vec Ideal S1x128 .f32) (p : Fin 8192) (c : Fin 128) :
    hid3 (F := Ideal) t v19 v22 v23 v29 (ix2 p c)
      = Mlp.layer3 (mat v19) (row v23) (row v29) (rowOf t p) (v22 (ix2 p (0 : Fin 1))) c :=
  Dense.layer_outer_apply dot_S8192x56_S56x128_S8192x128_1_0_0_1_n_n_wf t v19 shapeCasts_S56x128_S56x128 v22
    broadcasts_S8192x1_S8192x128 v23 v29 shapeCasts_S1x128_S1x128 broadcasts_S1x128_S8192x128 p c

theorem headTile_apply (t : FVec Ideal S8192x128 .f32) (v35 : Vec Ideal S128x15 .f32) (v38 : Vec Ideal S1x15 .f32)
    (p : Fin 8192) (c : Fin 15) :
    headTile (F := Ideal) t v35 v38 (ix2 p c) = Mlp.head (mat v35) (row v38) (rowOf t p) c :=
  Dense.affine_apply dot_S8192x128_S128x15_S8192x15_1_0_0_1_n_n_wf t v35 shapeCasts_S128x15_S128x15 v38
    shapeCasts_S1x15_S1x15 broadcasts_S1x15_S8192x15 p c

/-- Row `p` of the third tile, from row `p` of the inputs. -/
def zRow (v0 : Vec Ideal S8192x126 .f32) (v1 : Vec Ideal S126x224 .f32) (v4 : Vec Ideal S1x224 .f32)
    (v10 : Vec Ideal S224x56 .f32) (v13 : Vec Ideal S1x56 .f32) (v19 : Vec Ideal S56x128 .f32)
    (v22 : Vec Ideal S8192x1 .f32) (v23 : Vec Ideal S1x128 .f32) (v29 : Vec Ideal S1x128 .f32) (p : Fin 8192) :
    Fin 128 → EReal :=
  Mlp.layer3 (mat v19) (row v23) (row v29)
    (Mlp.layer (mat v10) (row v13) (Mlp.layer (mat v1) (row v4) (rowOf v0 p))) (v22 (ix2 p (0 : Fin 1)))

theorem pay3_row (v0 : Vec Ideal S8192x126 .f32) (v1 : Vec Ideal S126x224 .f32) (v4 : Vec Ideal S1x224 .f32)
    (v10 : Vec Ideal S224x56 .f32) (v13 : Vec Ideal S1x56 .f32) (v19 : Vec Ideal S56x128 .f32)
    (v22 : Vec Ideal S8192x1 .f32) (v23 : Vec Ideal S1x128 .f32) (v29 : Vec Ideal S1x128 .f32) (p : Fin 8192) :
    rowOf (k0_pay3 (F := Ideal) v0 v1 v4 v10 v13 v19 v22 v23 v29) p = zRow v0 v1 v4 v10 v13 v19 v22 v23 v29 p := by
  funext c
  show k0_pay3 (F := Ideal) v0 v1 v4 v10 v13 v19 v22 v23 v29 (ix2 p c) = _
  rw [pay3_eq, hid3_apply]
  have e2 : rowOf (hid2 (hid1 (F := Ideal) v0 v1 v4) v10 v13) p
      = Mlp.layer (mat v10) (row v13) (Mlp.layer (mat v1) (row v4) (rowOf v0 p)) := by
    funext k
    show hid2 (hid1 (F := Ideal) v0 v1 v4) v10 v13 (ix2 p k) = _
    rw [hid2_apply]
    have e1 : rowOf (hid1 (F := Ideal) v0 v1 v4) p = Mlp.layer (mat v1) (row v4) (rowOf v0 p) :=
      funext fun j => hid1_apply v0 v1 v4 p j
    rw [e1]
  rw [e2]
  rfl

/-- THE FIRST STORE'S PAYLOAD at `(p, c)`. -/
theorem pay1_apply (v0 : Vec Ideal S8192x126 .f32) (v1 : Vec Ideal S126x224 .f32) (v4 : Vec Ideal S1x224 .f32)
    (v10 : Vec Ideal S224x56 .f32) (v13 : Vec Ideal S1x56 .f32) (v19 : Vec Ideal S56x128 .f32)
    (v22 : Vec Ideal S8192x1 .f32) (v23 : Vec Ideal S1x128 .f32) (v29 : Vec Ideal S1x128 .f32)
    (v35 : Vec Ideal S128x15 .f32) (v38 : Vec Ideal S1x15 .f32) (p : Fin 8192) (c : Fin 15) :
    k0_pay1 (k0_pay3 (F := Ideal) v0 v1 v4 v10 v13 v19 v22 v23 v29) v35 v38 (ix2 p c)
      = Ideal.tanh (Mlp.head (mat v35) (row v38) (zRow v0 v1 v4 v10 v13 v19 v22 v23 v29 p) c) := by
  rw [pay1_eq]
  show Ideal.tanh (headTile _ v35 v38 (ix2 p c)) = _
  rw [headTile_apply, pay3_row]

/-- THE SECOND STORE'S PAYLOAD at `(p, c)`. -/
theorem pay2_apply (v0 : Vec Ideal S8192x126 .f32) (v1 : Vec Ideal S126x224 .f32) (v4 : Vec Ideal S1x224 .f32)
    (v10 : Vec Ideal S224x56 .f32) (v13 : Vec Ideal S1x56 .f32) (v19 : Vec Ideal S56x128 .f32)
    (v22 : Vec Ideal S8192x1 .f32) (v23 : Vec Ideal S1x128 .f32) (v29 : Vec Ideal S1x128 .f32)
    (v42 : Vec Ideal S128x15 .f32) (v45 : Vec Ideal S1x15 .f32) (p : Fin 8192) (c : Fin 15) :
    k0_pay2 (k0_pay3 (F := Ideal) v0 v1 v4 v10 v13 v19 v22 v23 v29) v42 v45 (ix2 p c)
      = Ideal.exp (Mlp.head (mat v42) (row v45) (zRow v0 v1 v4 v10 v13 v19 v22 v23 v29 p) c) := by
  rw [pay2_eq]
  show Ideal.exp (headTile _ v42 v45 (ix2 p c)) = _
  rw [headTile_apply, pay3_row]

end Cert.KernelIdeal.Pay

end
-- ==== Proof.Target.lean ====
/-
  The two result arrays of the actor network as functions of its ten argument arrays.

  Row `r` of the batch is the 126 features `x0 (r, ·)` and the extra scalar `x1 (r, 0)`; the network of
  `Cert.Mlp` (group layers 9 → 16 → 4 shared by the 14 groups, then 57 → 128 → 30) gives it 30 numbers.  The first
  result array holds the hyperbolic tangent of the first 15 of them, the second the exponential of the last 15.
-/
import Idealize.ShloMosaic.Lib.ValueIdx
import proofs.«106184_j12446815223911_2_alg».proof.Proof.Spec

noncomputable section

namespace Cert.Mlp

open Idealize.ShloMosaic Idealize.ShloMosaic.ValueIdx

/-- A matrix of extended reals with literal extents. -/
abbrev A2 (a b : ℕ) : Type := (⟨2, ![a, b]⟩ : Shape).Idx → EReal
/-- A vector of extended reals with a literal extent. -/
abbrev A1 (a : ℕ) : Type := (⟨1, ![a]⟩ : Shape).Idx → EReal

/-- Output `c` (of 30) of the fourth layer on batch row `r`, from the ten argument arrays. -/
def outAt (x0 : A2 262144 126) (x1 : A2 262144 1) (x2 : A2 9 16) (x3 : A1 16) (x4 : A2 16 4) (x5 : A1 4)
    (x6 : A2 57 128) (x7 : A1 128) (x8 : A2 128 30) (x9 : A1 30) (r : Fin 262144) (c : Fin 30) : EReal :=
  out (fun k => x0 (ix2 r k)) (x1 (ix2 r (0 : Fin 1))) (fun i j => x2 (ix2 i j)) (fun j => x3 (ix1 j))
    (fun j o => x4 (ix2 j o)) (fun o => x5 (ix1 o)) (fun k c => x6 (ix2 k c)) (fun c => x7 (ix1 c))
    (fun k c => x8 (ix2 k c)) (fun c => x9 (ix1 c)) c

/-- The first result: the hyperbolic tangent of outputs 0 … 14. -/
def Gmean (x0 : A2 262144 126) (x1 : A2 262144 1) (x2 : A2 9 16) (x3 : A1 16) (x4 : A2 16 4) (x5 : A1 4)
    (x6 : A2 57 128) (x7 : A1 128) (x8 : A2 128 30) (x9 : A1 30) : A2 262144 15 := fun i =>
  Ideal.tanh (outAt x0 x1 x2 x3 x4 x5 x6 x7 x8 x9 ⟨(i 0).val, (i 0).isLt⟩
    ⟨(i 1).val, by have h : (i 1).val < 15 := (i 1).isLt; omega⟩)

/-- The second result: the exponential of outputs 15 … 29. -/
def Gstd (x0 : A2 262144 126) (x1 : A2 262144 1) (x2 : A2 9 16) (x3 : A1 16) (x4 : A2 16 4) (x5 : A1 4)
    (x6 : A2 57 128) (x7 : A1 128) (x8 : A2 128 30) (x9 : A1 30) : A2 262144 15 := fun i =>
  Ideal.exp (outAt x0 x1 x2 x3 x4 x5 x6 x7 x8 x9 ⟨(i 0).val, (i 0).isLt⟩
    ⟨15 + (i 1).val, by have h : (i 1).val < 15 := (i 1).isLt; omega⟩)

theorem Gmean_ix2 (x0 : A2 262144 126) (x1 : A2 262144 1) (x2 : A2 9 16) (x3 : A1 16) (x4 : A2 16 4) (x5 : A1 4)
    (x6 : A2 57 128) (x7 : A1 128) (x8 : A2 128 30) (x9 : A1 30) (r : Fin 262144) (c : Fin 15) :
    Gmean x0 x1 x2 x3 x4 x5 x6 x7 x8 x9 (ix2 r c)
      = Ideal.tanh (outAt x0 x1 x2 x3 x4 x5 x6 x7 x8 x9 r ⟨c.val, by omega⟩) := rfl

theorem Gstd_ix2 (x0 : A2 262144 126) (x1 : A2 262144 1) (x2 : A2 9 16) (x3 : A1 16) (x4 : A2 16 4) (x5 : A1 4)
    (x6 : A2 57 128) (x7 : A1 128) (x8 : A2 128 30) (x9 : A1 30) (r : Fin 262144) (c : Fin 15) :
    Gstd x0 x1 x2 x3 x4 x5 x6 x7 x8 x9 (ix2 r c)
      = Ideal.exp (outAt x0 x1 x2 x3 x4 x5 x6 x7 x8 x9 r ⟨15 + c.val, by omega⟩) := rfl

end Cert.Mlp

end
-- ==== Proof.RowBridge.lean ====
/-
  One row of the kernel's tile against the network of `Cert.Mlp`.

  Suppose the row `p` of the feature tile and of the scalar column are row `r` of the batch, the two block-diagonal
  matrices hold the shared group weights in their diagonal blocks and zeros elsewhere, the two tiled biases repeat the
  group biases, the third-layer pieces are the first 56 rows and the last row of `W3`, and a head's matrix and bias
  are 15 consecutive columns of `W4` and entries of `b4` from `off`.  Then the head applied to the third tile's row `p`
  is output `off + q` of the network on batch row `r`.
-/
import proofs.«106184_j12446815223911_2_alg».proof.Proof.KernelPay
import proofs.«106184_j12446815223911_2_alg».proof.Proof.Target

noncomputable section

namespace Cert.KernelIdeal.RowBridge

open Cert.KernelIdeal Idealize.ShloMosaic Idealize.ShloMosaic.ValueIdx Cert.Dense Cert.Mlp Cert.KernelIdeal.Pay

theorem head_row (x0 : Vec Ideal S8192x126 .f32) (x1 : Vec Ideal S8192x1 .f32) (x2 : Vec Ideal S126x224 .f32)
    (x3 : Vec Ideal S1x224 .f32) (x4 : Vec Ideal S224x56 .f32) (x5 : Vec Ideal S1x56 .f32)
    (x6 : Vec Ideal S56x128 .f32) (x7 : Vec Ideal S1x128 .f32) (x8 : Vec Ideal S1x128 .f32)
    (x9 : Vec Ideal S128x15 .f32) (x10 : Vec Ideal S1x15 .f32)
    (X0 : A2 262144 126) (X1 : A2 262144 1) (W1 : A2 9 16) (b1 : A1 16) (W2 : A2 16 4) (b2 : A1 4)
    (W3 : A2 57 128) (b3 : A1 128) (W4 : A2 128 30) (b4 : A1 30)
    (r : Fin 262144) (p : Fin 8192) (off : ℕ) (hoff : off + 15 ≤ 30)
    (h0 : ∀ k : Fin 126, x0 (ix2 p k) = X0 (ix2 r k))
    (h1 : x1 (ix2 p (0 : Fin 1)) = X1 (ix2 r (0 : Fin 1)))
    (h2 : ∀ (k : Fin 126) (q : Fin 224), x2 (ix2 k q)
        = if k.val / 9 = q.val / 16 then W1 (ix2 ⟨k.val % 9, Nat.mod_lt _ (by decide)⟩ ⟨q.val % 16, Nat.mod_lt _ (by decide)⟩) else 0)
    (h3 : ∀ q : Fin 224, x3 (ix2 (0 : Fin 1) q) = b1 (ix1 ⟨q.val % 16, Nat.mod_lt _ (by decide)⟩))
    (h4 : ∀ (k : Fin 224) (q : Fin 56), x4 (ix2 k q)
        = if k.val / 16 = q.val / 4 then W2 (ix2 ⟨k.val % 16, Nat.mod_lt _ (by decide)⟩ ⟨q.val % 4, Nat.mod_lt _ (by decide)⟩) else 0)
    (h5 : ∀ q : Fin 56, x5 (ix2 (0 : Fin 1) q) = b2 (ix1 ⟨q.val % 4, Nat.mod_lt _ (by decide)⟩))
    (h6 : ∀ (k : Fin 56) (j : Fin 128), x6 (ix2 k j) = W3 (ix2 (⟨k.val, by omega⟩ : Fin 57) j))
    (h7 : ∀ j : Fin 128, x7 (ix2 (0 : Fin 1) j) = W3 (ix2 (⟨56, by decide⟩ : Fin 57) j))
    (h8 : ∀ j : Fin 128, x8 (ix2 (0 : Fin 1) j) = b3 (ix1 j))
    (h9 : ∀ (k : Fin 128) (j : Fin 15), x9 (ix2 k j) = W4 (ix2 k (⟨off + j.val, by omega⟩ : Fin 30)))
    (h10 : ∀ j : Fin 15, x10 (ix2 (0 : Fin 1) j) = b4 (ix1 (⟨off + j.val, by omega⟩ : Fin 30)))
    (q : Fin 15) :
    Mlp.head (mat x9) (row x10) (zRow x0 x2 x3 x4 x5 x6 x1 x7 x8 p) q
      = outAt X0 X1 W1 b1 W2 b2 W3 b3 W4 b4 r ⟨off + q.val, by omega⟩ := by
  unfold outAt
  refine Mlp.head_eq (x := fun k => X0 (ix2 r k)) (sale := X1 (ix2 r (0 : Fin 1))) (W1 := fun i j => W1 (ix2 i j))
    (b1 := fun j => b1 (ix1 j)) (W2 := fun j o => W2 (ix2 j o)) (b2 := fun o => b2 (ix1 o))
    (W3 := fun k c => W3 (ix2 k c)) (b3 := fun c => b3 (ix1 c)) (W4 := fun k c => W4 (ix2 k c))
    (b4 := fun c => b4 (ix1 c)) (mat x9) (row x10) _ off hoff (fun k c => h9 k c) (fun c => h10 c) ?_ q
  intro k
  unfold zRow
  have e8 : row x8 = fun c => b3 (ix1 c) := funext h8
  rw [e8, h1]
  refine Mlp.layer3_eq (x := fun k => X0 (ix2 r k)) (sale := X1 (ix2 r (0 : Fin 1))) (W1 := fun i j => W1 (ix2 i j))
    (b1 := fun j => b1 (ix1 j)) (W2 := fun j o => W2 (ix2 j o)) (b2 := fun o => b2 (ix1 o))
    (W3 := fun k c => W3 (ix2 k c)) (b3 := fun c => b3 (ix1 c)) (mat x6) (row x7) _ (fun k c => h6 k c)
    (fun c => h7 c) ?_ k
  intro k2
  refine Mlp.layer_blockdiag2 (x := fun k => X0 (ix2 r k)) (W1 := fun i j => W1 (ix2 i j))
    (b1 := fun j => b1 (ix1 j)) (W2 := fun j o => W2 (ix2 j o)) (b2 := fun o => b2 (ix1 o)) (mat x4) (row x5) _
    (fun k c => h4 k c) (fun c => h5 c) ?_ k2
  intro k3
  have e0 : rowOf x0 p = fun k => X0 (ix2 r k) := funext h0
  rw [e0]
  exact Mlp.layer_blockdiag1 (x := fun k => X0 (ix2 r k)) (W1 := fun i j => W1 (ix2 i j))
    (b1 := fun j => b1 (ix1 j)) (mat x2) (row x3) (fun k c => h2 k c) (fun c => h3 c) k3

end Cert.KernelIdeal.RowBridge

end
-- ==== Proof.LibScatterSet.lean ====
/-
  A scatter read at one element when at most one update lands on it.

  The host scatter is the left fold, over the update positions in row-major order, of the step "if the
  update's result index is inside the operand, replace the element there by the body applied to the old element
  and the update".  An element of the operand is therefore changed only by the updates whose result index is
  that element.  If no update lands on an element, it keeps the operand's value; if exactly one update does,
  the element ends at the body applied to the operand's value and that update, whatever the body is: the
  updates before and after it leave the element alone.  This is the case of `x.at[window].set(v)` (the body
  returns the update) with a window of distinct positions, and of any scatter with pairwise distinct result
  indices.
-/
import Idealize.ShloMosaic.PureOps.ShapeOps

namespace Idealize.ShloMosaic.ScatterSet

open Idealize.ShloMosaic

variable {α : Type} {s si u : Shape} {w : Nat}

/-- One step of the scatter's fold at update position `n`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves the element at `i` alone. -/
theorem step_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h ⊢
  cases o with
  | none => rfl
  | some i0 =>
    show (if i = i0 then _ else r i) = r i
    rw [if_neg]
    intro e
    exact h (by rw [e])

/-- A step whose update lands on `i` applies the body there. -/
theorem step_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  show (if i = i then _ else r i) = _
  rw [if_pos rfl]

/-- Positions none of which lands on `i` leave the element at `i` alone. -/
theorem foldl_of_miss (d : ScatterDims s si u) (f : α → α → α) (idx : IVec si w) (upd : u.Idx → α) (i : s.Idx) :
    ∀ (L : List (Fin u.numel)) (r : s.Idx → α),
      (∀ n ∈ L, d.resultIdx? (u.rowMajor.symm n) idx ≠ some i) → L.foldl (step d f idx upd) r i = r i
  | [], _, _ => rfl
  | n :: L, r, h => by
    rw [List.foldl_cons, foldl_of_miss d f idx upd i L _ (fun n' hn' => h n' (List.mem_cons_of_mem _ hn'))]
    exact step_of_ne d f idx upd r n i (h n List.mem_cons_self)

/-- Distinct positions exactly one of which, `n0`, lands on `i`: the element ends at the body applied to what it
    held and that position's update. -/
theorem foldl_of_unique (d : ScatterDims s si u) (f : α → α → α) (idx : IVec si w) (upd : u.Idx → α) (i : s.Idx)
    (n0 : Fin u.numel) (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d f idx upd) r i = f (r i) (upd (u.rowMajor.symm n0))
  | [], _, _, hm, _ => absurd hm List.not_mem_nil
  | n :: L, r, hnd, hm, hu => by
    rw [List.foldl_cons]
    have hnd' := List.nodup_cons.mp hnd
    by_cases e : n = n0
    · subst e
      rw [foldl_of_miss d f idx upd i L _ (fun n' hn' hr => hnd'.1 ((hu n' (List.mem_cons_of_mem _ hn') hr) ▸ hn'))]
      exact step_of_eq d f idx upd r n i h0
    · have hm' : n0 ∈ L := by
        rcases List.mem_cons.mp hm with h | h
        · exact absurd h.symm e
        · exact h
      rw [foldl_of_unique d f idx upd i n0 h0 L _ hnd'.2 hm' (fun n' hn' => hu n' (List.mem_cons_of_mem _ hn'))]
      rw [step_of_ne d f idx upd r n i (fun hr => e (hu n List.mem_cons_self hr))]

/-- An update lands on `i` when, on every axis, the window's start plus the window coordinate is `i`'s coordinate. -/
theorem resultIdx?_eq_some (d : ScatterDims s si u) (idx : IVec si w) (j : u.Idx) (i : s.Idx)
    (h : ∀ a, d.start j idx a + d.window j a = ((i a).val : Int)) : d.resultIdx? j idx = some i := by
  unfold ScatterDims.resultIdx?
  have hb : ∀ a, 0 ≤ d.start j idx a + d.window j a ∧ d.start j idx a + d.window j a < s.size a := fun a => by
    rw [h a]; exact ⟨Int.natCast_nonneg _, by exact_mod_cast (i a).isLt⟩
  rw [dif_pos hb]
  congr 1
  funext a
  apply Fin.ext
  show (d.start j idx a + d.window j a).toNat = (i a).val
  rw [h a]; exact Int.toNat_natCast _

/-- Conversely, an update that lands on `i` has, on every axis, start plus window coordinate equal to `i`'s. -/
theorem eq_of_resultIdx?_eq_some (d : ScatterDims s si u) (idx : IVec si w) (j : u.Idx) (i : s.Idx)
    (h : d.resultIdx? j idx = some i) (a : Fin s.rank) : d.start j idx a + d.window j a = ((i a).val : Int) := by
  unfold ScatterDims.resultIdx? at h
  by_cases hb : ∀ a, 0 ≤ d.start j idx a + d.window j a ∧ d.start j idx a + d.window j a < s.size a
  · rw [dif_pos hb] at h
    have e := Option.some.inj h
    rw [← e]
    show _ = (((d.start j idx a + d.window j a).toNat : Nat) : Int)
    rw [Int.toNat_of_nonneg (hb a).1]
  · rw [dif_neg hb] at h
    cases h

/-- An element no update lands on keeps the operand's value. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_of_miss d f idx upd i _ x (fun n _ => h _)

/-- An element exactly one update `j` lands on ends at the body applied to the operand's value and that update. -/
theorem scatter_apply_of_unique (d : ScatterDims s si u) (f : α → α → α) (x : s.Idx → α) (idx : IVec si w)
    (upd : u.Idx → α) (i : s.Idx) (j : u.Idx) (hj : d.resultIdx? j idx = some i)
    (hu : ∀ j', d.resultIdx? j' idx = some i → j' = j) :
    Host.scatter d f x idx upd i = f (x i) (upd j) := by
  rw [scatter_eq_foldl]
  have e : u.rowMajor.symm (u.rowMajor j) = j := u.rowMajor.symm_apply_apply j
  have := foldl_of_unique d f idx upd i (u.rowMajor j) (by rw [e]; exact hj) (List.finRange u.numel) x
    (List.nodup_finRange _) (List.mem_finRange _)
    (fun n _ hr => by
      have := hu _ hr
      rw [← this]; exact (u.rowMajor.apply_symm_apply n).symm)
  rw [this, e]

end Idealize.ShloMosaic.ScatterSet
-- ==== Proof.LibCat2.lean ====
/-
  Two equal pieces joined along one axis, read at an index, for any element type and any extents.
  Two matrices [n, w] laid side by side make a matrix [n, W] with W = 2·w: its column g·w + q (g the piece, q the
  column inside the piece) at row k is piece g at (k, q).  Two matrices [n, w] stacked make a matrix [N, w] with
  N = 2·n: its row g·n + q at column c is piece g at (q, c).  Two vectors [w] laid end to end make a vector [W]:
  its element g·w + q is piece g at q.  Each is the library's reading of a concatenation at an index, with the
  extents of the pieces before piece g summed to g·w (or g·n).
-/
import Idealize.ShloMosaic.Lib.Pipeline.Value
import Idealize.ShloMosaic.Lib.ValueIdx

open Idealize.ShloMosaic Idealize.ShloMosaic.ValueIdx

namespace Cat2

variable {α : Type}

/-- Two [n, w] matrices side by side: column `g·w + q` of row `k` is piece `g` at `(k, q)`. -/
theorem cat2_cols_apply {n w W : ℕ} (x0 x1 : (⟨2, ![n, w]⟩ : Shape).Idx → α)
    (h : Shape.Concatenates [(⟨2, ![n, w]⟩ : Shape), ⟨2, ![n, w]⟩] ⟨2, ![n, W]⟩ (1 : Fin 2))
    (g : Fin 2) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩] h (ix2 k c)
      = (![x0, x1] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩] h (ix2 k c) g.val g.isLt (⟨2, ![n, w]⟩ : Shape) (![x0, x1] g) ?_ rfl
    (g.val * w) ?_ (ix2 k q) ?_ ?_
  · fin_cases g <;> rfl
  · fin_cases g <;> simp
  · intro b hb
    match b with
    | ⟨0, _⟩ => rfl
    | ⟨1, _⟩ => exact absurd rfl hb
  · show g.val * w + q.val = c.val
    omega

/-- Two [n, w] matrices stacked: row `g·n + q` at column `c` is piece `g` at `(q, c)`. -/
theorem cat2_rows_apply {n w N : ℕ} (x0 x1 : (⟨2, ![n, w]⟩ : Shape).Idx → α)
    (h : Shape.Concatenates [(⟨2, ![n, w]⟩ : Shape), ⟨2, ![n, w]⟩] ⟨2, ![N, w]⟩ (0 : Fin 2))
    (g : Fin 2) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩] h (ix2 r c)
      = (![x0, x1] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩] h (ix2 r c) g.val g.isLt (⟨2, ![n, w]⟩ : Shape) (![x0, x1] g) ?_ rfl
    (g.val * n) ?_ (ix2 q c) ?_ ?_
  · fin_cases g <;> rfl
  · fin_cases g <;> simp
  · intro b hb
    match b with
    | ⟨0, _⟩ => exact absurd rfl hb
    | ⟨1, _⟩ => rfl
  · show g.val * n + q.val = r.val
    omega

/-- Two [w] vectors end to end: element `g·w + q` is piece `g` at `q`. -/
theorem cat2_vec_apply {w W : ℕ} (x0 x1 : (⟨1, ![w]⟩ : Shape).Idx → α)
    (h : Shape.Concatenates [(⟨1, ![w]⟩ : Shape), ⟨1, ![w]⟩] ⟨1, ![W]⟩ (0 : Fin 1))
    (g : Fin 2) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩] h (ix1 c)
      = (![x0, x1] g) (ix1 q) := by
  refine concatenate_apply_piece (t := (⟨1, ![W]⟩ : Shape)) (0 : Fin 1)
    [⟨(⟨1, ![w]⟩ : Shape), x0⟩, ⟨(⟨1, ![w]⟩ : Shape), x1⟩] h (ix1 c) g.val g.isLt (⟨1, ![w]⟩ : Shape) (![x0, x1] g) ?_ rfl
    (g.val * w) ?_ (ix1 q) ?_ ?_
  · fin_cases g <;> rfl
  · fin_cases g <;> simp
  · intro b hb
    match b with
    | ⟨0, _⟩ => exact absurd rfl hb
  · show g.val * w + q.val = c.val
    omega

end Cat2
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.BlockDiag.lean ====
/-
  The two block-diagonal weight matrices that the program builds before its one region.

  A zero matrix of 126 × 224 receives the 9 × 16 matrix W1 (the program's third argument) as a window whose upper
  left corner is (9g, 16g), for g = 0, …, 13, one window after the other.  The windows are pairwise disjoint and
  window g covers exactly the entries (k, q) with k / 9 = g = q / 16, so the matrix the region finds holds
  W1 (k mod 9, q mod 16) at (k, q) when k / 9 = q / 16, and 0 elsewhere.  In the same way a zero matrix of 224 × 56
  receives the 16 × 4 matrix W2 (the fifth argument) at (16g, 4g), and holds W2 (k mod 16, q mod 4) at (k, q) when
  k / 16 = q / 4, and 0 elsewhere.

  The proof has four parts.  (1) Writing one window of a rank-2 array: an entry inside the window ends at the
  update's entry, an entry outside it is left alone (each entry is the landing place of at most one update).
  (2) The window's corner: the start-index vector is two one-element vectors, each a broadcast integer constant,
  laid end to end, so its two components are those constants.  (3) The host operations form a straight line in
  which every buffer is written once and read only afterwards; what a buffer holds at the end is therefore its own
  operation applied to what its operands hold at the end.  This gives each of the 28 writes as a statement about
  the matrices before and after it.  (4) By induction on g, after the first g windows the matrix holds W (k mod a,
  q mod b) where k / a = q / b < g, and 0 elsewhere; at g = 14 the bound k / a < 14 holds for every row.
-/
import proofs.«106184_j12446815223911_2_alg».proof.Proof.Gen.KernelIdeal.Frame
import proofs.«106184_j12446815223911_2_alg».proof.Proof.LibScatterSet
import proofs.«106184_j12446815223911_2_alg».proof.Proof.LibCat2
import proofs.«106184_j12446815223911_2_alg».proof.Proof.LibLine
import Idealize.ShloMosaic.Lib.ValueIdx
import Idealize.ShloMosaic.Lib.StableHlo.Run
import Idealize.ShloMosaic.PureOps.Ideal.Laws

set_option maxRecDepth 16384

noncomputable section

namespace Cert.KernelIdeal.BlockDiag

open Idealize.ShloMosaic Idealize.ShloMosaic.TcCoe Idealize.ShloMosaic.ValueIdx Idealize.ShloMosaic.StableHlo
open Idealize.ShloMosaic.ScatterSet Cert.LibLine

/-! ## One window written into a rank-2 array -/

section Window

variable {α : Type}

/-- A scatter whose body returns the update, whose every update starts at the corner `(s0, s1)` and whose window
    coordinates are the update's own: an entry `(k, q)` with `s0 ≤ k < s0 + a0` and `s1 ≤ q < s1 + a1` ends at the
    update's entry `(k - s0, q - s1)`, the only update that lands there; every other entry keeps the operand's value,
    since no update lands on it. -/
theorem scatter_set_window2 {n0 n1 a0 a1 w : ℕ} {si : Shape}
    (d : ScatterDims ⟨2, ![n0, n1]⟩ si ⟨2, ![a0, a1]⟩) (x : (⟨2, ![n0, n1]⟩ : Shape).Idx → α) (idx : IVec si w)
    (upd : (⟨2, ![a0, a1]⟩ : Shape).Idx → α) (s0 s1 : ℕ)
    (hs0 : ∀ j, d.start j idx 0 = (s0 : ℤ)) (hs1 : ∀ j, d.start j idx 1 = (s1 : ℤ))
    (hw0 : ∀ j, d.window j 0 = (j 0).val) (hw1 : ∀ j, d.window j 1 = (j 1).val)
    (k : Fin n0) (q : Fin n1) :
    Host.scatter d (fun _ b => b) x idx upd (ix2 k q)
      = if h : (s0 ≤ k.val ∧ k.val < s0 + a0) ∧ (s1 ≤ q.val ∧ q.val < s1 + a1)
          then upd (ix2 ⟨k.val - s0, by omega⟩ ⟨q.val - s1, by omega⟩) else x (ix2 k q) := by
  by_cases h : (s0 ≤ k.val ∧ k.val < s0 + a0) ∧ (s1 ≤ q.val ∧ q.val < s1 + a1)
  · rw [dif_pos h]
    refine scatter_apply_of_unique d _ x idx upd (ix2 k q) (ix2 ⟨k.val - s0, by omega⟩ ⟨q.val - s1, by omega⟩) ?_ ?_
    · refine resultIdx?_eq_some d idx _ _ ?_
      intro a
      match a with
      | ⟨0, _⟩ =>
        show d.start _ idx 0 + ((d.window _ 0 : ℕ) : ℤ) = ((k.val : ℕ) : ℤ)
        rw [hs0, hw0]
        show (s0 : ℤ) + ((k.val - s0 : ℕ) : ℤ) = _
        omega
      | ⟨1, _⟩ =>
        show d.start _ idx 1 + ((d.window _ 1 : ℕ) : ℤ) = ((q.val : ℕ) : ℤ)
        rw [hs1, hw1]
        show (s1 : ℤ) + ((q.val - s1 : ℕ) : ℤ) = _
        omega
    · intro j' hj'
      have e0 := eq_of_resultIdx?_eq_some d idx j' _ hj' 0
      have e1 := eq_of_resultIdx?_eq_some d idx j' _ hj' 1
      rw [hs0, hw0] at e0
      rw [hs1, hw1] at e1
      have e0' : (s0 : ℤ) + ((j' 0).val : ℤ) = (k.val : ℤ) := e0
      have e1' : (s1 : ℤ) + ((j' 1).val : ℤ) = (q.val : ℤ) := e1
      rw [eq_ix2 j']
      congr 1 <;> (apply Fin.ext; show _ = _ - _; omega)
  · rw [dif_neg h]
    refine scatter_apply_of_miss d _ x idx upd (ix2 k q) ?_
    intro j hj
    have e0 := eq_of_resultIdx?_eq_some d idx j _ hj 0
    have e1 := eq_of_resultIdx?_eq_some d idx j _ hj 1
    rw [hs0, hw0] at e0
    rw [hs1, hw1] at e1
    have e0' : (s0 : ℤ) + ((j 0).val : ℤ) = (k.val : ℤ) := e0
    have e1' : (s1 : ℤ) + ((j 1).val : ℤ) = (q.val : ℤ) := e1
    have b0 : (j 0).val < a0 := (j 0).isLt
    have b1 : (j 1).val < a1 := (j 1).isLt
    exact h ⟨⟨by omega, by omega⟩, ⟨by omega, by omega⟩⟩

/-! ## The window's corner -/

/-- The start-index vector of one write: two one-element vectors, each a broadcast integer constant, end to end. -/
abbrev startVec (v0 v1 : BitVec 32) : IVec S2 32 :=
  concatenate S2 0 [⟨S1, broadcastInDim S1 ![] Gen.bcast_S_S1 (constantI S_ 32 v0)⟩,
    ⟨S1, broadcastInDim S1 ![] Gen.bcast_S_S1 (constantI S_ 32 v1)⟩] Gen.concatenates_S1_S1_S2_d0

/-- Its first component is the first constant. -/
theorem startVec_0 (v0 v1 : BitVec 32) : startVec v0 v1 (ix1 0) = v0 :=
  Cat2.cat2_vec_apply (w := 1) (W := 2) _ _ Gen.concatenates_S1_S1_S2_d0 0 0 0 rfl

/-- Its second component is the second constant. -/
theorem startVec_1 (v0 v1 : BitVec 32) : startVec v0 v1 (ix1 1) = v1 :=
  Cat2.cat2_vec_apply (w := 1) (W := 2) _ _ Gen.concatenates_S1_S1_S2_d0 1 0 1 rfl

/-- For the 126 × 224 matrix's writes the window coordinates are the update's own coordinates … -/
theorem d1_window0 (j : S9x16.Idx) : scatter_S126x224_S2_S9x16_01_n_01_0.window j 0 = (j 0).val := rfl
theorem d1_window1 (j : S9x16.Idx) : scatter_S126x224_S2_S9x16_01_n_01_0.window j 1 = (j 1).val := rfl

/-- … and the window starts, on each axis, at the start-index vector's component for that axis, read signed. -/
theorem d1_start0 (j : S9x16.Idx) (idx : IVec S2 32) : scatter_S126x224_S2_S9x16_01_n_01_0.start j idx 0 = (idx (ix1 0)).toInt := by
  show (idx _).toInt = _
  congr 2
  funext b
  match b with
  | ⟨0, _⟩ => rfl
theorem d1_start1 (j : S9x16.Idx) (idx : IVec S2 32) : scatter_S126x224_S2_S9x16_01_n_01_0.start j idx 1 = (idx (ix1 1)).toInt := by
  show (idx _).toInt = _
  congr 2
  funext b
  match b with
  | ⟨0, _⟩ => rfl

/-- One write of the 9 × 16 update into the 126 × 224 matrix with its corner at `(s0, s1)`. -/
theorem scat1_apply (x : S126x224.Idx → α) (upd : S9x16.Idx → α) (v0 v1 : BitVec 32) (s0 s1 : ℕ)
    (h0 : v0.toInt = (s0 : ℤ)) (h1 : v1.toInt = (s1 : ℤ)) (k : Fin 126) (q : Fin 224) :
    Host.scatter scatter_S126x224_S2_S9x16_01_n_01_0 (fun _ b => b) x (startVec v0 v1) upd (ix2 k q)
      = if h : (s0 ≤ k.val ∧ k.val < s0 + 9) ∧ (s1 ≤ q.val ∧ q.val < s1 + 16)
          then upd (ix2 ⟨k.val - s0, by omega⟩ ⟨q.val - s1, by omega⟩) else x (ix2 k q) :=
  scatter_set_window2 scatter_S126x224_S2_S9x16_01_n_01_0 x (startVec v0 v1) upd s0 s1
    (fun j => by rw [d1_start0, startVec_0, h0]) (fun j => by rw [d1_start1, startVec_1, h1])
    d1_window0 d1_window1 k q

/-- The induction step on the number of windows written: if before window `g` the matrix holds the update's entry
    `(k mod 9, q mod 16)` where `k / 9 = q / 16 < g` and `z` elsewhere, then after it the same holds with `g + 1`:
    window `g` is exactly the set of entries with `k / 9 = g = q / 16`, and inside it `k - 9g = k mod 9`,
    `q - 16g = q mod 16`. -/
theorem bd_step1 (z : α) (upd : S9x16.Idx → α) (g : ℕ) (k : Fin 126) (q : Fin 224) (cur prev : α)
    (hcur : cur = if h : (9 * g ≤ k.val ∧ k.val < 9 * g + 9) ∧ (16 * g ≤ q.val ∧ q.val < 16 * g + 16)
        then upd (ix2 ⟨k.val - 9 * g, by omega⟩ ⟨q.val - 16 * g, by omega⟩) else prev)
    (hprev : prev = if k.val / 9 = q.val / 16 ∧ k.val / 9 < g
        then upd (ix2 ⟨k.val % 9, Nat.mod_lt _ (by decide)⟩ ⟨q.val % 16, Nat.mod_lt _ (by decide)⟩) else z) :
    cur = if k.val / 9 = q.val / 16 ∧ k.val / 9 < g + 1
        then upd (ix2 ⟨k.val % 9, Nat.mod_lt _ (by decide)⟩ ⟨q.val % 16, Nat.mod_lt _ (by decide)⟩) else z := by
  rw [hcur, hprev]
  by_cases h : (9 * g ≤ k.val ∧ k.val < 9 * g + 9) ∧ (16 * g ≤ q.val ∧ q.val < 16 * g + 16)
  · rw [dif_pos h, if_pos ⟨by omega, by omega⟩]
    have e0 : (⟨k.val - 9 * g, by omega⟩ : Fin 9) = ⟨k.val % 9, Nat.mod_lt _ (by decide)⟩ :=
      Fin.ext (by show k.val - 9 * g = k.val % 9; omega)
    have e1 : (⟨q.val - 16 * g, by omega⟩ : Fin 16) = ⟨q.val % 16, Nat.mod_lt _ (by decide)⟩ :=
      Fin.ext (by show q.val - 16 * g = q.val % 16; omega)
    rw [e0, e1]
  · rw [dif_neg h]
    by_cases h2 : k.val / 9 = q.val / 16 ∧ k.val / 9 < g
    · rw [if_pos h2, if_pos ⟨h2.1, by omega⟩]
    · rw [if_neg h2, if_neg (by omega)]

/-- For the 224 × 56 matrix's writes the window coordinates are the update's own coordinates … -/
theorem d2_window0 (j : S16x4.Idx) : scatter_S224x56_S2_S16x4_01_n_01_0.window j 0 = (j 0).val := rfl
theorem d2_window1 (j : S16x4.Idx) : scatter_S224x56_S2_S16x4_01_n_01_0.window j 1 = (j 1).val := rfl

/-- … and the window starts, on each axis, at the start-index vector's component for that axis, read signed. -/
theorem d2_start0 (j : S16x4.Idx) (idx : IVec S2 32) : scatter_S224x56_S2_S16x4_01_n_01_0.start j idx 0 = (idx (ix1 0)).toInt := by
  show (idx _).toInt = _
  congr 2
  funext b
  match b with
  | ⟨0, _⟩ => rfl
theorem d2_start1 (j : S16x4.Idx) (idx : IVec S2 32) : scatter_S224x56_S2_S16x4_01_n_01_0.start j idx 1 = (idx (ix1 1)).toInt := by
  show (idx _).toInt = _
  congr 2
  funext b
  match b with
  | ⟨0, _⟩ => rfl

/-- One write of the 16 × 4 update into the 224 × 56 matrix with its corner at `(s0, s1)`. -/
theorem scat2_apply (x : S224x56.Idx → α) (upd : S16x4.Idx → α) (v0 v1 : BitVec 32) (s0 s1 : ℕ)
    (h0 : v0.toInt = (s0 : ℤ)) (h1 : v1.toInt = (s1 : ℤ)) (k : Fin 224) (q : Fin 56) :
    Host.scatter scatter_S224x56_S2_S16x4_01_n_01_0 (fun _ b => b) x (startVec v0 v1) upd (ix2 k q)
      = if h : (s0 ≤ k.val ∧ k.val < s0 + 16) ∧ (s1 ≤ q.val ∧ q.val < s1 + 4)
          then upd (ix2 ⟨k.val - s0, by omega⟩ ⟨q.val - s1, by omega⟩) else x (ix2 k q) :=
  scatter_set_window2 scatter_S224x56_S2_S16x4_01_n_01_0 x (startVec v0 v1) upd s0 s1
    (fun j => by rw [d2_start0, startVec_0, h0]) (fun j => by rw [d2_start1, startVec_1, h1])
    d2_window0 d2_window1 k q

/-- The induction step on the number of windows written: if before window `g` the matrix holds the update's entry
    `(k mod 16, q mod 4)` where `k / 16 = q / 4 < g` and `z` elsewhere, then after it the same holds with `g + 1`:
    window `g` is exactly the set of entries with `k / 16 = g = q / 4`, and inside it `k - 16g = k mod 16`,
    `q - 4g = q mod 4`. -/
theorem bd_step2 (z : α) (upd : S16x4.Idx → α) (g : ℕ) (k : Fin 224) (q : Fin 56) (cur prev : α)
    (hcur : cur = if h : (16 * g ≤ k.val ∧ k.val < 16 * g + 16) ∧ (4 * g ≤ q.val ∧ q.val < 4 * g + 4)
        then upd (ix2 ⟨k.val - 16 * g, by omega⟩ ⟨q.val - 4 * g, by omega⟩) else prev)
    (hprev : prev = if k.val / 16 = q.val / 4 ∧ k.val / 16 < g
        then upd (ix2 ⟨k.val % 16, Nat.mod_lt _ (by decide)⟩ ⟨q.val % 4, Nat.mod_lt _ (by decide)⟩) else z) :
    cur = if k.val / 16 = q.val / 4 ∧ k.val / 16 < g + 1
        then upd (ix2 ⟨k.val % 16, Nat.mod_lt _ (by decide)⟩ ⟨q.val % 4, Nat.mod_lt _ (by decide)⟩) else z := by
  rw [hcur, hprev]
  by_cases h : (16 * g ≤ k.val ∧ k.val < 16 * g + 16) ∧ (4 * g ≤ q.val ∧ q.val < 4 * g + 4)
  · rw [dif_pos h, if_pos ⟨by omega, by omega⟩]
    have e0 : (⟨k.val - 16 * g, by omega⟩ : Fin 16) = ⟨k.val % 16, Nat.mod_lt _ (by decide)⟩ :=
      Fin.ext (by show k.val - 16 * g = k.val % 16; omega)
    have e1 : (⟨q.val - 4 * g, by omega⟩ : Fin 4) = ⟨q.val % 4, Nat.mod_lt _ (by decide)⟩ :=
      Fin.ext (by show q.val - 4 * g = q.val % 4; omega)
    rw [e0, e1]
  · rw [dif_neg h]
    by_cases h2 : k.val / 16 = q.val / 4 ∧ k.val / 16 < g
    · rw [if_pos h2, if_pos ⟨h2.1, by omega⟩]
    · rw [if_neg h2, if_neg (by omega)]

end Window

/-! ## The host operations as a straight line -/

/-- The buffers the host operations write, in the operations' order. -/
abbrev written : List (Ref sig .tc) :=
  [main_cst, main_v0, main_c, main_v1, main_c_0, main_v2, main_v3, main_v4, main_c_1, main_v5, main_c_2, main_v6, main_v7, main_v8, main_c_3, main_v9, main_c_4, main_v10, main_v11, main_v12, main_c_5, main_v13, main_c_6, main_v14, main_v15, main_v16, main_c_7, main_v17, main_c_8, main_v18, main_v19, main_v20, main_c_9, main_v21, main_c_10, main_v22, main_v23, main_v24, main_c_11, main_v25, main_c_12, main_v26, main_v27, main_v28, main_c_13, main_v29, main_c_14, main_v30, main_v31, main_v32, main_c_15, main_v33, main_c_16, main_v34, main_v35, main_v36, main_c_17, main_v37, main_c_18, main_v38, main_v39, main_v40, main_c_19, main_v41, main_c_20, main_v42, main_v43, main_v44, main_c_21, main_v45, main_c_22, main_v46, main_v47, main_v48, main_c_23, main_v49, main_c_24, main_v50, main_v51, main_v52, main_c_25, main_v53, main_c_26, main_v54, main_v55, main_v56, main_cst_27, main_v57, main_c_28, main_v58, main_c_29, main_v59, main_v60, main_v61, main_c_30, main_v62, main_c_31, main_v63, main_v64, main_v65, main_c_32, main_v66, main_c_33, main_v67, main_v68, main_v69, main_c_34, main_v70, main_c_35, main_v71, main_v72, main_v73, main_c_36, main_v74, main_c_37, main_v75, main_v76, main_v77, main_c_38, main_v78, main_c_39, main_v79, main_v80, main_v81, main_c_40, main_v82, main_c_41, main_v83, main_v84, main_v85, main_c_42, main_v86, main_c_43, main_v87, main_v88, main_v89, main_c_44, main_v90, main_c_45, main_v91, main_v92, main_v93, main_c_46, main_v94, main_c_47, main_v95, main_v96, main_v97, main_c_48, main_v98, main_c_49, main_v99, main_v100, main_v101, main_c_50, main_v102, main_c_51, main_v103, main_v104, main_v105, main_c_52, main_v106, main_c_53, main_v107, main_v108, main_v109, main_c_54, main_v110, main_c_55, main_v111, main_v112, main_v113, main_v114, main_v115, main_v116, main_v117, main_v118, main_v119, main_v120, main_v121, main_v122, main_v123, main_v124, main_v125, main_v126, main_v127, main_v128, main_v129, main_v130]

set_option maxHeartbeats 4000000 in
/-- Operation by operation, the host operations write exactly these buffers. -/
theorem hW : WritesAre (Gen.hostOps0 : List (HloOp τ sig (Elt Ideal))) written := by
  unfold WritesAre written Gen.hostOps0
  repeat' constructor

section Ternary

variable {τ : Topo} {sig : RefSig} {Val : EltTy → Type}
variable {ops : List (HloOp τ sig Val)} {outs : List (Ref sig .tc)} (h : WritesAre ops outs) (k : Nat)
include h

/-- The stage of a three-operand operation: its buffer holds, after the whole line, the operation's function of
    what its three operands hold after the whole line. -/
theorem stage_ternary (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

end Ternary

variable (m : (ℓ : Loc nD τ sig) → Buf (Elt Ideal) ℓ) (c : Dev nD)

/-! ## The two zero matrices -/

/-- The 126 × 224 matrix before the first window: the broadcast of the constant whose word is that of 0. -/
theorem w1_zero (k : Fin 126) (q : Fin 224) : (Gen.V m c main_v0 : S126x224.Idx → EReal) (ix2 k q) = (0 : EReal) := by
  dsimp only [Gen.V]
  rw [stage_unary hW 1 _ _ _ rfl (by decide) (by decide), stage_nullary hW 0 _ _ rfl (by decide)]
  exact Ideal.ofBits_zero_f32

/-- The 224 × 56 matrix before the first window, likewise. -/
theorem w2_zero (k : Fin 224) (q : Fin 56) : (Gen.V m c main_v57 : S224x56.Idx → EReal) (ix2 k q) = (0 : EReal) := by
  dsimp only [Gen.V]
  rw [stage_unary hW 87 _ _ _ rfl (by decide) (by decide), stage_nullary hW 86 _ _ rfl (by decide)]
  exact Ideal.ofBits_zero_f32

/-! ## The 28 writes, each as a statement about the matrix before and after it -/

/-- Window 0 of the 126 × 224 matrix: corner (0, 0). -/
theorem w1_step0 (k : Fin 126) (q : Fin 224) :
    (Gen.V m c main_v4 : S126x224.Idx → EReal) (ix2 k q)
      = if h : (9 * 0 ≤ k.val ∧ k.val < 9 * 0 + 9) ∧ (16 * 0 ≤ q.val ∧ q.val < 16 * 0 + 16)
          then (m ((c : Thread nD τ).loc main_arg2) : S9x16.Idx → EReal) (ix2 ⟨k.val - 9 * 0, by omega⟩ ⟨q.val - 16 * 0, by omega⟩)
          else (Gen.V m c main_v0 : S126x224.Idx → EReal) (ix2 k q) := by
  dsimp only [Gen.V]
  rw [stage_ternary hW 7 _ _ _ _ _ rfl (by decide) (by decide) (by decide) (by decide),
    stage_binary hW 6 _ _ _ _ rfl (by decide) (by decide) (by decide),
    stage_unary hW 5 _ _ _ rfl (by decide) (by decide), stage_nullary hW 4 _ _ rfl (by decide),
    stage_unary hW 3 _ _ _ rfl (by decide) (by decide), stage_nullary hW 2 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 0) (16 * 0) (by decide) (by decide) k q

/-- Window 1 of the 126 × 224 matrix: corner (9, 16). -/
theorem w1_step1 (k : Fin 126) (q : Fin 224) :
    (Gen.V m c main_v8 : S126x224.Idx → EReal) (ix2 k q)
      = if h : (9 * 1 ≤ k.val ∧ k.val < 9 * 1 + 9) ∧ (16 * 1 ≤ q.val ∧ q.val < 16 * 1 + 16)
          then (m ((c : Thread nD τ).loc main_arg2) : S9x16.Idx → EReal) (ix2 ⟨k.val - 9 * 1, by omega⟩ ⟨q.val - 16 * 1, by omega⟩)
          else (Gen.V m c main_v4 : S126x224.Idx → EReal) (ix2 k q) := by
  dsimp only [Gen.V]
  rw [stage_ternary hW 13 _ _ _ _ _ rfl (by decide) (by decide) (by decide) (by decide),
    stage_binary hW 12 _ _ _ _ rfl (by decide) (by decide) (by decide),
    stage_unary hW 11 _ _ _ rfl (by decide) (by decide), stage_nullary hW 10 _ _ rfl (by decide),
    stage_unary hW 9 _ _ _ rfl (by decide) (by decide), stage_nullary hW 8 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 1) (16 * 1) (by decide) (by decide) k q

/-- Window 2 of the 126 × 224 matrix: corner (18, 32). -/
theorem w1_step2 (k : Fin 126) (q : Fin 224) :
    (Gen.V m c main_v12 : S126x224.Idx → EReal) (ix2 k q)
      = if h : (9 * 2 ≤ k.val ∧ k.val < 9 * 2 + 9) ∧ (16 * 2 ≤ q.val ∧ q.val < 16 * 2 + 16)
          then (m ((c : Thread nD τ).loc main_arg2) : S9x16.Idx → EReal) (ix2 ⟨k.val - 9 * 2, by omega⟩ ⟨q.val - 16 * 2, by omega⟩)
          else (Gen.V m c main_v8 : S126x224.Idx → EReal) (ix2 k q) := by
  dsimp only [Gen.V]
  rw [stage_ternary hW 19 _ _ _ _ _ rfl (by decide) (by decide) (by decide) (by decide),
    stage_binary hW 18 _ _ _ _ rfl (by decide) (by decide) (by decide),
    stage_unary hW 17 _ _ _ rfl (by decide) (by decide), stage_nullary hW 16 _ _ rfl (by decide),
    stage_unary hW 15 _ _ _ rfl (by decide) (by decide), stage_nullary hW 14 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 2) (16 * 2) (by decide) (by decide) k q

/-- Window 3 of the 126 × 224 matrix: corner (27, 48). -/
theorem w1_step3 (k : Fin 126) (q : Fin 224) :
    (Gen.V m c main_v16 : S126x224.Idx → EReal) (ix2 k q)
      = if h : (9 * 3 ≤ k.val ∧ k.val < 9 * 3 + 9) ∧ (16 * 3 ≤ q.val ∧ q.val < 16 * 3 + 16)
          then (m ((c : Thread nD τ).loc main_arg2) : S9x16.Idx → EReal) (ix2 ⟨k.val - 9 * 3, by omega⟩ ⟨q.val - 16 * 3, by omega⟩)
          else (Gen.V m c main_v12 : S126x224.Idx → EReal) (ix2 k q) := by
  dsimp only [Gen.V]
  rw [stage_ternary hW 25 _ _ _ _ _ rfl (by decide) (by decide) (by decide) (by decide),
    stage_binary hW 24 _ _ _ _ rfl (by decide) (by decide) (by decide),
    stage_unary hW 23 _ _ _ rfl (by decide) (by decide), stage_nullary hW 22 _ _ rfl (by decide),
    stage_unary hW 21 _ _ _ rfl (by decide) (by decide), stage_nullary hW 20 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 3) (16 * 3) (by decide) (by decide) k q

/-- Window 4 of the 126 × 224 matrix: corner (36, 64). -/
theorem w1_step4 (k : Fin 126) (q : Fin 224) :
    (Gen.V m c main_v20 : S126x224.Idx → EReal) (ix2 k q)
      = if h : (9 * 4 ≤ k.val ∧ k.val < 9 * 4 + 9) ∧ (16 * 4 ≤ q.val ∧ q.val < 16 * 4 + 16)
          then (m ((c : Thread nD τ).loc main_arg2) : S9x16.Idx → EReal) (ix2 ⟨k.val - 9 * 4, by omega⟩ ⟨q.val - 16 * 4, by omega⟩)
          else (Gen.V m c main_v16 : S126x224.Idx → EReal) (ix2 k q) := by
  dsimp only [Gen.V]
  rw [stage_ternary hW 31 _ _ _ _ _ rfl (by decide) (by decide) (by decide) (by decide),
    stage_binary hW 30 _ _ _ _ rfl (by decide) (by decide) (by decide),
    stage_unary hW 29 _ _ _ rfl (by decide) (by decide), stage_nullary hW 28 _ _ rfl (by decide),
    stage_unary hW 27 _ _ _ rfl (by decide) (by decide), stage_nullary hW 26 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 4) (16 * 4) (by decide) (by decide) k q

/-- Window 5 of the 126 × 224 matrix: corner (45, 80). -/
theorem w1_step5 (k : Fin 126) (q : Fin 224) :
    (Gen.V m c main_v24 : S126x224.Idx → EReal) (ix2 k q)
      = if h : (9 * 5 ≤ k.val ∧ k.val < 9 * 5 + 9) ∧ (16 * 5 ≤ q.val ∧ q.val < 16 * 5 + 16)
          then (m ((c : Thread nD τ).loc main_arg2) : S9x16.Idx → EReal) (ix2 ⟨k.val - 9 * 5, by omega⟩ ⟨q.val - 16 * 5, by omega⟩)
          else (Gen.V m c main_v20 : S126x224.Idx → EReal) (ix2 k q) := by
  dsimp only [Gen.V]
  rw [stage_ternary hW 37 _ _ _ _ _ rfl (by decide) (by decide) (by decide) (by decide),
    stage_binary hW 36 _ _ _ _ rfl (by decide) (by decide) (by decide),
    stage_unary hW 35 _ _ _ rfl (by decide) (by decide), stage_nullary hW 34 _ _ rfl (by decide),
    stage_unary hW 33 _ _ _ rfl (by decide) (by decide), stage_nullary hW 32 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 5) (16 * 5) (by decide) (by decide) k q

/-- Window 6 of the 126 × 224 matrix: corner (54, 96). -/
theorem w1_step6 (k : Fin 126) (q : Fin 224) :
    (Gen.V m c main_v28 : S126x224.Idx → EReal) (ix2 k q)
      = if h : (9 * 6 ≤ k.val ∧ k.val < 9 * 6 + 9) ∧ (16 * 6 ≤ q.val ∧ q.val < 16 * 6 + 16)
          then (m ((c : Thread nD τ).loc main_arg2) : S9x16.Idx → EReal) (ix2 ⟨k.val - 9 * 6, by omega⟩ ⟨q.val - 16 * 6, by omega⟩)
          else (Gen.V m c main_v24 : S126x224.Idx → EReal) (ix2 k q) := by
  dsimp only [Gen.V]
  rw [stage_ternary hW 43 _ _ _ _ _ rfl (by decide) (by decide) (by decide) (by decide),
    stage_binary hW 42 _ _ _ _ rfl (by decide) (by decide) (by decide),
    stage_unary hW 41 _ _ _ rfl (by decide) (by decide), stage_nullary hW 40 _ _ rfl (by decide),
    stage_unary hW 39 _ _ _ rfl (by decide) (by decide), stage_nullary hW 38 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 6) (16 * 6) (by decide) (by decide) k q

/-- Window 7 of the 126 × 224 matrix: corner (63, 112). -/
theorem w1_step7 (k : Fin 126) (q : Fin 224) :
    (Gen.V m c main_v32 : S126x224.Idx → EReal) (ix2 k q)
      = if h : (9 * 7 ≤ k.val ∧ k.val < 9 * 7 + 9) ∧ (16 * 7 ≤ q.val ∧ q.val < 16 * 7 + 16)
          then (m ((c : Thread nD τ).loc main_arg2) : S9x16.Idx → EReal) (ix2 ⟨k.val - 9 * 7, by omega⟩ ⟨q.val - 16 * 7, by omega⟩)
          else (Gen.V m c main_v28 : S126x224.Idx → EReal) (ix2 k q) := by
  dsimp only [Gen.V]
  rw [stage_ternary hW 49 _ _ _ _ _ rfl (by decide) (by decide) (by decide) (by decide),
    stage_binary hW 48 _ _ _ _ rfl (by decide) (by decide) (by decide),
    stage_unary hW 47 _ _ _ rfl (by decide) (by decide), stage_nullary hW 46 _ _ rfl (by decide),
    stage_unary hW 45 _ _ _ rfl (by decide) (by decide), stage_nullary hW 44 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 7) (16 * 7) (by decide) (by decide) k q

/-- Window 8 of the 126 × 224 matrix: corner (72, 128). -/
theorem w1_step8 (k : Fin 126) (q : Fin 224) :
    (Gen.V m c main_v36 : S126x224.Idx → EReal) (ix2 k q)
      = if h : (9 * 8 ≤ k.val ∧ k.val < 9 * 8 + 9) ∧ (16 * 8 ≤ q.val ∧ q.val < 16 * 8 + 16)
          then (m ((c : Thread nD τ).loc main_arg2) : S9x16.Idx → EReal) (ix2 ⟨k.val - 9 * 8, by omega⟩ ⟨q.val - 16 * 8, by omega⟩)
          else (Gen.V m c main_v32 : S126x224.Idx → EReal) (ix2 k q) := by
  dsimp only [Gen.V]
  rw [stage_ternary hW 55 _ _ _ _ _ rfl (by decide) (by decide) (by decide) (by decide),
    stage_binary hW 54 _ _ _ _ rfl (by decide) (by decide) (by decide),
    stage_unary hW 53 _ _ _ rfl (by decide) (by decide), stage_nullary hW 52 _ _ rfl (by decide),
    stage_unary hW 51 _ _ _ rfl (by decide) (by decide), stage_nullary hW 50 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 8) (16 * 8) (by decide) (by decide) k q

/-- Window 9 of the 126 × 224 matrix: corner (81, 144). -/
theorem w1_step9 (k : Fin 126) (q : Fin 224) :
    (Gen.V m c main_v40 : S126x224.Idx → EReal) (ix2 k q)
      = if h : (9 * 9 ≤ k.val ∧ k.val < 9 * 9 + 9) ∧ (16 * 9 ≤ q.val ∧ q.val < 16 * 9 + 16)
          then (m ((c : Thread nD τ).loc main_arg2) : S9x16.Idx → EReal) (ix2 ⟨k.val - 9 * 9, by omega⟩ ⟨q.val - 16 * 9, by omega⟩)
          else (Gen.V m c main_v36 : S126x224.Idx → EReal) (ix2 k q) := by
  dsimp only [Gen.V]
  rw [stage_ternary hW 61 _ _ _ _ _ rfl (by decide) (by decide) (by decide) (by decide),
    stage_binary hW 60 _ _ _ _ rfl (by decide) (by decide) (by decide),
    stage_unary hW 59 _ _ _ rfl (by decide) (by decide), stage_nullary hW 58 _ _ rfl (by decide),
    stage_unary hW 57 _ _ _ rfl (by decide) (by decide), stage_nullary hW 56 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 9) (16 * 9) (by decide) (by decide) k q

/-- Window 10 of the 126 × 224 matrix: corner (90, 160). -/
theorem w1_step10 (k : Fin 126) (q : Fin 224) :
    (Gen.V m c main_v44 : S126x224.Idx → EReal) (ix2 k q)
      = if h : (9 * 10 ≤ k.val ∧ k.val < 9 * 10 + 9) ∧ (16 * 10 ≤ q.val ∧ q.val < 16 * 10 + 16)
          then (m ((c : Thread nD τ).loc main_arg2) : S9x16.Idx → EReal) (ix2 ⟨k.val - 9 * 10, by omega⟩ ⟨q.val - 16 * 10, by omega⟩)
          else (Gen.V m c main_v40 : S126x224.Idx → EReal) (ix2 k q) := by
  dsimp only [Gen.V]
  rw [stage_ternary hW 67 _ _ _ _ _ rfl (by decide) (by decide) (by decide) (by decide),
    stage_binary hW 66 _ _ _ _ rfl (by decide) (by decide) (by decide),
    stage_unary hW 65 _ _ _ rfl (by decide) (by decide), stage_nullary hW 64 _ _ rfl (by decide),
    stage_unary hW 63 _ _ _ rfl (by decide) (by decide), stage_nullary hW 62 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 10) (16 * 10) (by decide) (by decide) k q

/-- Window 11 of the 126 × 224 matrix: corner (99, 176). -/
theorem w1_step11 (k : Fin 126) (q : Fin 224) :
    (Gen.V m c main_v48 : S126x224.Idx → EReal) (ix2 k q)
      = if h : (9 * 11 ≤ k.val ∧ k.val < 9 * 11 + 9) ∧ (16 * 11 ≤ q.val ∧ q.val < 16 * 11 + 16)
          then (m ((c : Thread nD τ).loc main_arg2) : S9x16.Idx → EReal) (ix2 ⟨k.val - 9 * 11, by omega⟩ ⟨q.val - 16 * 11, by omega⟩)
          else (Gen.V m c main_v44 : S126x224.Idx → EReal) (ix2 k q) := by
  dsimp only [Gen.V]
  rw [stage_ternary hW 73 _ _ _ _ _ rfl (by decide) (by decide) (by decide) (by decide),
    stage_binary hW 72 _ _ _ _ rfl (by decide) (by decide) (by decide),
    stage_unary hW 71 _ _ _ rfl (by decide) (by decide), stage_nullary hW 70 _ _ rfl (by decide),
    stage_unary hW 69 _ _ _ rfl (by decide) (by decide), stage_nullary hW 68 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 11) (16 * 11) (by decide) (by decide) k q

/-- Window 12 of the 126 × 224 matrix: corner (108, 192). -/
theorem w1_step12 (k : Fin 126) (q : Fin 224) :
    (Gen.V m c main_v52 : S126x224.Idx → EReal) (ix2 k q)
      = if h : (9 * 12 ≤ k.val ∧ k.val < 9 * 12 + 9) ∧ (16 * 12 ≤ q.val ∧ q.val < 16 * 12 + 16)
          then (m ((c : Thread nD τ).loc main_arg2) : S9x16.Idx → EReal) (ix2 ⟨k.val - 9 * 12, by omega⟩ ⟨q.val - 16 * 12, by omega⟩)
          else (Gen.V m c main_v48 : S126x224.Idx → EReal) (ix2 k q) := by
  dsimp only [Gen.V]
  rw [stage_ternary hW 79 _ _ _ _ _ rfl (by decide) (by decide) (by decide) (by decide),
    stage_binary hW 78 _ _ _ _ rfl (by decide) (by decide) (by decide),
    stage_unary hW 77 _ _ _ rfl (by decide) (by decide), stage_nullary hW 76 _ _ rfl (by decide),
    stage_unary hW 75 _ _ _ rfl (by decide) (by decide), stage_nullary hW 74 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 12) (16 * 12) (by decide) (by decide) k q

/-- Window 13 of the 126 × 224 matrix: corner (117, 208). -/
theorem w1_step13 (k : Fin 126) (q : Fin 224) :
    (Gen.V m c main_v56 : S126x224.Idx → EReal) (ix2 k q)
      = if h : (9 * 13 ≤ k.val ∧ k.val < 9 * 13 + 9) ∧ (16 * 13 ≤ q.val ∧ q.val < 16 * 13 + 16)
          then (m ((c : Thread nD τ).loc main_arg2) : S9x16.Idx → EReal) (ix2 ⟨k.val - 9 * 13, by omega⟩ ⟨q.val - 16 * 13, by omega⟩)
          else (Gen.V m c main_v52 : S126x224.Idx → EReal) (ix2 k q) := by
  dsimp only [Gen.V]
  rw [stage_ternary hW 85 _ _ _ _ _ rfl (by decide) (by decide) (by decide) (by decide),
    stage_binary hW 84 _ _ _ _ rfl (by decide) (by decide) (by decide),
    stage_unary hW 83 _ _ _ rfl (by decide) (by decide), stage_nullary hW 82 _ _ rfl (by decide),
    stage_unary hW 81 _ _ _ rfl (by decide) (by decide), stage_nullary hW 80 _ _ rfl (by decide)]
  rw [show StableHlo.after Gen.hostOps0 (fun b => m (c, b)) (Proc.devRef .tc main_arg2) = m ((c : Thread nD τ).loc main_arg2)
    from Gen.V_main_arg2 m c]
  exact scat1_apply _ _ _ _ (9 * 13) (16 * 13) (by decide) (by decide) k q

/-- Window 0 of the 224 × 56 matrix: corner (0, 0). -/
theorem w2_step0 (k : Fin 224) (q : Fin 56) :
    (Gen.V m c main_v61 : S224x56.Idx → EReal) (ix2 k q)
      = if h : (16 * 0 ≤ k.val ∧ k.val < 16 * 0 + 16) ∧ (4 * 0 ≤ q.val ∧ q.val < 4 * 0 + 4)
          then (m ((c : Thread nD τ).loc main_arg4) : S16x4.Idx → EReal) (ix2 ⟨k.val - 16 * 0, by omega⟩ ⟨q.val - 4 * 0, by omega⟩)
          else (Gen.V m c main_v57 : S224x56.Idx → EReal) (ix2 k q) := by
  dsimp only [Gen.V]
  rw [stage_ternary hW 93 _ _ _ _ _ rfl (by decide) (by decide) (by decide) (by decide),
    stage_binary hW 92 _ _ _ _ rfl (by decide) (by decide) (by decide),
    stage_unary hW 91 _ _ _ rfl (by decide) (by decide), stage_nullary hW 90 _ _ rfl (by decide),
    stage_unary hW 89 _ _ _ rfl (by decide) (by decide), stage_nullary hW 88 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 0) (4 * 0) (by decide) (by decide) k q

/-- Window 1 of the 224 × 56 matrix: corner (16, 4). -/
theorem w2_step1 (k : Fin 224) (q : Fin 56) :
    (Gen.V m c main_v65 : S224x56.Idx → EReal) (ix2 k q)
      = if h : (16 * 1 ≤ k.val ∧ k.val < 16 * 1 + 16) ∧ (4 * 1 ≤ q.val ∧ q.val < 4 * 1 + 4)
          then (m ((c : Thread nD τ).loc main_arg4) : S16x4.Idx → EReal) (ix2 ⟨k.val - 16 * 1, by omega⟩ ⟨q.val - 4 * 1, by omega⟩)
          else (Gen.V m c main_v61 : S224x56.Idx → EReal) (ix2 k q) := by
  dsimp only [Gen.V]
  rw [stage_ternary hW 99 _ _ _ _ _ rfl (by decide) (by decide) (by decide) (by decide),
    stage_binary hW 98 _ _ _ _ rfl (by decide) (by decide) (by decide),
    stage_unary hW 97 _ _ _ rfl (by decide) (by decide), stage_nullary hW 96 _ _ rfl (by decide),
    stage_unary hW 95 _ _ _ rfl (by decide) (by decide), stage_nullary hW 94 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 1) (4 * 1) (by decide) (by decide) k q

/-- Window 2 of the 224 × 56 matrix: corner (32, 8). -/
theorem w2_step2 (k : Fin 224) (q : Fin 56) :
    (Gen.V m c main_v69 : S224x56.Idx → EReal) (ix2 k q)
      = if h : (16 * 2 ≤ k.val ∧ k.val < 16 * 2 + 16) ∧ (4 * 2 ≤ q.val ∧ q.val < 4 * 2 + 4)
          then (m ((c : Thread nD τ).loc main_arg4) : S16x4.Idx → EReal) (ix2 ⟨k.val - 16 * 2, by omega⟩ ⟨q.val - 4 * 2, by omega⟩)
          else (Gen.V m c main_v65 : S224x56.Idx → EReal) (ix2 k q) := by
  dsimp only [Gen.V]
  rw [stage_ternary hW 105 _ _ _ _ _ rfl (by decide) (by decide) (by decide) (by decide),
    stage_binary hW 104 _ _ _ _ rfl (by decide) (by decide) (by decide),
    stage_unary hW 103 _ _ _ rfl (by decide) (by decide), stage_nullary hW 102 _ _ rfl (by decide),
    stage_unary hW 101 _ _ _ rfl (by decide) (by decide), stage_nullary hW 100 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 2) (4 * 2) (by decide) (by decide) k q

/-- Window 3 of the 224 × 56 matrix: corner (48, 12). -/
theorem w2_step3 (k : Fin 224) (q : Fin 56) :
    (Gen.V m c main_v73 : S224x56.Idx → EReal) (ix2 k q)
      = if h : (16 * 3 ≤ k.val ∧ k.val < 16 * 3 + 16) ∧ (4 * 3 ≤ q.val ∧ q.val < 4 * 3 + 4)
          then (m ((c : Thread nD τ).loc main_arg4) : S16x4.Idx → EReal) (ix2 ⟨k.val - 16 * 3, by omega⟩ ⟨q.val - 4 * 3, by omega⟩)
          else (Gen.V m c main_v69 : S224x56.Idx → EReal) (ix2 k q) := by
  dsimp only [Gen.V]
  rw [stage_ternary hW 111 _ _ _ _ _ rfl (by decide) (by decide) (by decide) (by decide),
    stage_binary hW 110 _ _ _ _ rfl (by decide) (by decide) (by decide),
    stage_unary hW 109 _ _ _ rfl (by decide) (by decide), stage_nullary hW 108 _ _ rfl (by decide),
    stage_unary hW 107 _ _ _ rfl (by decide) (by decide), stage_nullary hW 106 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 3) (4 * 3) (by decide) (by decide) k q

/-- Window 4 of the 224 × 56 matrix: corner (64, 16). -/
theorem w2_step4 (k : Fin 224) (q : Fin 56) :
    (Gen.V m c main_v77 : S224x56.Idx → EReal) (ix2 k q)
      = if h : (16 * 4 ≤ k.val ∧ k.val < 16 * 4 + 16) ∧ (4 * 4 ≤ q.val ∧ q.val < 4 * 4 + 4)
          then (m ((c : Thread nD τ).loc main_arg4) : S16x4.Idx → EReal) (ix2 ⟨k.val - 16 * 4, by omega⟩ ⟨q.val - 4 * 4, by omega⟩)
          else (Gen.V m c main_v73 : S224x56.Idx → EReal) (ix2 k q) := by
  dsimp only [Gen.V]
  rw [stage_ternary hW 117 _ _ _ _ _ rfl (by decide) (by decide) (by decide) (by decide),
    stage_binary hW 116 _ _ _ _ rfl (by decide) (by decide) (by decide),
    stage_unary hW 115 _ _ _ rfl (by decide) (by decide), stage_nullary hW 114 _ _ rfl (by decide),
    stage_unary hW 113 _ _ _ rfl (by decide) (by decide), stage_nullary hW 112 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 4) (4 * 4) (by decide) (by decide) k q

/-- Window 5 of the 224 × 56 matrix: corner (80, 20). -/
theorem w2_step5 (k : Fin 224) (q : Fin 56) :
    (Gen.V m c main_v81 : S224x56.Idx → EReal) (ix2 k q)
      = if h : (16 * 5 ≤ k.val ∧ k.val < 16 * 5 + 16) ∧ (4 * 5 ≤ q.val ∧ q.val < 4 * 5 + 4)
          then (m ((c : Thread nD τ).loc main_arg4) : S16x4.Idx → EReal) (ix2 ⟨k.val - 16 * 5, by omega⟩ ⟨q.val - 4 * 5, by omega⟩)
          else (Gen.V m c main_v77 : S224x56.Idx → EReal) (ix2 k q) := by
  dsimp only [Gen.V]
  rw [stage_ternary hW 123 _ _ _ _ _ rfl (by decide) (by decide) (by decide) (by decide),
    stage_binary hW 122 _ _ _ _ rfl (by decide) (by decide) (by decide),
    stage_unary hW 121 _ _ _ rfl (by decide) (by decide), stage_nullary hW 120 _ _ rfl (by decide),
    stage_unary hW 119 _ _ _ rfl (by decide) (by decide), stage_nullary hW 118 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 5) (4 * 5) (by decide) (by decide) k q

/-- Window 6 of the 224 × 56 matrix: corner (96, 24). -/
theorem w2_step6 (k : Fin 224) (q : Fin 56) :
    (Gen.V m c main_v85 : S224x56.Idx → EReal) (ix2 k q)
      = if h : (16 * 6 ≤ k.val ∧ k.val < 16 * 6 + 16) ∧ (4 * 6 ≤ q.val ∧ q.val < 4 * 6 + 4)
          then (m ((c : Thread nD τ).loc main_arg4) : S16x4.Idx → EReal) (ix2 ⟨k.val - 16 * 6, by omega⟩ ⟨q.val - 4 * 6, by omega⟩)
          else (Gen.V m c main_v81 : S224x56.Idx → EReal) (ix2 k q) := by
  dsimp only [Gen.V]
  rw [stage_ternary hW 129 _ _ _ _ _ rfl (by decide) (by decide) (by decide) (by decide),
    stage_binary hW 128 _ _ _ _ rfl (by decide) (by decide) (by decide),
    stage_unary hW 127 _ _ _ rfl (by decide) (by decide), stage_nullary hW 126 _ _ rfl (by decide),
    stage_unary hW 125 _ _ _ rfl (by decide) (by decide), stage_nullary hW 124 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 6) (4 * 6) (by decide) (by decide) k q

/-- Window 7 of the 224 × 56 matrix: corner (112, 28). -/
theorem w2_step7 (k : Fin 224) (q : Fin 56) :
    (Gen.V m c main_v89 : S224x56.Idx → EReal) (ix2 k q)
      = if h : (16 * 7 ≤ k.val ∧ k.val < 16 * 7 + 16) ∧ (4 * 7 ≤ q.val ∧ q.val < 4 * 7 + 4)
          then (m ((c : Thread nD τ).loc main_arg4) : S16x4.Idx → EReal) (ix2 ⟨k.val - 16 * 7, by omega⟩ ⟨q.val - 4 * 7, by omega⟩)
          else (Gen.V m c main_v85 : S224x56.Idx → EReal) (ix2 k q) := by
  dsimp only [Gen.V]
  rw [stage_ternary hW 135 _ _ _ _ _ rfl (by decide) (by decide) (by decide) (by decide),
    stage_binary hW 134 _ _ _ _ rfl (by decide) (by decide) (by decide),
    stage_unary hW 133 _ _ _ rfl (by decide) (by decide), stage_nullary hW 132 _ _ rfl (by decide),
    stage_unary hW 131 _ _ _ rfl (by decide) (by decide), stage_nullary hW 130 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 7) (4 * 7) (by decide) (by decide) k q

/-- Window 8 of the 224 × 56 matrix: corner (128, 32). -/
theorem w2_step8 (k : Fin 224) (q : Fin 56) :
    (Gen.V m c main_v93 : S224x56.Idx → EReal) (ix2 k q)
      = if h : (16 * 8 ≤ k.val ∧ k.val < 16 * 8 + 16) ∧ (4 * 8 ≤ q.val ∧ q.val < 4 * 8 + 4)
          then (m ((c : Thread nD τ).loc main_arg4) : S16x4.Idx → EReal) (ix2 ⟨k.val - 16 * 8, by omega⟩ ⟨q.val - 4 * 8, by omega⟩)
          else (Gen.V m c main_v89 : S224x56.Idx → EReal) (ix2 k q) := by
  dsimp only [Gen.V]
  rw [stage_ternary hW 141 _ _ _ _ _ rfl (by decide) (by decide) (by decide) (by decide),
    stage_binary hW 140 _ _ _ _ rfl (by decide) (by decide) (by decide),
    stage_unary hW 139 _ _ _ rfl (by decide) (by decide), stage_nullary hW 138 _ _ rfl (by decide),
    stage_unary hW 137 _ _ _ rfl (by decide) (by decide), stage_nullary hW 136 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 8) (4 * 8) (by decide) (by decide) k q

/-- Window 9 of the 224 × 56 matrix: corner (144, 36). -/
theorem w2_step9 (k : Fin 224) (q : Fin 56) :
    (Gen.V m c main_v97 : S224x56.Idx → EReal) (ix2 k q)
      = if h : (16 * 9 ≤ k.val ∧ k.val < 16 * 9 + 16) ∧ (4 * 9 ≤ q.val ∧ q.val < 4 * 9 + 4)
          then (m ((c : Thread nD τ).loc main_arg4) : S16x4.Idx → EReal) (ix2 ⟨k.val - 16 * 9, by omega⟩ ⟨q.val - 4 * 9, by omega⟩)
          else (Gen.V m c main_v93 : S224x56.Idx → EReal) (ix2 k q) := by
  dsimp only [Gen.V]
  rw [stage_ternary hW 147 _ _ _ _ _ rfl (by decide) (by decide) (by decide) (by decide),
    stage_binary hW 146 _ _ _ _ rfl (by decide) (by decide) (by decide),
    stage_unary hW 145 _ _ _ rfl (by decide) (by decide), stage_nullary hW 144 _ _ rfl (by decide),
    stage_unary hW 143 _ _ _ rfl (by decide) (by decide), stage_nullary hW 142 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 9) (4 * 9) (by decide) (by decide) k q

/-- Window 10 of the 224 × 56 matrix: corner (160, 40). -/
theorem w2_step10 (k : Fin 224) (q : Fin 56) :
    (Gen.V m c main_v101 : S224x56.Idx → EReal) (ix2 k q)
      = if h : (16 * 10 ≤ k.val ∧ k.val < 16 * 10 + 16) ∧ (4 * 10 ≤ q.val ∧ q.val < 4 * 10 + 4)
          then (m ((c : Thread nD τ).loc main_arg4) : S16x4.Idx → EReal) (ix2 ⟨k.val - 16 * 10, by omega⟩ ⟨q.val - 4 * 10, by omega⟩)
          else (Gen.V m c main_v97 : S224x56.Idx → EReal) (ix2 k q) := by
  dsimp only [Gen.V]
  rw [stage_ternary hW 153 _ _ _ _ _ rfl (by decide) (by decide) (by decide) (by decide),
    stage_binary hW 152 _ _ _ _ rfl (by decide) (by decide) (by decide),
    stage_unary hW 151 _ _ _ rfl (by decide) (by decide), stage_nullary hW 150 _ _ rfl (by decide),
    stage_unary hW 149 _ _ _ rfl (by decide) (by decide), stage_nullary hW 148 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 10) (4 * 10) (by decide) (by decide) k q

/-- Window 11 of the 224 × 56 matrix: corner (176, 44). -/
theorem w2_step11 (k : Fin 224) (q : Fin 56) :
    (Gen.V m c main_v105 : S224x56.Idx → EReal) (ix2 k q)
      = if h : (16 * 11 ≤ k.val ∧ k.val < 16 * 11 + 16) ∧ (4 * 11 ≤ q.val ∧ q.val < 4 * 11 + 4)
          then (m ((c : Thread nD τ).loc main_arg4) : S16x4.Idx → EReal) (ix2 ⟨k.val - 16 * 11, by omega⟩ ⟨q.val - 4 * 11, by omega⟩)
          else (Gen.V m c main_v101 : S224x56.Idx → EReal) (ix2 k q) := by
  dsimp only [Gen.V]
  rw [stage_ternary hW 159 _ _ _ _ _ rfl (by decide) (by decide) (by decide) (by decide),
    stage_binary hW 158 _ _ _ _ rfl (by decide) (by decide) (by decide),
    stage_unary hW 157 _ _ _ rfl (by decide) (by decide), stage_nullary hW 156 _ _ rfl (by decide),
    stage_unary hW 155 _ _ _ rfl (by decide) (by decide), stage_nullary hW 154 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 11) (4 * 11) (by decide) (by decide) k q

/-- Window 12 of the 224 × 56 matrix: corner (192, 48). -/
theorem w2_step12 (k : Fin 224) (q : Fin 56) :
    (Gen.V m c main_v109 : S224x56.Idx → EReal) (ix2 k q)
      = if h : (16 * 12 ≤ k.val ∧ k.val < 16 * 12 + 16) ∧ (4 * 12 ≤ q.val ∧ q.val < 4 * 12 + 4)
          then (m ((c : Thread nD τ).loc main_arg4) : S16x4.Idx → EReal) (ix2 ⟨k.val - 16 * 12, by omega⟩ ⟨q.val - 4 * 12, by omega⟩)
          else (Gen.V m c main_v105 : S224x56.Idx → EReal) (ix2 k q) := by
  dsimp only [Gen.V]
  rw [stage_ternary hW 165 _ _ _ _ _ rfl (by decide) (by decide) (by decide) (by decide),
    stage_binary hW 164 _ _ _ _ rfl (by decide) (by decide) (by decide),
    stage_unary hW 163 _ _ _ rfl (by decide) (by decide), stage_nullary hW 162 _ _ rfl (by decide),
    stage_unary hW 161 _ _ _ rfl (by decide) (by decide), stage_nullary hW 160 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 12) (4 * 12) (by decide) (by decide) k q

/-- Window 13 of the 224 × 56 matrix: corner (208, 52). -/
theorem w2_step13 (k : Fin 224) (q : Fin 56) :
    (Gen.V m c main_v113 : S224x56.Idx → EReal) (ix2 k q)
      = if h : (16 * 13 ≤ k.val ∧ k.val < 16 * 13 + 16) ∧ (4 * 13 ≤ q.val ∧ q.val < 4 * 13 + 4)
          then (m ((c : Thread nD τ).loc main_arg4) : S16x4.Idx → EReal) (ix2 ⟨k.val - 16 * 13, by omega⟩ ⟨q.val - 4 * 13, by omega⟩)
          else (Gen.V m c main_v109 : S224x56.Idx → EReal) (ix2 k q) := by
  dsimp only [Gen.V]
  rw [stage_ternary hW 171 _ _ _ _ _ rfl (by decide) (by decide) (by decide) (by decide),
    stage_binary hW 170 _ _ _ _ rfl (by decide) (by decide) (by decide),
    stage_unary hW 169 _ _ _ rfl (by decide) (by decide), stage_nullary hW 168 _ _ rfl (by decide),
    stage_unary hW 167 _ _ _ rfl (by decide) (by decide), stage_nullary hW 166 _ _ rfl (by decide)]
  rw [show StableHlo.after Gen.hostOps0 (fun b => m (c, b)) (Proc.devRef .tc main_arg4) = m ((c : Thread nD τ).loc main_arg4)
    from Gen.V_main_arg4 m c]
  exact scat2_apply _ _ _ _ (16 * 13) (4 * 13) (by decide) (by decide) k q

/-! ## After the first g windows -/

/-- Before any window the 126 × 224 matrix is zero. -/
theorem w1_upto0 (k : Fin 126) (q : Fin 224) :
    (Gen.V m c main_v0 : S126x224.Idx → EReal) (ix2 k q)
      = if k.val / 9 = q.val / 16 ∧ k.val / 9 < 0
          then (m ((c : Thread nD τ).loc main_arg2) : S9x16.Idx → EReal) (ix2 ⟨k.val % 9, Nat.mod_lt _ (by decide)⟩ ⟨q.val % 16, Nat.mod_lt _ (by decide)⟩)
          else (0 : EReal) := by
  rw [w1_zero, if_neg (by omega)]

theorem w1_upto1 (k : Fin 126) (q : Fin 224) :
    (Gen.V m c main_v4 : S126x224.Idx → EReal) (ix2 k q)
      = if k.val / 9 = q.val / 16 ∧ k.val / 9 < 1
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 0 k q _ _ (w1_step0 m c k q) (w1_upto0 m c k q)

theorem w1_upto2 (k : Fin 126) (q : Fin 224) :
    (Gen.V m c main_v8 : S126x224.Idx → EReal) (ix2 k q)
      = if k.val / 9 = q.val / 16 ∧ k.val / 9 < 2
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 1 k q _ _ (w1_step1 m c k q) (w1_upto1 m c k q)

theorem w1_upto3 (k : Fin 126) (q : Fin 224) :
    (Gen.V m c main_v12 : S126x224.Idx → EReal) (ix2 k q)
      = if k.val / 9 = q.val / 16 ∧ k.val / 9 < 3
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 2 k q _ _ (w1_step2 m c k q) (w1_upto2 m c k q)

theorem w1_upto4 (k : Fin 126) (q : Fin 224) :
    (Gen.V m c main_v16 : S126x224.Idx → EReal) (ix2 k q)
      = if k.val / 9 = q.val / 16 ∧ k.val / 9 < 4
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 3 k q _ _ (w1_step3 m c k q) (w1_upto3 m c k q)

theorem w1_upto5 (k : Fin 126) (q : Fin 224) :
    (Gen.V m c main_v20 : S126x224.Idx → EReal) (ix2 k q)
      = if k.val / 9 = q.val / 16 ∧ k.val / 9 < 5
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 4 k q _ _ (w1_step4 m c k q) (w1_upto4 m c k q)

theorem w1_upto6 (k : Fin 126) (q : Fin 224) :
    (Gen.V m c main_v24 : S126x224.Idx → EReal) (ix2 k q)
      = if k.val / 9 = q.val / 16 ∧ k.val / 9 < 6
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 5 k q _ _ (w1_step5 m c k q) (w1_upto5 m c k q)

theorem w1_upto7 (k : Fin 126) (q : Fin 224) :
    (Gen.V m c main_v28 : S126x224.Idx → EReal) (ix2 k q)
      = if k.val / 9 = q.val / 16 ∧ k.val / 9 < 7
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 6 k q _ _ (w1_step6 m c k q) (w1_upto6 m c k q)

theorem w1_upto8 (k : Fin 126) (q : Fin 224) :
    (Gen.V m c main_v32 : S126x224.Idx → EReal) (ix2 k q)
      = if k.val / 9 = q.val / 16 ∧ k.val / 9 < 8
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 7 k q _ _ (w1_step7 m c k q) (w1_upto7 m c k q)

theorem w1_upto9 (k : Fin 126) (q : Fin 224) :
    (Gen.V m c main_v36 : S126x224.Idx → EReal) (ix2 k q)
      = if k.val / 9 = q.val / 16 ∧ k.val / 9 < 9
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 8 k q _ _ (w1_step8 m c k q) (w1_upto8 m c k q)

theorem w1_upto10 (k : Fin 126) (q : Fin 224) :
    (Gen.V m c main_v40 : S126x224.Idx → EReal) (ix2 k q)
      = if k.val / 9 = q.val / 16 ∧ k.val / 9 < 10
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 9 k q _ _ (w1_step9 m c k q) (w1_upto9 m c k q)

theorem w1_upto11 (k : Fin 126) (q : Fin 224) :
    (Gen.V m c main_v44 : S126x224.Idx → EReal) (ix2 k q)
      = if k.val / 9 = q.val / 16 ∧ k.val / 9 < 11
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 10 k q _ _ (w1_step10 m c k q) (w1_upto10 m c k q)

theorem w1_upto12 (k : Fin 126) (q : Fin 224) :
    (Gen.V m c main_v48 : S126x224.Idx → EReal) (ix2 k q)
      = if k.val / 9 = q.val / 16 ∧ k.val / 9 < 12
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 11 k q _ _ (w1_step11 m c k q) (w1_upto11 m c k q)

theorem w1_upto13 (k : Fin 126) (q : Fin 224) :
    (Gen.V m c main_v52 : S126x224.Idx → EReal) (ix2 k q)
      = if k.val / 9 = q.val / 16 ∧ k.val / 9 < 13
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 12 k q _ _ (w1_step12 m c k q) (w1_upto12 m c k q)

theorem w1_upto14 (k : Fin 126) (q : Fin 224) :
    (Gen.V m c main_v56 : S126x224.Idx → EReal) (ix2 k q)
      = if k.val / 9 = q.val / 16 ∧ k.val / 9 < 14
          then (m ((c : Thread nD τ).loc main_arg2) : S9x16.Idx → EReal) (ix2 ⟨k.val % 9, Nat.mod_lt _ (by decide)⟩ ⟨q.val % 16, Nat.mod_lt _ (by decide)⟩)
          else (0 : EReal) :=
  bd_step1 (α := EReal) 0 _ 13 k q _ _ (w1_step13 m c k q) (w1_upto13 m c k q)

/-- Before any window the 224 × 56 matrix is zero. -/
theorem w2_upto0 (k : Fin 224) (q : Fin 56) :
    (Gen.V m c main_v57 : S224x56.Idx → EReal) (ix2 k q)
      = if k.val / 16 = q.val / 4 ∧ k.val / 16 < 0
          then (m ((c : Thread nD τ).loc main_arg4) : S16x4.Idx → EReal) (ix2 ⟨k.val % 16, Nat.mod_lt _ (by decide)⟩ ⟨q.val % 4, Nat.mod_lt _ (by decide)⟩)
          else (0 : EReal) := by
  rw [w2_zero, if_neg (by omega)]

theorem w2_upto1 (k : Fin 224) (q : Fin 56) :
    (Gen.V m c main_v61 : S224x56.Idx → EReal) (ix2 k q)
      = if k.val / 16 = q.val / 4 ∧ k.val / 16 < 1
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 0 k q _ _ (w2_step0 m c k q) (w2_upto0 m c k q)

theorem w2_upto2 (k : Fin 224) (q : Fin 56) :
    (Gen.V m c main_v65 : S224x56.Idx → EReal) (ix2 k q)
      = if k.val / 16 = q.val / 4 ∧ k.val / 16 < 2
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 1 k q _ _ (w2_step1 m c k q) (w2_upto1 m c k q)

theorem w2_upto3 (k : Fin 224) (q : Fin 56) :
    (Gen.V m c main_v69 : S224x56.Idx → EReal) (ix2 k q)
      = if k.val / 16 = q.val / 4 ∧ k.val / 16 < 3
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 2 k q _ _ (w2_step2 m c k q) (w2_upto2 m c k q)

theorem w2_upto4 (k : Fin 224) (q : Fin 56) :
    (Gen.V m c main_v73 : S224x56.Idx → EReal) (ix2 k q)
      = if k.val / 16 = q.val / 4 ∧ k.val / 16 < 4
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 3 k q _ _ (w2_step3 m c k q) (w2_upto3 m c k q)

theorem w2_upto5 (k : Fin 224) (q : Fin 56) :
    (Gen.V m c main_v77 : S224x56.Idx → EReal) (ix2 k q)
      = if k.val / 16 = q.val / 4 ∧ k.val / 16 < 5
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 4 k q _ _ (w2_step4 m c k q) (w2_upto4 m c k q)

theorem w2_upto6 (k : Fin 224) (q : Fin 56) :
    (Gen.V m c main_v81 : S224x56.Idx → EReal) (ix2 k q)
      = if k.val / 16 = q.val / 4 ∧ k.val / 16 < 6
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 5 k q _ _ (w2_step5 m c k q) (w2_upto5 m c k q)

theorem w2_upto7 (k : Fin 224) (q : Fin 56) :
    (Gen.V m c main_v85 : S224x56.Idx → EReal) (ix2 k q)
      = if k.val / 16 = q.val / 4 ∧ k.val / 16 < 7
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 6 k q _ _ (w2_step6 m c k q) (w2_upto6 m c k q)

theorem w2_upto8 (k : Fin 224) (q : Fin 56) :
    (Gen.V m c main_v89 : S224x56.Idx → EReal) (ix2 k q)
      = if k.val / 16 = q.val / 4 ∧ k.val / 16 < 8
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 7 k q _ _ (w2_step7 m c k q) (w2_upto7 m c k q)

theorem w2_upto9 (k : Fin 224) (q : Fin 56) :
    (Gen.V m c main_v93 : S224x56.Idx → EReal) (ix2 k q)
      = if k.val / 16 = q.val / 4 ∧ k.val / 16 < 9
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 8 k q _ _ (w2_step8 m c k q) (w2_upto8 m c k q)

theorem w2_upto10 (k : Fin 224) (q : Fin 56) :
    (Gen.V m c main_v97 : S224x56.Idx → EReal) (ix2 k q)
      = if k.val / 16 = q.val / 4 ∧ k.val / 16 < 10
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 9 k q _ _ (w2_step9 m c k q) (w2_upto9 m c k q)

theorem w2_upto11 (k : Fin 224) (q : Fin 56) :
    (Gen.V m c main_v101 : S224x56.Idx → EReal) (ix2 k q)
      = if k.val / 16 = q.val / 4 ∧ k.val / 16 < 11
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 10 k q _ _ (w2_step10 m c k q) (w2_upto10 m c k q)

theorem w2_upto12 (k : Fin 224) (q : Fin 56) :
    (Gen.V m c main_v105 : S224x56.Idx → EReal) (ix2 k q)
      = if k.val / 16 = q.val / 4 ∧ k.val / 16 < 12
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 11 k q _ _ (w2_step11 m c k q) (w2_upto11 m c k q)

theorem w2_upto13 (k : Fin 224) (q : Fin 56) :
    (Gen.V m c main_v109 : S224x56.Idx → EReal) (ix2 k q)
      = if k.val / 16 = q.val / 4 ∧ k.val / 16 < 13
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 12 k q _ _ (w2_step12 m c k q) (w2_upto12 m c k q)

theorem w2_upto14 (k : Fin 224) (q : Fin 56) :
    (Gen.V m c main_v113 : S224x56.Idx → EReal) (ix2 k q)
      = if k.val / 16 = q.val / 4 ∧ k.val / 16 < 14
          then (m ((c : Thread nD τ).loc main_arg4) : S16x4.Idx → EReal) (ix2 ⟨k.val % 16, Nat.mod_lt _ (by decide)⟩ ⟨q.val % 4, Nat.mod_lt _ (by decide)⟩)
          else (0 : EReal) :=
  bd_step2 (α := EReal) 0 _ 13 k q _ _ (w2_step13 m c k q) (w2_upto13 m c k q)

/-! ## The matrices the region finds -/

/-- The 126 × 224 matrix: W1 (k mod 9, q mod 16) where k / 9 = q / 16, and 0 elsewhere. -/
theorem V_wbd1 (k : Fin 126) (q : Fin 224) :
    (Gen.V m c main_v56 : S126x224.Idx → EReal) (ValueIdx.ix2 k q)
      = if k.val / 9 = q.val / 16
          then (m ((c : Thread nD τ).loc main_arg2) : S9x16.Idx → EReal)
            (ValueIdx.ix2 ⟨k.val % 9, Nat.mod_lt _ (by decide)⟩ ⟨q.val % 16, Nat.mod_lt _ (by decide)⟩)
          else (0 : EReal) := by
  refine (w1_upto14 m c k q).trans ?_
  have hk : k.val < 126 := k.isLt
  by_cases h : k.val / 9 = q.val / 16
  · rw [if_pos h, if_pos ⟨h, by omega⟩]
  · rw [if_neg h, if_neg (fun h' => h h'.1)]

/-- The 224 × 56 matrix: W2 (k mod 16, q mod 4) where k / 16 = q / 4, and 0 elsewhere. -/
theorem V_wbd2 (k : Fin 224) (q : Fin 56) :
    (Gen.V m c main_v113 : S224x56.Idx → EReal) (ValueIdx.ix2 k q)
      = if k.val / 16 = q.val / 4
          then (m ((c : Thread nD τ).loc main_arg4) : S16x4.Idx → EReal)
            (ValueIdx.ix2 ⟨k.val % 16, Nat.mod_lt _ (by decide)⟩ ⟨q.val % 4, Nat.mod_lt _ (by decide)⟩)
          else (0 : EReal) := by
  refine (w2_upto14 m c k q).trans ?_
  have hk : k.val < 224 := k.isLt
  by_cases h : k.val / 16 = q.val / 4
  · rw [if_pos h, if_pos ⟨h, by omega⟩]
  · rw [if_neg h, if_neg (fun h' => h h'.1)]

end Cert.KernelIdeal.BlockDiag
-- ==== Proof.PreludeRead.lean ====
/-
  The small parameter arrays the host lays out for the kernel, read at an index.

  A bias vector of length `n` repeated 14 times: the vector is made a row `[1, n]`, copied down 14 rows, flattened
  row by row to `[14·n]` and made the row `[1, 14·n]`; its entry at column `q` is the vector's entry `q mod n`.
  A vector made a row reads at column `j` the vector's entry `j`.  A block of consecutive entries of a vector made a
  row reads at column `j` the vector's entry `o + j`.
-/
import Idealize.ShloMosaic.Lib.Pipeline.Value
import Idealize.ShloMosaic.Lib.ValueIdx
import Idealize.ShloMosaic.Lib.ValueLayout

namespace Cert.PreludeRead

open Idealize.ShloMosaic Idealize.ShloMosaic.ValueIdx

variable {α : Type}

/-- A vector of length `n` repeated 14 times as the row `[1, N]`, `N = 14 · n`, at column `q`. -/
theorem tile14_apply (n N : ℕ) (hn : 0 < n) (hN : N = 14 * n) (x : (⟨1, ![n]⟩ : Shape).Idx → α)
    (h0 : (⟨1, ![n]⟩ : Shape).ShapeCasts ⟨2, ![1, n]⟩)
    (h1 : (⟨2, ![1, n]⟩ : Shape).BroadcastsInDim ⟨2, ![14, n]⟩ (![0, 1] : Fin 2 → Fin 2))
    (h2 : (⟨2, ![14, n]⟩ : Shape).ShapeCasts ⟨1, ![N]⟩) (h3 : (⟨1, ![N]⟩ : Shape).ShapeCasts ⟨2, ![1, N]⟩)
    (u : Fin 1) (q : Fin N) :
    shapeCast ⟨2, ![1, N]⟩ (shapeCast ⟨1, ![N]⟩ (broadcastInDim ⟨2, ![14, n]⟩ ![0, 1] h1
        (shapeCast ⟨2, ![1, n]⟩ x h0)) h2) h3 (ix2 u q)
      = x (ix1 ⟨q.val % n, Nat.mod_lt _ hn⟩) := by
  have hq : q.val < 14 * n := hN ▸ q.isLt
  have hg : q.val / n < 14 := (Nat.div_lt_iff_lt_mul hn).mpr hq
  refine (shapeCast_a_1a_apply _ h3 u q).trans ?_
  refine (shapeCast_apply _ h2 (ix1 q) (ix2 (⟨q.val / n, hg⟩ : Fin 14) (⟨q.val % n, Nat.mod_lt _ hn⟩ : Fin n)) ?_).trans ?_
  · rw [Shape.rowMajor_val_two, Shape.rowMajor_val_one]
    show q.val / n * n + q.val % n = q.val
    exact Nat.div_add_mod' _ _
  refine (broadcastInDim_apply _ h1 _ _ (ix2 (0 : Fin 1) (⟨q.val % n, Nat.mod_lt _ hn⟩ : Fin n)) ?_).trans ?_
  · intro a
    match a with
    | ⟨0, _⟩ => show 0 = if (1 : ℕ) = 1 then 0 else _; rw [if_pos rfl]
    | ⟨1, _⟩ =>
      show q.val % n = if n = 1 then 0 else q.val % n
      split
      · next h => rw [h, Nat.mod_one]
      · rfl
  exact shapeCast_a_1a_apply x h0 (0 : Fin 1) _

/-- A block of `w` consecutive entries of a vector, from `o`, made the row `[1, w]`, at column `j`. -/
theorem slice_row_apply (n w o : ℕ) (x : (⟨1, ![n]⟩ : Shape).Idx → α)
    (hs : (⟨1, ![n]⟩ : Shape).Slices ![o] ⟨1, ![w]⟩) (hc : (⟨1, ![w]⟩ : Shape).ShapeCasts ⟨2, ![1, w]⟩)
    (u : Fin 1) (j : Fin w) (k : Fin n) (hk : k.val = o + j.val) :
    shapeCast ⟨2, ![1, w]⟩ (extractStridedSlice ⟨1, ![w]⟩ ![o] x hs) hc (ix2 u j) = x (ix1 k) := by
  refine (shapeCast_a_1a_apply _ hc u j).trans ?_
  refine extractStridedSlice_apply _ x hs (ix1 j) (ix1 k) ?_
  intro a
  match a with
  | ⟨0, _⟩ => exact hk

end Cert.PreludeRead
-- ==== Proof.PreludeBias.lean ====
/-
  The three bias rows the kernel's region finds, from the argument arrays.

  The first-layer bias `b1` (16 entries) is repeated 14 times into a row of 224, the second-layer bias `b2` (4 entries)
  into a row of 56, and the third-layer bias `b3` is made a row of 128: entry `q` of a repeated row is entry `q mod 16`
  (resp. `q mod 4`) of the vector.
-/
import proofs.«106184_j12446815223911_2_alg».proof.Proof.Gen.KernelIdeal.Frame
import proofs.«106184_j12446815223911_2_alg».proof.Proof.PreludeRead
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The repeated first-layer bias as the host operations compose it. -/
theorem V_b1t (c : Dev nD) : (V m c main_v117 : S1x224.Idx → EReal)
    = shapeCast S1x224 (shapeCast S224 (broadcastInDim S14x16 ![0, 1] bcast_S1x16_S14x16_0_1
        (shapeCast S1x16 (m ((c : Thread nD τ).loc main_arg3) : S16.Idx → EReal) shapeCasts_S16_S1x16))
        shapeCasts_S14x16_S224) shapeCasts_S224_S1x224 := by
  dsimp only [Gen.V, Gen.hostOps0]
  after_results
  all_goals rfl

theorem b1t_apply (c : Dev nD) (u : Fin 1) (q : Fin 224) :
    (V m c main_v117 : S1x224.Idx → EReal) (ix2 u q)
      = (m ((c : Thread nD τ).loc main_arg3) : S16.Idx → EReal) (ix1 ⟨q.val % 16, Nat.mod_lt _ (by decide)⟩) := by
  rw [V_b1t]
  exact PreludeRead.tile14_apply 16 224 (by decide) rfl _ shapeCasts_S16_S1x16 bcast_S1x16_S14x16_0_1
    shapeCasts_S14x16_S224 shapeCasts_S224_S1x224 u q

set_option maxHeartbeats 2000000 in
/-- The repeated second-layer bias as the host operations compose it. -/
theorem V_b2t (c : Dev nD) : (V m c main_v121 : S1x56.Idx → EReal)
    = shapeCast S1x56 (shapeCast S56 (broadcastInDim S14x4 ![0, 1] bcast_S1x4_S14x4_0_1
        (shapeCast S1x4 (m ((c : Thread nD τ).loc main_arg5) : S4.Idx → EReal) shapeCasts_S4_S1x4))
        shapeCasts_S14x4_S56) shapeCasts_S56_S1x56 := by
  dsimp only [Gen.V, Gen.hostOps0]
  after_results
  all_goals rfl

theorem b2t_apply (c : Dev nD) (u : Fin 1) (q : Fin 56) :
    (V m c main_v121 : S1x56.Idx → EReal) (ix2 u q)
      = (m ((c : Thread nD τ).loc main_arg5) : S4.Idx → EReal) (ix1 ⟨q.val % 4, Nat.mod_lt _ (by decide)⟩) := by
  rw [V_b2t]
  exact PreludeRead.tile14_apply 4 56 (by decide) rfl _ shapeCasts_S4_S1x4 bcast_S1x4_S14x4_0_1
    shapeCasts_S14x4_S56 shapeCasts_S56_S1x56 u q

set_option maxHeartbeats 2000000 in
/-- The third-layer bias as a row. -/
theorem V_b3r (c : Dev nD) : (V m c main_v124 : S1x128.Idx → EReal)
    = shapeCast S1x128 (m ((c : Thread nD τ).loc main_arg7) : S128.Idx → EReal) shapeCasts_S128_S1x128 := by
  dsimp only [Gen.V, Gen.hostOps0]
  after_results
  all_goals rfl

theorem b3r_apply (c : Dev nD) (u : Fin 1) (j : Fin 128) :
    (V m c main_v124 : S1x128.Idx → EReal) (ix2 u j)
      = (m ((c : Thread nD τ).loc main_arg7) : S128.Idx → EReal) (ix1 j) := by
  rw [V_b3r]
  exact shapeCast_a_1a_apply _ shapeCasts_S128_S1x128 u j

end Cert.KernelIdeal.Prelude

end
-- ==== Proof.PreludeW3.lean ====
/-
  The two pieces of the third-layer matrix the kernel's region finds: its first 56 rows, and its last row as a
  one-row matrix.
-/
import proofs.«106184_j12446815223911_2_alg».proof.Proof.Gen.KernelIdeal.Frame
import proofs.«106184_j12446815223911_2_alg».proof.Proof.PreludeRead
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The first 56 rows of the third-layer matrix. -/
theorem V_w3s (c : Dev nD) : (V m c main_v122 : S56x128.Idx → EReal)
    = extractStridedSlice S56x128 ![0, 0] (m ((c : Thread nD τ).loc main_arg6) : S57x128.Idx → EReal)
        slices_S57x128_S56x128_0_0 := by
  dsimp only [Gen.V, Gen.hostOps0]
  after_results
  all_goals rfl

theorem w3s_apply (c : Dev nD) (k : Fin 56) (j : Fin 128) :
    (V m c main_v122 : S56x128.Idx → EReal) (ix2 k j)
      = (m ((c : Thread nD τ).loc main_arg6) : S57x128.Idx → EReal) (ix2 (⟨k.val, by omega⟩ : Fin 57) j) := by
  rw [V_w3s]
  exact slice2_axis0_apply 0 _ slices_S57x128_S56x128_0_0 k j ⟨k.val, by omega⟩ (Nat.zero_add _).symm

set_option maxHeartbeats 2000000 in
/-- The last row of the third-layer matrix. -/
theorem V_w3l (c : Dev nD) : (V m c main_v123 : S1x128.Idx → EReal)
    = extractStridedSlice S1x128 ![56, 0] (m ((c : Thread nD τ).loc main_arg6) : S57x128.Idx → EReal)
        slices_S57x128_S1x128_56_0 := by
  dsimp only [Gen.V, Gen.hostOps0]
  after_results
  all_goals rfl

theorem w3l_apply (c : Dev nD) (u : Fin 1) (j : Fin 128) :
    (V m c main_v123 : S1x128.Idx → EReal) (ix2 u j)
      = (m ((c : Thread nD τ).loc main_arg6) : S57x128.Idx → EReal) (ix2 (⟨56, by decide⟩ : Fin 57) j) := by
  rw [V_w3l]
  exact slice2_axis0_apply 56 _ slices_S57x128_S1x128_56_0 u j ⟨56, by decide⟩ (by have := u.isLt; show 56 = 56 + u.val; omega)

end Cert.KernelIdeal.Prelude

end
-- ==== Proof.PreludeW4.lean ====
/-
  The two halves of the fourth-layer matrix and bias the kernel's region finds: columns 0 … 14 and columns
  15 … 29 of the matrix, and the matching halves of the bias as rows.
-/
import proofs.«106184_j12446815223911_2_alg».proof.Proof.Gen.KernelIdeal.Frame
import proofs.«106184_j12446815223911_2_alg».proof.Proof.PreludeRead
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- Columns 0 … 14 of the fourth-layer matrix. -/
theorem V_w4a (c : Dev nD) : (V m c main_v125 : S128x15.Idx → EReal)
    = extractStridedSlice S128x15 ![0, 0] (m ((c : Thread nD τ).loc main_arg8) : S128x30.Idx → EReal)
        slices_S128x30_S128x15_0_0 := by
  dsimp only [Gen.V, Gen.hostOps0]
  after_results
  all_goals rfl

theorem w4a_apply (c : Dev nD) (k : Fin 128) (j : Fin 15) :
    (V m c main_v125 : S128x15.Idx → EReal) (ix2 k j)
      = (m ((c : Thread nD τ).loc main_arg8) : S128x30.Idx → EReal) (ix2 k (⟨0 + j.val, by omega⟩ : Fin 30)) := by
  rw [V_w4a]
  exact slice2_axis1_apply 0 _ slices_S128x30_S128x15_0_0 k j ⟨0 + j.val, by omega⟩ rfl

set_option maxHeartbeats 2000000 in
/-- Columns 15 … 29 of the fourth-layer matrix. -/
theorem V_w4b (c : Dev nD) : (V m c main_v126 : S128x15.Idx → EReal)
    = extractStridedSlice S128x15 ![0, 15] (m ((c : Thread nD τ).loc main_arg8) : S128x30.Idx → EReal)
        slices_S128x30_S128x15_0_15 := by
  dsimp only [Gen.V, Gen.hostOps0]
  after_results
  all_goals rfl

theorem w4b_apply (c : Dev nD) (k : Fin 128) (j : Fin 15) :
    (V m c main_v126 : S128x15.Idx → EReal) (ix2 k j)
      = (m ((c : Thread nD τ).loc main_arg8) : S128x30.Idx → EReal) (ix2 k (⟨15 + j.val, by omega⟩ : Fin 30)) := by
  rw [V_w4b]
  exact slice2_axis1_apply 15 _ slices_S128x30_S128x15_0_15 k j ⟨15 + j.val, by omega⟩ rfl

set_option maxHeartbeats 2000000 in
/-- Entries 0 … 14 of the fourth-layer bias as a row. -/
theorem V_b4a (c : Dev nD) : (V m c main_v128 : S1x15.Idx → EReal)
    = shapeCast S1x15 (extractStridedSlice S15 ![0] (m ((c : Thread nD τ).loc main_arg9) : S30.Idx → EReal)
        slices_S30_S15_0) shapeCasts_S15_S1x15 := by
  dsimp only [Gen.V, Gen.hostOps0]
  after_results
  all_goals rfl

theorem b4a_apply (c : Dev nD) (u : Fin 1) (j : Fin 15) :
    (V m c main_v128 : S1x15.Idx → EReal) (ix2 u j)
      = (m ((c : Thread nD τ).loc main_arg9) : S30.Idx → EReal) (ix1 (⟨0 + j.val, by omega⟩ : Fin 30)) := by
  rw [V_b4a]
  exact PreludeRead.slice_row_apply 30 15 0 _ slices_S30_S15_0 shapeCasts_S15_S1x15 u j ⟨0 + j.val, by omega⟩ rfl

set_option maxHeartbeats 2000000 in
/-- Entries 15 … 29 of the fourth-layer bias as a row. -/
theorem V_b4b (c : Dev nD) : (V m c main_v130 : S1x15.Idx → EReal)
    = shapeCast S1x15 (extractStridedSlice S15 ![15] (m ((c : Thread nD τ).loc main_arg9) : S30.Idx → EReal)
        slices_S30_S15_15) shapeCasts_S15_S1x15 := by
  dsimp only [Gen.V, Gen.hostOps0]
  after_results
  all_goals rfl

theorem b4b_apply (c : Dev nD) (u : Fin 1) (j : Fin 15) :
    (V m c main_v130 : S1x15.Idx → EReal) (ix2 u j)
      = (m ((c : Thread nD τ).loc main_arg9) : S30.Idx → EReal) (ix1 (⟨15 + j.val, by omega⟩ : Fin 30)) := by
  rw [V_b4b]
  exact PreludeRead.slice_row_apply 30 15 15 _ slices_S30_S15_15 shapeCasts_S15_S1x15 u j ⟨15 + j.val, by omega⟩ rfl

end Cert.KernelIdeal.Prelude

end
-- ==== Proof.KernelValue.lean ====
/-
  The two result arrays after the kernel's run, as functions of the ten argument arrays.

  The grid has 32 points; point `t` stages rows `8192·t … 8192·t + 8191` of the features and of the extra scalar,
  every parameter array whole, and writes back rows `8192·t … 8192·t + 8191` of each result.  What a point writes
  back at row `p` of its tile is the network's outputs on batch row `8192·t + p` (the hyperbolic tangent of the
  first 15, the exponential of the last 15), because the parameter arrays the host laid out are the block-diagonal,
  repeated and sliced forms of the arguments.  The 32 blocks cover all 262144 rows, so each result array is the
  target function.
-/
import proofs.«106184_j12446815223911_2_alg».proof.Proof.Gen.KernelIdeal.Value
import proofs.«106184_j12446815223911_2_alg».proof.Proof.RowBridge
import proofs.«106184_j12446815223911_2_alg».proof.Proof.BlockDiag
import proofs.«106184_j12446815223911_2_alg».proof.Proof.PreludeBias
import proofs.«106184_j12446815223911_2_alg».proof.Proof.PreludeW3
import proofs.«106184_j12446815223911_2_alg».proof.Proof.PreludeW4
import Idealize.ShloMosaic.Lib.Pipeline.Value

set_option maxRecDepth 16384

noncomputable section

namespace Cert.KernelIdeal.KValue

open Cert.KernelIdeal Cert.KernelIdeal.Gen Cert.KernelIdeal.Value Idealize.ShloMosaic Idealize.ShloMosaic.TcCoe
open Idealize.SL.Sem Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 grid points -/

/-- The two row-blocked inputs and the two outputs move together along the rows; every block index is below 32. -/
theorem idx_rows : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_14.index t (0 : Fin 2) = win0_13.index t (0 : Fin 2) ∧ win0_14.index t (1 : Fin 2) = 0
    ∧ win0_13.index t (1 : Fin 2) = 0 ∧ win0_13.index t (0 : Fin 2) ≤ 31 :=
  (by decide +kernel : ∀ t : Fin grid0.N, _)

/-- Every one of the 32 row blocks is some point's. -/
theorem idx_onto : ∀ q0 : Fin 32, ∃ t : Fin cfg0.N, win0_13.index t (0 : Fin 2) = q0.val :=
  (by decide +kernel : ∀ q0 : Fin 32, ∃ t : Fin grid0.N, win0_13.index t (0 : Fin 2) = q0.val)

/-- Window 2 stages its whole array at every point. -/
theorem idx_whole2 : ∀ t : Fin cfg0.N, win0_2.index t (0 : Fin 2) = 0 ∧ win0_2.index t (1 : Fin 2) = 0 :=
  (by decide +kernel : ∀ t : Fin grid0.N, _)

theorem blk2 (c : Dev nD) (t : Fin cfg0.N) (k : Fin 126) (q : Fin 224) :
    iblk m c 2 t (ix2 k q) = (V m c main_v56 : S126x224.Idx → EReal) (ix2 k q) := by
  obtain ⟨e0, e1⟩ := idx_whole2 t
  show V m c main_v56 (((cfg0.win 2).blk t).view.emb (ix2 k q)) = _
  refine congrArg (V m c main_v56) (funext fun a => Fin.ext ?_)
  match a with
  | ⟨0, _⟩ => show win0_2.index t (0 : Fin 2) * 126 + 1 * k.val = k.val; omega
  | ⟨1, _⟩ => show win0_2.index t (1 : Fin 2) * 224 + 1 * q.val = q.val; omega

/-- Window 3 stages its whole array at every point. -/
theorem idx_whole3 : ∀ t : Fin cfg0.N, win0_3.index t (0 : Fin 2) = 0 ∧ win0_3.index t (1 : Fin 2) = 0 :=
  (by decide +kernel : ∀ t : Fin grid0.N, _)

theorem blk3 (c : Dev nD) (t : Fin cfg0.N) (k : Fin 1) (q : Fin 224) :
    iblk m c 3 t (ix2 k q) = (V m c main_v117 : S1x224.Idx → EReal) (ix2 k q) := by
  obtain ⟨e0, e1⟩ := idx_whole3 t
  show V m c main_v117 (((cfg0.win 3).blk t).view.emb (ix2 k q)) = _
  refine congrArg (V m c main_v117) (funext fun a => Fin.ext ?_)
  match a with
  | ⟨0, _⟩ => show win0_3.index t (0 : Fin 2) * 1 + 1 * k.val = k.val; omega
  | ⟨1, _⟩ => show win0_3.index t (1 : Fin 2) * 224 + 1 * q.val = q.val; omega

/-- Window 4 stages its whole array at every point. -/
theorem idx_whole4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) (k : Fin 224) (q : Fin 56) :
    iblk m c 4 t (ix2 k q) = (V m c main_v113 : S224x56.Idx → EReal) (ix2 k q) := by
  obtain ⟨e0, e1⟩ := idx_whole4 t
  show V m c main_v113 (((cfg0.win 4).blk t).view.emb (ix2 k q)) = _
  refine congrArg (V m c main_v113) (funext fun a => Fin.ext ?_)
  match a with
  | ⟨0, _⟩ => show win0_4.index t (0 : Fin 2) * 224 + 1 * k.val = k.val; omega
  | ⟨1, _⟩ => show win0_4.index t (1 : Fin 2) * 56 + 1 * q.val = q.val; omega

/-- Window 5 stages its whole array at every point. -/
theorem idx_whole5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) (k : Fin 1) (q : Fin 56) :
    iblk m c 5 t (ix2 k q) = (V m c main_v121 : S1x56.Idx → EReal) (ix2 k q) := by
  obtain ⟨e0, e1⟩ := idx_whole5 t
  show V m c main_v121 (((cfg0.win 5).blk t).view.emb (ix2 k q)) = _
  refine congrArg (V m c main_v121) (funext fun a => Fin.ext ?_)
  match a with
  | ⟨0, _⟩ => show win0_5.index t (0 : Fin 2) * 1 + 1 * k.val = k.val; omega
  | ⟨1, _⟩ => show win0_5.index t (1 : Fin 2) * 56 + 1 * q.val = q.val; omega

/-- Window 6 stages its whole array at every point. -/
theorem idx_whole6 : ∀ t : Fin cfg0.N, win0_6.index t (0 : Fin 2) = 0 ∧ win0_6.index t (1 : Fin 2) = 0 :=
  (by decide +kernel : ∀ t : Fin grid0.N, _)

theorem blk6 (c : Dev nD) (t : Fin cfg0.N) (k : Fin 56) (q : Fin 128) :
    iblk m c 6 t (ix2 k q) = (V m c main_v122 : S56x128.Idx → EReal) (ix2 k q) := by
  obtain ⟨e0, e1⟩ := idx_whole6 t
  show V m c main_v122 (((cfg0.win 6).blk t).view.emb (ix2 k q)) = _
  refine congrArg (V m c main_v122) (funext fun a => Fin.ext ?_)
  match a with
  | ⟨0, _⟩ => show win0_6.index t (0 : Fin 2) * 56 + 1 * k.val = k.val; omega
  | ⟨1, _⟩ => show win0_6.index t (1 : Fin 2) * 128 + 1 * q.val = q.val; omega

/-- Window 7 stages its whole array at every point. -/
theorem idx_whole7 : ∀ t : Fin cfg0.N, win0_7.index t (0 : Fin 2) = 0 ∧ win0_7.index t (1 : Fin 2) = 0 :=
  (by decide +kernel : ∀ t : Fin grid0.N, _)

theorem blk7 (c : Dev nD) (t : Fin cfg0.N) (k : Fin 1) (q : Fin 128) :
    iblk m c 7 t (ix2 k q) = (V m c main_v123 : S1x128.Idx → EReal) (ix2 k q) := by
  obtain ⟨e0, e1⟩ := idx_whole7 t
  show V m c main_v123 (((cfg0.win 7).blk t).view.emb (ix2 k q)) = _
  refine congrArg (V m c main_v123) (funext fun a => Fin.ext ?_)
  match a with
  | ⟨0, _⟩ => show win0_7.index t (0 : Fin 2) * 1 + 1 * k.val = k.val; omega
  | ⟨1, _⟩ => show win0_7.index t (1 : Fin 2) * 128 + 1 * q.val = q.val; omega

/-- Window 8 stages its whole array at every point. -/
theorem idx_whole8 : ∀ t : Fin cfg0.N, win0_8.index t (0 : Fin 2) = 0 ∧ win0_8.index t (1 : Fin 2) = 0 :=
  (by decide +kernel : ∀ t : Fin grid0.N, _)

theorem blk8 (c : Dev nD) (t : Fin cfg0.N) (k : Fin 1) (q : Fin 128) :
    iblk m c 8 t (ix2 k q) = (V m c main_v124 : S1x128.Idx → EReal) (ix2 k q) := by
  obtain ⟨e0, e1⟩ := idx_whole8 t
  show V m c main_v124 (((cfg0.win 8).blk t).view.emb (ix2 k q)) = _
  refine congrArg (V m c main_v124) (funext fun a => Fin.ext ?_)
  match a with
  | ⟨0, _⟩ => show win0_8.index t (0 : Fin 2) * 1 + 1 * k.val = k.val; omega
  | ⟨1, _⟩ => show win0_8.index t (1 : Fin 2) * 128 + 1 * q.val = q.val; omega

/-- Window 9 stages its whole array at every point. -/
theorem idx_whole9 : ∀ t : Fin cfg0.N, win0_9.index t (0 : Fin 2) = 0 ∧ win0_9.index t (1 : Fin 2) = 0 :=
  (by decide +kernel : ∀ t : Fin grid0.N, _)

theorem blk9 (c : Dev nD) (t : Fin cfg0.N) (k : Fin 128) (q : Fin 15) :
    iblk m c 9 t (ix2 k q) = (V m c main_v125 : S128x15.Idx → EReal) (ix2 k q) := by
  obtain ⟨e0, e1⟩ := idx_whole9 t
  show V m c main_v125 (((cfg0.win 9).blk t).view.emb (ix2 k q)) = _
  refine congrArg (V m c main_v125) (funext fun a => Fin.ext ?_)
  match a with
  | ⟨0, _⟩ => show win0_9.index t (0 : Fin 2) * 128 + 1 * k.val = k.val; omega
  | ⟨1, _⟩ => show win0_9.index t (1 : Fin 2) * 15 + 1 * q.val = q.val; omega

/-- Window 10 stages its whole array at every point. -/
theorem idx_whole10 : ∀ t : Fin cfg0.N, win0_10.index t (0 : Fin 2) = 0 ∧ win0_10.index t (1 : Fin 2) = 0 :=
  (by decide +kernel : ∀ t : Fin grid0.N, _)

theorem blk10 (c : Dev nD) (t : Fin cfg0.N) (k : Fin 1) (q : Fin 15) :
    iblk m c 10 t (ix2 k q) = (V m c main_v128 : S1x15.Idx → EReal) (ix2 k q) := by
  obtain ⟨e0, e1⟩ := idx_whole10 t
  show V m c main_v128 (((cfg0.win 10).blk t).view.emb (ix2 k q)) = _
  refine congrArg (V m c main_v128) (funext fun a => Fin.ext ?_)
  match a with
  | ⟨0, _⟩ => show win0_10.index t (0 : Fin 2) * 1 + 1 * k.val = k.val; omega
  | ⟨1, _⟩ => show win0_10.index t (1 : Fin 2) * 15 + 1 * q.val = q.val; omega

/-- Window 11 stages its whole array at every point. -/
theorem idx_whole11 : ∀ t : Fin cfg0.N, win0_11.index t (0 : Fin 2) = 0 ∧ win0_11.index t (1 : Fin 2) = 0 :=
  (by decide +kernel : ∀ t : Fin grid0.N, _)

theorem blk11 (c : Dev nD) (t : Fin cfg0.N) (k : Fin 128) (q : Fin 15) :
    iblk m c 11 t (ix2 k q) = (V m c main_v126 : S128x15.Idx → EReal) (ix2 k q) := by
  obtain ⟨e0, e1⟩ := idx_whole11 t
  show V m c main_v126 (((cfg0.win 11).blk t).view.emb (ix2 k q)) = _
  refine congrArg (V m c main_v126) (funext fun a => Fin.ext ?_)
  match a with
  | ⟨0, _⟩ => show win0_11.index t (0 : Fin 2) * 128 + 1 * k.val = k.val; omega
  | ⟨1, _⟩ => show win0_11.index t (1 : Fin 2) * 15 + 1 * q.val = q.val; omega

/-- Window 12 stages its whole array at every point. -/
theorem idx_whole12 : ∀ t : Fin cfg0.N, win0_12.index t (0 : Fin 2) = 0 ∧ win0_12.index t (1 : Fin 2) = 0 :=
  (by decide +kernel : ∀ t : Fin grid0.N, _)

theorem blk12 (c : Dev nD) (t : Fin cfg0.N) (k : Fin 1) (q : Fin 15) :
    iblk m c 12 t (ix2 k q) = (V m c main_v130 : S1x15.Idx → EReal) (ix2 k q) := by
  obtain ⟨e0, e1⟩ := idx_whole12 t
  show V m c main_v130 (((cfg0.win 12).blk t).view.emb (ix2 k q)) = _
  refine congrArg (V m c main_v130) (funext fun a => Fin.ext ?_)
  match a with
  | ⟨0, _⟩ => show win0_12.index t (0 : Fin 2) * 1 + 1 * k.val = k.val; omega
  | ⟨1, _⟩ => show win0_12.index t (1 : Fin 2) * 15 + 1 * q.val = q.val; omega

/-! ## The row-blocked inputs -/

/-- Row `p` of point `t`'s feature tile is batch row `8192 · (block index) + p`. -/
theorem blk0 (c : Dev nD) (t : Fin cfg0.N) (p : Fin 8192) (k : Fin 126) (r : Fin 262144)
    (hr : r.val = win0_13.index t (0 : Fin 2) * 8192 + p.val) :
    iblk m c 0 t (ix2 p k) = (m ((c : Thread nD τ).loc main_arg0) : S262144x126.Idx → EReal) (ix2 r k) := by
  obtain ⟨e0, e1, -⟩ := idx_rows t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 8192 + 1 * p.val = r.val; omega
  | ⟨1, _⟩ => show win0_0.index t (1 : Fin 2) * 126 + 1 * k.val = k.val; omega

/-- Row `p` of point `t`'s scalar column is batch row `8192 · (block index) + p`. -/
theorem blk1 (c : Dev nD) (t : Fin cfg0.N) (p : Fin 8192) (u : Fin 1) (r : Fin 262144)
    (hr : r.val = win0_13.index t (0 : Fin 2) * 8192 + p.val) :
    iblk m c 1 t (ix2 p u) = (m ((c : Thread nD τ).loc main_arg1) : S262144x1.Idx → EReal) (ix2 r u) := by
  obtain ⟨-, -, e0, e1, -⟩ := idx_rows t
  show V m c main_arg1 (((cfg0.win 1).blk t).view.emb (ix2 p u)) = _
  rw [V_main_arg1]
  refine congrArg (m ((c : Thread nD τ).loc main_arg1)) (funext fun a => Fin.ext ?_)
  match a with
  | ⟨0, _⟩ => show win0_1.index t (0 : Fin 2) * 8192 + 1 * p.val = r.val; omega
  | ⟨1, _⟩ => show win0_1.index t (1 : Fin 2) * 1 + 1 * u.val = u.val; omega

/-! ## The targets at the argument arrays -/

/-- The first result array's target. -/
abbrev Gm (c : Dev nD) : S262144x15.Idx → EReal :=
  Gmean (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The second result array's target. -/
abbrev Gs (c : Dev nD) : S262144x15.Idx → EReal :=
  Gstd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The head on windows `wM` (matrix) and `wB` (bias) of the third tile's row `p` at point `t` is output `off + q` of
    the network on the batch row the tile's row `p` is. -/
theorem head_at (c : Dev nD) (t : Fin cfg0.N) (p : Fin 8192) (q : Fin 15) (r : Fin 262144)
    (hr : r.val = win0_13.index t (0 : Fin 2) * 8192 + p.val)
    (x9 : Vec Ideal S128x15 .f32) (x10 : Vec Ideal S1x15 .f32) (off : ℕ) (hoff : off + 15 ≤ 30)
    (h9 : ∀ (k : Fin 128) (j : Fin 15), x9 (ix2 k j)
        = (m ((c : Thread nD τ).loc main_arg8) : S128x30.Idx → EReal) (ix2 k (⟨off + j.val, by omega⟩ : Fin 30)))
    (h10 : ∀ j : Fin 15, x10 (ix2 (0 : Fin 1) j)
        = (m ((c : Thread nD τ).loc main_arg9) : S30.Idx → EReal) (ix1 (⟨off + j.val, by omega⟩ : Fin 30))) :
    Mlp.head (Dense.mat x9) (Dense.row x10)
        (Pay.zRow (iblk m c 0 t) (iblk m c 2 t) (iblk m c 3 t) (iblk m c 4 t) (iblk m c 5 t) (iblk m c 6 t)
          (iblk m c 1 t) (iblk m c 7 t) (iblk m c 8 t) p) q
      = outAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) r ⟨off + q.val, by omega⟩ :=
  RowBridge.head_row (iblk m c 0 t) (iblk m c 1 t) (iblk m c 2 t) (iblk m c 3 t) (iblk m c 4 t) (iblk m c 5 t)
    (iblk m c 6 t) (iblk m c 7 t) (iblk m c 8 t) x9 x10
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) r p off hoff
    (fun k => blk0 m c t p k r hr)
    (blk1 m c t p (0 : Fin 1) r hr)
    (fun k q => (blk2 m c t k q).trans (BlockDiag.V_wbd1 m c k q))
    (fun q => (blk3 m c t (0 : Fin 1) q).trans (Prelude.b1t_apply m c (0 : Fin 1) q))
    (fun k q => (blk4 m c t k q).trans (BlockDiag.V_wbd2 m c k q))
    (fun q => (blk5 m c t (0 : Fin 1) q).trans (Prelude.b2t_apply m c (0 : Fin 1) q))
    (fun k j => (blk6 m c t k j).trans (Prelude.w3s_apply m c k j))
    (fun j => (blk7 m c t (0 : Fin 1) j).trans (Prelude.w3l_apply m c (0 : Fin 1) j))
    (fun j => (blk8 m c t (0 : Fin 1) j).trans (Prelude.b3r_apply m c (0 : Fin 1) j))
    h9 h10 q

/-! ## What a point writes back -/

/-- WHAT POINT `t` WRITES BACK to result 1 is block `t` of its target. -/
theorem flushed13_eq (c : Dev nD) (t : Fin cfg0.N) :
    (dats m 0 c).flushed 13 t = ((cfg0.win 13).blk t).view.read (Elt Ideal) (Gm m c) := by
  show (cfg0.win 13).cut (grid0.coords t) ((dats m 0 c).after 13 t) = _
  rw [after0_13]
  unfold out0_13
  rw [View.canon_unit_zero hz]
  simp only [View.ld_unit_zero (S := S8192x126) hz, View.ld_unit_zero (S := S8192x1) hz,
    View.ld_unit_zero (S := S126x224) hz, View.ld_unit_zero (S := S1x224) hz, View.ld_unit_zero (S := S224x56) hz,
    View.ld_unit_zero (S := S1x56) hz, View.ld_unit_zero (S := S56x128) hz, View.ld_unit_zero (S := S1x128) hz,
    View.ld_unit_zero (S := S128x15) hz, View.ld_unit_zero (S := S1x15) hz]
  obtain ⟨-, -, -, -, f0, f1, g1, g0⟩ := idx_rows t
  funext j
  have hj0 : (j 0).val < 8192 := (j 0).isLt
  have hj1 : (j 1).val < 15 := (j 1).isLt
  have ej : j = ix2 (⟨(j 0).val, hj0⟩ : Fin 8192) (⟨(j 1).val, hj1⟩ : Fin 15) :=
    funext fun a => by match a with | ⟨0, _⟩ => rfl | ⟨1, _⟩ => rfl
  have hrlt : win0_13.index t (0 : Fin 2) * 8192 + (j 0).val < 262144 := by omega
  have er : ((cfg0.win 13).blk t).view.emb j
      = ix2 (⟨win0_13.index t (0 : Fin 2) * 8192 + (j 0).val, hrlt⟩ : Fin 262144) (⟨(j 1).val, hj1⟩ : Fin 15) :=
    funext fun a => Fin.ext (by
      match a with
      | ⟨0, _⟩ => show win0_13.index t (0 : Fin 2) * 8192 + 1 * (j 0).val = win0_13.index t (0 : Fin 2) * 8192 + (j 0).val; omega
      | ⟨1, _⟩ => show win0_13.index t (1 : Fin 2) * 15 + 1 * (j 1).val = (j 1).val; omega)
  show k0_pay1 (k0_pay3 (iblk m c 0 t) (iblk m c 2 t) (iblk m c 3 t) (iblk m c 4 t) (iblk m c 5 t) (iblk m c 6 t)
      (iblk m c 1 t) (iblk m c 7 t) (iblk m c 8 t)) (iblk m c 9 t) (iblk m c 10 t) j
    = Gm m c (((cfg0.win 13).blk t).view.emb j)
  rw [er]
  refine (congrArg (k0_pay1 (F := Ideal) (k0_pay3 (iblk m c 0 t) (iblk m c 2 t) (iblk m c 3 t) (iblk m c 4 t)
      (iblk m c 5 t) (iblk m c 6 t) (iblk m c 1 t) (iblk m c 7 t) (iblk m c 8 t)) (iblk m c 9 t) (iblk m c 10 t)) ej).trans ?_
  refine (Pay.pay1_apply (iblk m c 0 t) (iblk m c 2 t) (iblk m c 3 t) (iblk m c 4 t) (iblk m c 5 t) (iblk m c 6 t)
      (iblk m c 1 t) (iblk m c 7 t) (iblk m c 8 t) (iblk m c 9 t) (iblk m c 10 t) ⟨(j 0).val, hj0⟩ ⟨(j 1).val, hj1⟩).trans ?_
  refine (congrArg Ideal.tanh (head_at m c t ⟨(j 0).val, hj0⟩ ⟨(j 1).val, hj1⟩
    ⟨win0_13.index t (0 : Fin 2) * 8192 + (j 0).val, hrlt⟩ rfl (iblk m c 9 t) (iblk m c 10 t) 0 (by decide)
    (fun k j' => (blk9 m c t k j').trans (Prelude.w4a_apply m c k j'))
    (fun j' => (blk10 m c t (0 : Fin 1) j').trans (Prelude.b4a_apply m c (0 : Fin 1) j')))).trans ?_
  exact congrArg (fun z => Ideal.tanh (outAt _ _ _ _ _ _ _ _ _ _ _ z)) (Fin.ext (Nat.zero_add _))

/-- WHAT POINT `t` WRITES BACK to result 2 is block `t` of its target. -/
theorem flushed14_eq (c : Dev nD) (t : Fin cfg0.N) :
    (dats m 0 c).flushed 14 t = ((cfg0.win 14).blk t).view.read (Elt Ideal) (Gs m c) := by
  show (cfg0.win 14).cut (grid0.coords t) ((dats m 0 c).after 14 t) = _
  rw [after0_14]
  unfold out0_14
  rw [View.canon_unit_zero hz]
  simp only [View.ld_unit_zero (S := S8192x126) hz, View.ld_unit_zero (S := S8192x1) hz,
    View.ld_unit_zero (S := S126x224) hz, View.ld_unit_zero (S := S1x224) hz, View.ld_unit_zero (S := S224x56) hz,
    View.ld_unit_zero (S := S1x56) hz, View.ld_unit_zero (S := S56x128) hz, View.ld_unit_zero (S := S1x128) hz,
    View.ld_unit_zero (S := S128x15) hz, View.ld_unit_zero (S := S1x15) hz]
  obtain ⟨-, -, -, -, f0, f1, g1, g0⟩ := idx_rows t
  funext j
  have hj0 : (j 0).val < 8192 := (j 0).isLt
  have hj1 : (j 1).val < 15 := (j 1).isLt
  have ej : j = ix2 (⟨(j 0).val, hj0⟩ : Fin 8192) (⟨(j 1).val, hj1⟩ : Fin 15) :=
    funext fun a => by match a with | ⟨0, _⟩ => rfl | ⟨1, _⟩ => rfl
  have hrlt : win0_13.index t (0 : Fin 2) * 8192 + (j 0).val < 262144 := by omega
  have er : ((cfg0.win 14).blk t).view.emb j
      = ix2 (⟨win0_13.index t (0 : Fin 2) * 8192 + (j 0).val, hrlt⟩ : Fin 262144) (⟨(j 1).val, hj1⟩ : Fin 15) :=
    funext fun a => Fin.ext (by
      match a with
      | ⟨0, _⟩ => show win0_14.index t (0 : Fin 2) * 8192 + 1 * (j 0).val = win0_13.index t (0 : Fin 2) * 8192 + (j 0).val; omega
      | ⟨1, _⟩ => show win0_14.index t (1 : Fin 2) * 15 + 1 * (j 1).val = (j 1).val; omega)
  show k0_pay2 (k0_pay3 (iblk m c 0 t) (iblk m c 2 t) (iblk m c 3 t) (iblk m c 4 t) (iblk m c 5 t) (iblk m c 6 t)
      (iblk m c 1 t) (iblk m c 7 t) (iblk m c 8 t)) (iblk m c 11 t) (iblk m c 12 t) j
    = Gs m c (((cfg0.win 14).blk t).view.emb j)
  rw [er]
  refine (congrArg (k0_pay2 (F := Ideal) (k0_pay3 (iblk m c 0 t) (iblk m c 2 t) (iblk m c 3 t) (iblk m c 4 t)
      (iblk m c 5 t) (iblk m c 6 t) (iblk m c 1 t) (iblk m c 7 t) (iblk m c 8 t)) (iblk m c 11 t) (iblk m c 12 t)) ej).trans ?_
  refine (Pay.pay2_apply (iblk m c 0 t) (iblk m c 2 t) (iblk m c 3 t) (iblk m c 4 t) (iblk m c 5 t) (iblk m c 6 t)
      (iblk m c 1 t) (iblk m c 7 t) (iblk m c 8 t) (iblk m c 11 t) (iblk m c 12 t) ⟨(j 0).val, hj0⟩ ⟨(j 1).val, hj1⟩).trans ?_
  refine (congrArg Ideal.exp (head_at m c t ⟨(j 0).val, hj0⟩ ⟨(j 1).val, hj1⟩
    ⟨win0_13.index t (0 : Fin 2) * 8192 + (j 0).val, hrlt⟩ rfl (iblk m c 11 t) (iblk m c 12 t) 15 (by decide)
    (fun k j' => (blk11 m c t k j').trans (Prelude.w4b_apply m c k j'))
    (fun j' => (blk12 m c t (0 : Fin 1) j').trans (Prelude.b4b_apply m c (0 : Fin 1) j')))).trans ?_
  rfl

/-! ## The blocks cover the arrays -/

/-- An index of result 1's array is in point `t`'s block iff each coordinate is in the block's range. -/
theorem mem_blk13 (t : Fin cfg0.N) (i : S262144x15.Idx) :
    i ∈ ((cfg0.win 13).blk t).view.set ↔ ∀ a : Fin 2, win0_13.index t a * S8192x15.size a ≤ (i a).val ∧ (i a).val < win0_13.index t a * S8192x15.size a + S8192x15.size a := by
  show i ∈ ((View.whole main_v131_0).slice (win0_13.rect t)).set ↔ _
  rw [View.set_slice_whole, Rect.mem_set_unit]
  exact Iff.rfl

/-- The 32 blocks cover result 1's array: row `r` is in the block of the point whose block index is `r / 8192`. -/
theorem cover13 (i : S262144x15.Idx) :
    ∃ t : Fin cfg0.N, (cfg0.win 13).flush t = true ∧ i ∈ ((cfg0.win 13).blk t).view.set := by
  have hi0 : (i 0).val < 262144 := (i 0).isLt
  have hi1 : (i 1).val < 15 := (i 1).isLt
  obtain ⟨t, ht⟩ := idx_onto ⟨(i 0).val / 8192, by omega⟩
  have ht' : win0_13.index t (0 : Fin 2) = (i 0).val / 8192 := ht
  obtain ⟨-, -, -, -, f0, f1, g1, -⟩ := idx_rows t
  refine ⟨t, flush0_13 t, ?_⟩
  rw [mem_blk13]
  intro a
  match a with
  | ⟨0, _⟩ => show win0_13.index t (0 : Fin 2) * 8192 ≤ (i 0).val ∧ (i 0).val < win0_13.index t (0 : Fin 2) * 8192 + 8192; omega
  | ⟨1, _⟩ => show win0_13.index t (1 : Fin 2) * 15 ≤ (i 1).val ∧ (i 1).val < win0_13.index t (1 : Fin 2) * 15 + 15; omega

/-- Result 1's array after the run is its target. -/
theorem final13 (c : Dev nD) : (dats m 0 c).arrAt 13 cfg0.N = Gm m c :=
  (dats m 0 c).arrAt_eq_of_cover 13 (Gm m c) (fun t _ => flushed13_eq m c t) cover13

/-- An index of result 2's array is in point `t`'s block iff each coordinate is in the block's range. -/
theorem mem_blk14 (t : Fin cfg0.N) (i : S262144x15.Idx) :
    i ∈ ((cfg0.win 14).blk t).view.set ↔ ∀ a : Fin 2, win0_14.index t a * S8192x15.size a ≤ (i a).val ∧ (i a).val < win0_14.index t a * S8192x15.size a + S8192x15.size a := by
  show i ∈ ((View.whole main_v131_1).slice (win0_14.rect t)).set ↔ _
  rw [View.set_slice_whole, Rect.mem_set_unit]
  exact Iff.rfl

/-- The 32 blocks cover result 2's array: row `r` is in the block of the point whose block index is `r / 8192`. -/
theorem cover14 (i : S262144x15.Idx) :
    ∃ t : Fin cfg0.N, (cfg0.win 14).flush t = true ∧ i ∈ ((cfg0.win 14).blk t).view.set := by
  have hi0 : (i 0).val < 262144 := (i 0).isLt
  have hi1 : (i 1).val < 15 := (i 1).isLt
  obtain ⟨t, ht⟩ := idx_onto ⟨(i 0).val / 8192, by omega⟩
  have ht' : win0_13.index t (0 : Fin 2) = (i 0).val / 8192 := ht
  obtain ⟨-, -, -, -, f0, f1, g1, -⟩ := idx_rows t
  refine ⟨t, flush0_14 t, ?_⟩
  rw [mem_blk14]
  intro a
  match a with
  | ⟨0, _⟩ => show win0_14.index t (0 : Fin 2) * 8192 ≤ (i 0).val ∧ (i 0).val < win0_14.index t (0 : Fin 2) * 8192 + 8192; omega
  | ⟨1, _⟩ => show win0_14.index t (1 : Fin 2) * 15 ≤ (i 1).val ∧ (i 1).val < win0_14.index t (1 : Fin 2) * 15 + 15; omega

/-- Result 2's array after the run is its target. -/
theorem final14 (c : Dev nD) : (dats m 0 c).arrAt 14 cfg0.N = Gs m c :=
  (dats m 0 c).arrAt_eq_of_cover 14 (Gs m c) (fun t _ => flushed14_eq m c t) cover14

/-! ## The run -/

/-- The kernel's run with both result arrays at their targets, the arguments unchanged. -/
theorem run : θ_run defs (onTc (τ := τ) (main (F := Ideal))) ⟨m, fun _ => 0, ρ⟩ fun r => ∀ c : Dev nD,
      r.2.mem ((c : Thread nD τ).loc main_v131_0) = Gm m c
      ∧ r.2.mem ((c : Thread nD τ).loc main_v131_1) = Gs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final13 m c), (h c).2.1.trans (final14 m c), (h c).2.2⟩)
    (run_blocks m ρ)

end Cert.KernelIdeal.KValue

end
-- ==== Proof.RefValue.lean ====
/-
  The value of the plain reference program, stage by stage, as the network of `Cert.Mlp`.

  Row `r` of the batch is read as 14 groups of 9 features: feature `i` of group `g` is column `9 g + i`.
  The first two layers act on each group; the 56 = 14 · 4 group outputs (column `k` is output `k % 4` of
  group `k / 4`) followed by the extra scalar form the 57 inputs of the third layer; the fourth layer gives
  30 numbers, of which the first 15 go through the hyperbolic tangent and the last 15 through the exponential.
  Each lemma below reads one stage at explicit coordinates and identifies it with the corresponding
  function of `Cert.Mlp`.
-/
import proofs.«106184_j12446815223911_2_alg».proof.Proof.Gen.ReferenceIdeal.Read
import proofs.«106184_j12446815223911_2_alg».proof.Proof.Target
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Index arithmetic -/

/-- Feature `k` of group `g` in row `r` of the [262144, 14, 9] view is column `9 g + k` of row `r`. -/
theorem idx_feat (r : Fin 262144) (g : Fin 14) (j : Fin 16) (k : Fin 9) :
    idx_main_v0 (lidx_main_v1 (ix3 r g j) k) = ix2 r (Cert.Mlp.feat g k) :=
  funext fun a => Fin.ext (by
    have hr := r.isLt; have hg := g.isLt; have hk := k.isLt
    match a with
    | ⟨0, _⟩ => show ((r.val * 14 + g.val) * 9 + k.val) / 126 = r.val; omega
    | ⟨1, _⟩ => show ((r.val * 14 + g.val) * 9 + k.val) % 126 = 9 * g.val + k.val; omega)

theorem ridx_v1 (r : Fin 262144) (g : Fin 14) (j : Fin 16) (k : Fin 9) :
    ridx_main_v1 (ix3 r g j) k = ix2 k j :=
  funext fun a => Fin.ext (by
    match a with
    | ⟨0, _⟩ => rfl
    | ⟨1, _⟩ => rfl)

theorem idx_b1 (r : Fin 262144) (g : Fin 14) (j : Fin 16) :
    idx_main_v2 (idx_main_v3 (ix3 r g j)) = ix1 j :=
  funext fun a => Fin.ext (by
    match a with
    | ⟨0, _⟩ => rfl)

/-! ## The first layer -/

theorem v5_at (x0 : (⟨S262144x126, .f32⟩ : BufTy).Contents (Elt Ideal)) (x2 : (⟨S9x16, .f32⟩ : BufTy).Contents (Elt Ideal))
    (x3 : (⟨S16, .f32⟩ : BufTy).Contents (Elt Ideal)) (r : Fin 262144) (g : Fin 14) (j : Fin 16) :
    val_main_v5 (F := Ideal) x0 x2 x3 (ix3 r g j)
      = Cert.Mlp.h (fun k => x0 (ix2 r k)) (fun i j => x2 (ix2 i j)) (fun j => x3 (ix1 j)) g j := by
  rw [val_main_v5_apply, val_main_v4_apply, val_main_v1_apply, val_main_v3_apply, val_main_v2_apply,
    val_main_call0_v0_apply, val_main_call0_cst_apply]
  simp only [val_main_v0_apply, idx_feat, ridx_v1, idx_b1, Ideal.addf_def, Ideal.maximumf_def, Ideal.ofBits_def,
    Ideal.ofBits_zero_f32]
  rfl

/-! ## The second layer -/

theorem lidx_v6 (r : Fin 262144) (g : Fin 14) (o : Fin 4) (k : Fin 16) :
    lidx_main_v6 (ix3 r g o) k = ix3 r g k :=
  funext fun a => Fin.ext (by
    match a with
    | ⟨0, _⟩ => rfl
    | ⟨1, _⟩ => rfl
    | ⟨2, _⟩ => rfl)

theorem ridx_v6 (r : Fin 262144) (g : Fin 14) (o : Fin 4) (k : Fin 16) :
    ridx_main_v6 (ix3 r g o) k = ix2 k o :=
  funext fun a => Fin.ext (by
    match a with
    | ⟨0, _⟩ => rfl
    | ⟨1, _⟩ => rfl)

theorem idx_b2 (r : Fin 262144) (g : Fin 14) (o : Fin 4) :
    idx_main_v7 (idx_main_v8 (ix3 r g o)) = ix1 o :=
  funext fun a => Fin.ext (by
    match a with
    | ⟨0, _⟩ => rfl)

theorem v10_at (x0 : (⟨S262144x126, .f32⟩ : BufTy).Contents (Elt Ideal)) (x2 : (⟨S9x16, .f32⟩ : BufTy).Contents (Elt Ideal))
    (x3 : (⟨S16, .f32⟩ : BufTy).Contents (Elt Ideal)) (x4 : (⟨S16x4, .f32⟩ : BufTy).Contents (Elt Ideal))
    (x5 : (⟨S4, .f32⟩ : BufTy).Contents (Elt Ideal)) (r : Fin 262144) (g : Fin 14) (o : Fin 4) :
    val_main_v10 (F := Ideal) x0 x2 x3 x4 x5 (ix3 r g o)
      = Cert.Mlp.s (fun k => x0 (ix2 r k)) (fun i j => x2 (ix2 i j)) (fun j => x3 (ix1 j))
          (fun j o => x4 (ix2 j o)) (fun o => x5 (ix1 o)) g o := by
  rw [val_main_v10_apply, val_main_v9_apply, val_main_v6_apply, val_main_v8_apply, val_main_v7_apply,
    val_main_call1_v0_apply, val_main_call1_cst_apply]
  simp only [lidx_v6, ridx_v6, idx_b2, v5_at, Ideal.addf_def, Ideal.maximumf_def, Ideal.ofBits_def,
    Ideal.ofBits_zero_f32]
  rfl

/-! ## The 57 inputs of the third layer -/

/-- Column `k` of the [262144, 56] view of row `r` is output `k % 4` of group `k / 4`. -/
theorem idx_scol (r : Fin 262144) (k : Fin 56) :
    idx_main_v11 (ix2 r k) = ix3 r (⟨k.val / 4, by omega⟩ : Fin 14) (⟨k.val % 4, Nat.mod_lt _ (by decide)⟩ : Fin 4) :=
  funext fun a => Fin.ext (by
    have hr := r.isLt; have hk := k.isLt
    match a with
    | ⟨0, _⟩ => show (r.val * 56 + k.val) / 56 = r.val; omega
    | ⟨1, _⟩ => show (r.val * 56 + k.val) / 4 % 14 = k.val / 4; omega
    | ⟨2, _⟩ => show (r.val * 56 + k.val) % 4 = k.val % 4; omega)

/-- The joined array at a column below 56 is the first piece there. -/
theorem v12_lt (x0 : (⟨S262144x126, .f32⟩ : BufTy).Contents (Elt Ideal)) (x1 : (⟨S262144x1, .f32⟩ : BufTy).Contents (Elt Ideal))
    (x2 : (⟨S9x16, .f32⟩ : BufTy).Contents (Elt Ideal))
    (x3 : (⟨S16, .f32⟩ : BufTy).Contents (Elt Ideal)) (x4 : (⟨S16x4, .f32⟩ : BufTy).Contents (Elt Ideal))
    (x5 : (⟨S4, .f32⟩ : BufTy).Contents (Elt Ideal)) (r : Fin 262144) (k : Fin 57) (hk : k.val < 56) :
    val_main_v12 (F := Ideal) x0 x1 x2 x3 x4 x5 (ix2 r k)
      = val_main_v11 (F := Ideal) x0 x2 x3 x4 x5 (ix2 r (⟨k.val, hk⟩ : Fin 56)) := by
  unfold val_main_v12
  generalize val_main_v11 (F := Ideal) x0 x2 x3 x4 x5 = y
  refine concatenate_apply_piece (t := S262144x57) (1 : Fin 2)
    [⟨S262144x56, y⟩, ⟨S262144x1, x1⟩] concatenates_S262144x56_S262144x1_S262144x57_d1 (ix2 r k) 0 (by show (0 : ℕ) < 2; omega)
    S262144x56 y rfl rfl 0 rfl (ix2 r (⟨k.val, hk⟩ : Fin 56)) ?_ ?_
  · intro b hb
    match b with
    | ⟨0, _⟩ => rfl
    | ⟨1, _⟩ => exact absurd rfl hb
  · show 0 + k.val = k.val
    omega

/-- The joined array at column 56 is the second piece. -/
theorem v12_last (x0 : (⟨S262144x126, .f32⟩ : BufTy).Contents (Elt Ideal)) (x1 : (⟨S262144x1, .f32⟩ : BufTy).Contents (Elt Ideal))
    (x2 : (⟨S9x16, .f32⟩ : BufTy).Contents (Elt Ideal))
    (x3 : (⟨S16, .f32⟩ : BufTy).Contents (Elt Ideal)) (x4 : (⟨S16x4, .f32⟩ : BufTy).Contents (Elt Ideal))
    (x5 : (⟨S4, .f32⟩ : BufTy).Contents (Elt Ideal)) (r : Fin 262144) (k : Fin 57) (hk : ¬ k.val < 56) :
    val_main_v12 (F := Ideal) x0 x1 x2 x3 x4 x5 (ix2 r k) = x1 (ix2 r (0 : Fin 1)) := by
  unfold val_main_v12
  generalize val_main_v11 (F := Ideal) x0 x2 x3 x4 x5 = y
  refine concatenate_apply_piece (t := S262144x57) (1 : Fin 2)
    [⟨S262144x56, y⟩, ⟨S262144x1, x1⟩] concatenates_S262144x56_S262144x1_S262144x57_d1 (ix2 r k) 1 (by show (1 : ℕ) < 2; omega)
    S262144x1 x1 rfl rfl 56 ?_ (ix2 r (0 : Fin 1)) ?_ ?_
  · simp
  · intro b hb
    match b with
    | ⟨0, _⟩ => rfl
    | ⟨1, _⟩ => exact absurd rfl hb
  · show 56 + 0 = k.val
    have := k.isLt
    omega

theorem v12_at (x0 : (⟨S262144x126, .f32⟩ : BufTy).Contents (Elt Ideal)) (x1 : (⟨S262144x1, .f32⟩ : BufTy).Contents (Elt Ideal))
    (x2 : (⟨S9x16, .f32⟩ : BufTy).Contents (Elt Ideal))
    (x3 : (⟨S16, .f32⟩ : BufTy).Contents (Elt Ideal)) (x4 : (⟨S16x4, .f32⟩ : BufTy).Contents (Elt Ideal))
    (x5 : (⟨S4, .f32⟩ : BufTy).Contents (Elt Ideal)) (r : Fin 262144) (k : Fin 57) :
    val_main_v12 (F := Ideal) x0 x1 x2 x3 x4 x5 (ix2 r k)
      = Cert.Mlp.comb (fun k => x0 (ix2 r k)) (x1 (ix2 r (0 : Fin 1))) (fun i j => x2 (ix2 i j)) (fun j => x3 (ix1 j))
          (fun j o => x4 (ix2 j o)) (fun o => x5 (ix1 o)) k := by
  unfold Cert.Mlp.comb
  by_cases hk : k.val < 56
  · rw [dif_pos hk, v12_lt x0 x1 x2 x3 x4 x5 r k hk, val_main_v11_apply, idx_scol, v10_at]
  · rw [dif_neg hk, v12_last x0 x1 x2 x3 x4 x5 r k hk]

/-! ## The third layer -/

theorem lidx_v13 (r : Fin 262144) (c : Fin 128) (k : Fin 57) :
    lidx_main_v13 (ix2 r c) k = ix2 r k :=
  funext fun a => Fin.ext (by
    match a with
    | ⟨0, _⟩ => rfl
    | ⟨1, _⟩ => rfl)

theorem ridx_v13 (r : Fin 262144) (c : Fin 128) (k : Fin 57) :
    ridx_main_v13 (ix2 r c) k = ix2 k c :=
  funext fun a => Fin.ext (by
    match a with
    | ⟨0, _⟩ => rfl
    | ⟨1, _⟩ => rfl)

theorem idx_b3 (r : Fin 262144) (c : Fin 128) :
    idx_main_v14 (idx_main_v15 (ix2 r c)) = ix1 c :=
  funext fun a => Fin.ext (by
    match a with
    | ⟨0, _⟩ => rfl)

theorem v17_at (x0 : (⟨S262144x126, .f32⟩ : BufTy).Contents (Elt Ideal)) (x1 : (⟨S262144x1, .f32⟩ : BufTy).Contents (Elt Ideal))
    (x2 : (⟨S9x16, .f32⟩ : BufTy).Contents (Elt Ideal))
    (x3 : (⟨S16, .f32⟩ : BufTy).Contents (Elt Ideal)) (x4 : (⟨S16x4, .f32⟩ : BufTy).Contents (Elt Ideal))
    (x5 : (⟨S4, .f32⟩ : BufTy).Contents (Elt Ideal)) (x6 : (⟨S57x128, .f32⟩ : BufTy).Contents (Elt Ideal))
    (x7 : (⟨S128, .f32⟩ : BufTy).Contents (Elt Ideal)) (r : Fin 262144) (c : Fin 128) :
    val_main_v17 (F := Ideal) x0 x1 x2 x3 x4 x5 x6 x7 (ix2 r c)
      = Cert.Mlp.z (fun k => x0 (ix2 r k)) (x1 (ix2 r (0 : Fin 1))) (fun i j => x2 (ix2 i j)) (fun j => x3 (ix1 j))
          (fun j o => x4 (ix2 j o)) (fun o => x5 (ix1 o)) (fun k c => x6 (ix2 k c)) (fun c => x7 (ix1 c)) c := by
  rw [val_main_v17_apply, val_main_v16_apply, val_main_v13_apply, val_main_v15_apply, val_main_v14_apply,
    val_main_call2_v0_apply, val_main_call2_cst_apply]
  simp only [lidx_v13, ridx_v13, idx_b3, v12_at, Ideal.addf_def, Ideal.maximumf_def, Ideal.ofBits_def,
    Ideal.ofBits_zero_f32]
  rfl

/-! ## The fourth layer -/

theorem lidx_v18 (r : Fin 262144) (c : Fin 30) (k : Fin 128) :
    lidx_main_v18 (ix2 r c) k = ix2 r k :=
  funext fun a => Fin.ext (by
    match a with
    | ⟨0, _⟩ => rfl
    | ⟨1, _⟩ => rfl)

theorem ridx_v18 (r : Fin 262144) (c : Fin 30) (k : Fin 128) :
    ridx_main_v18 (ix2 r c) k = ix2 k c :=
  funext fun a => Fin.ext (by
    match a with
    | ⟨0, _⟩ => rfl
    | ⟨1, _⟩ => rfl)

theorem idx_b4 (r : Fin 262144) (c : Fin 30) :
    idx_main_v19 (idx_main_v20 (ix2 r c)) = ix1 c :=
  funext fun a => Fin.ext (by
    match a with
    | ⟨0, _⟩ => rfl)

theorem v21_at (x0 : (⟨S262144x126, .f32⟩ : BufTy).Contents (Elt Ideal)) (x1 : (⟨S262144x1, .f32⟩ : BufTy).Contents (Elt Ideal)) (x2 : (⟨S9x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal)) (x6 : (⟨S57x128, .f32⟩ : BufTy).Contents (Elt Ideal)) (x7 : (⟨S128, .f32⟩ : BufTy).Contents (Elt Ideal)) (x8 : (⟨S128x30, .f32⟩ : BufTy).Contents (Elt Ideal)) (x9 : (⟨S30, .f32⟩ : BufTy).Contents (Elt Ideal)) (r : Fin 262144) (c : Fin 30) :
    val_main_v21 (F := Ideal) x0 x1 x2 x3 x4 x5 x6 x7 x8 x9 (ix2 r c)
      = Cert.Mlp.outAt x0 x1 x2 x3 x4 x5 x6 x7 x8 x9 r c := by
  rw [val_main_v21_apply, val_main_v18_apply, val_main_v20_apply, val_main_v19_apply]
  simp only [lidx_v18, ridx_v18, idx_b4, v17_at, Ideal.addf_def]
  rfl

/-! ## The two results -/

theorem idx_lo (r : Fin 262144) (c : Fin 15) :
    idx_main_v22 (ix2 r c) = ix2 r (⟨c.val, by omega⟩ : Fin 30) :=
  funext fun a => Fin.ext (by
    match a with
    | ⟨0, _⟩ => rfl
    | ⟨1, _⟩ => rfl)

theorem idx_hi (r : Fin 262144) (c : Fin 15) :
    idx_main_v23 (ix2 r c) = ix2 r (⟨15 + c.val, by omega⟩ : Fin 30) :=
  funext fun a => Fin.ext (by
    match a with
    | ⟨0, _⟩ => rfl
    | ⟨1, _⟩ => rfl)

/-- The first result of the reference is the hyperbolic tangent of the network's outputs 0 … 14. -/
theorem ref_mean (x0 : (⟨S262144x126, .f32⟩ : BufTy).Contents (Elt Ideal)) (x1 : (⟨S262144x1, .f32⟩ : BufTy).Contents (Elt Ideal)) (x2 : (⟨S9x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal)) (x6 : (⟨S57x128, .f32⟩ : BufTy).Contents (Elt Ideal)) (x7 : (⟨S128, .f32⟩ : BufTy).Contents (Elt Ideal)) (x8 : (⟨S128x30, .f32⟩ : BufTy).Contents (Elt Ideal)) (x9 : (⟨S30, .f32⟩ : BufTy).Contents (Elt Ideal)) :
    Read.val_main_v24 (F := Ideal) x0 x1 x2 x3 x4 x5 x6 x7 x8 x9 = Cert.Mlp.Gmean x0 x1 x2 x3 x4 x5 x6 x7 x8 x9 := by
  funext i
  obtain ⟨r, c, rfl⟩ : ∃ (r : Fin 262144) (c : Fin 15), i = ix2 r c := ⟨i 0, i 1, eq_ix2 i⟩
  rw [val_main_v24_apply, val_main_v22_apply, idx_lo, v21_at, Cert.Mlp.Gmean_ix2, Ideal.hostUnary_tanh_def]

/-- The second result of the reference is the exponential of the network's outputs 15 … 29. -/
theorem ref_std (x0 : (⟨S262144x126, .f32⟩ : BufTy).Contents (Elt Ideal)) (x1 : (⟨S262144x1, .f32⟩ : BufTy).Contents (Elt Ideal)) (x2 : (⟨S9x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal)) (x6 : (⟨S57x128, .f32⟩ : BufTy).Contents (Elt Ideal)) (x7 : (⟨S128, .f32⟩ : BufTy).Contents (Elt Ideal)) (x8 : (⟨S128x30, .f32⟩ : BufTy).Contents (Elt Ideal)) (x9 : (⟨S30, .f32⟩ : BufTy).Contents (Elt Ideal)) :
    Read.val_main_v25 (F := Ideal) x0 x1 x2 x3 x4 x5 x6 x7 x8 x9 = Cert.Mlp.Gstd x0 x1 x2 x3 x4 x5 x6 x7 x8 x9 := by
  funext i
  obtain ⟨r, c, rfl⟩ : ∃ (r : Fin 262144) (c : Fin 15), i = ix2 r c := ⟨i 0, i 1, eq_ix2 i⟩
  rw [val_main_v25_apply, val_main_v23_apply, idx_hi, v21_at, Cert.Mlp.Gstd_ix2, Ideal.hostUnary_exp_def]

end Cert.ReferenceIdeal.RefValue

end
-- ==== Proof.lean ====
/-
  A batched actor network computed two ways, equal on the extended reals.

  Each of the 262144 batch rows holds 126 features, read as 14 groups of 9, and one extra scalar.  Every group goes
  through the same small network 9 → 16 → 4 with a maximum against 0 after each layer; the 56 group outputs and the
  extra scalar go through 57 → 128 (maximum against 0) → 30; the results are the hyperbolic tangent of the first 15
  outputs and the exponential of the last 15.

  The reference computes this directly: a reshape to [262144, 14, 9], two contractions with the shared group weights,
  a reshape back, a concatenation with the scalar column, two more contractions, a split of the 30 columns.

  The kernel handles the 14 groups at once.  Before its one region the host builds the block-diagonal matrices
  (126 × 224 with `W1` in the 14 diagonal 9 × 16 blocks, 224 × 56 with `W2` in the 14 diagonal 16 × 4 blocks, zeros
  elsewhere), repeats the two group biases 14 times, cuts `W3` into its first 56 rows and its last row, and cuts `W4`
  and `b4` into two halves of 15 columns.  The region runs over 32 tiles of 8192 rows; on a tile it multiplies by the
  block-diagonal matrices, adds the scalar column times the last row of `W3` to the product with the first 56 rows,
  and applies one affine head per result.

  The two agree entry by entry: a sum against a block-diagonal column keeps only the terms of its own block, because a
  product with a zero entry is zero on the extended reals whatever the other factor is; the 57-term sum is its first
  56 terms plus the last one; and taking 15 columns of `W4` and `b4` commutes with the product and the sum.  Only
  commutativity and associativity of addition and `x · 0 = 0` are used, so the finiteness of the inputs is never
  needed.  The 32 tiles' blocks cover every row of both result arrays.

  The ideal pass rewrote nothing in the kernel, so its idealization is its own text read at the extended reals.
-/
import proofs.«106184_j12446815223911_2_alg».proof.Defs
import proofs.«106184_j12446815223911_2_alg».proof.Proof.Gen.Kernel
import proofs.«106184_j12446815223911_2_alg».proof.Proof.Gen.Kernel.Skeleton
import proofs.«106184_j12446815223911_2_alg».proof.Proof.Gen.Kernel.Launch
import proofs.«106184_j12446815223911_2_alg».proof.Proof.Gen.Kernel.Points
import proofs.«106184_j12446815223911_2_alg».proof.Proof.Gen.Kernel.Frame
import proofs.«106184_j12446815223911_2_alg».proof.Proof.Gen.KernelIdeal
import proofs.«106184_j12446815223911_2_alg».proof.Proof.Gen.KernelIdeal.Skeleton
import proofs.«106184_j12446815223911_2_alg».proof.Proof.Gen.KernelIdeal.Launch
import proofs.«106184_j12446815223911_2_alg».proof.Proof.Gen.KernelIdeal.Points
import proofs.«106184_j12446815223911_2_alg».proof.Proof.Gen.KernelIdeal.Frame
import proofs.«106184_j12446815223911_2_alg».proof.Proof.Gen.ReferenceIdeal
import proofs.«106184_j12446815223911_2_alg».proof.Proof.Gen.Pre_finite_inputs
import proofs.«106184_j12446815223911_2_alg».proof.Proof.Gen.KernelIdeal.Value
import proofs.«106184_j12446815223911_2_alg».proof.Proof.Gen.ReferenceIdeal.Run
import proofs.«106184_j12446815223911_2_alg».proof.Proof.Gen.ReferenceIdeal.Read
import proofs.«106184_j12446815223911_2_alg».proof.Proof.KernelValue
import proofs.«106184_j12446815223911_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read at the extended reals runs and leaves its arguments unchanged. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories that agree on the ten arguments, end with the first result array at the hyperbolic
    tangent of the network's outputs 0 … 14 and the second at the exponential of its outputs 15 … 29, row by row. -/
theorem algebraic : Cert.algebraic_KernelIdeal_ReferenceIdeal := by
  intro m ρ m' ρ' _ hagree
  refine ⟨fun c => Cert.KernelIdeal.KValue.Gm m c, fun c => Cert.KernelIdeal.KValue.Gs m c,
    Cert.KernelIdeal.KValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v24_eq (F := Ideal) _ _ _ _ _ _ _ _ _ _).trans ?_
    refine (Cert.ReferenceIdeal.RefValue.ref_mean _ _ _ _ _ _ _ _ _ _).trans ?_
    obtain ⟨a0, a1, a2, a3, a4, a5, a6, a7, a8, a9⟩ := hagree c
    rw [a0, a1, a2, a3, a4, a5, a6, a7, a8, a9]
  · refine (Cert.ReferenceIdeal.Read.val_main_v25_eq (F := Ideal) _ _ _ _ _ _ _ _ _ _).trans ?_
    refine (Cert.ReferenceIdeal.RefValue.ref_std _ _ _ _ _ _ _ _ _ _).trans ?_
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
